-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 32 := constantI S_ 32 10000#32
  let main_v36 : IVec S2x160000 32 := broadcastInDim S2x160000 ![] bcast_S_S2x160000 main_c_13
  let main_v37 : IVec S2x160000 1 := cmpi .slt main_arg1 main_v36
  let main_v38 : IVec S2x160000 1 := andi main_v35 main_v37
  let main_c_14 : IVec S_ 1 := constantI S_ 1 1#1
  let main_v39 : IVec S_ 1 := (fun x v => Host.reduce IntOp.andi x v reducesTo_S2x160000_S_d0_1 h_S_) main_v38 main_c_14
  let main_v40 : IVec S_ 1 := andi main_v33 main_v39
  main_v40

def fn_part1 {F : FTy → Type} [FloatOps F] (main_arg1 : IVec S2x160000 32) (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S10000x256 .f32) (main_arg1 : IVec S2x160000 32) (main_arg2 : FVec F S256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S1x160000 : Shape := ⟨2, ![1, 160000]⟩
abbrev S160000 : Shape := ⟨1, ![160000]⟩
abbrev S1x256 : Shape := ⟨2, ![1, 256]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x256 : Shape := ⟨2, ![160000, 256]⟩

abbrev nBuf : Space → Nat
  | .hbm => 80
  | .vmem => 13
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S10000x256, .f32⟩
  | .hbm, ⟨17, _⟩ => ⟨S_, .f32⟩
  | .hbm, ⟨18, _⟩ => ⟨S10000, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S_, .f32⟩
  | .hbm, ⟨28, _⟩ => ⟨S160000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x256, .f32⟩
  | .hbm, ⟨36, _⟩ => ⟨S10000x256, .f32⟩
  | .hbm, ⟨37, _⟩ => ⟨S_, .f32⟩
  | .hbm, ⟨38, _⟩ => ⟨S10000x256, .f32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S160000x256, .f32⟩
  | .hbm, ⟨48, _⟩ => ⟨S_, .i32⟩
  | .hbm, ⟨49, _⟩ => ⟨S160000, .i32⟩
  | .hbm, ⟨50, _⟩ => ⟨S160000, .i1⟩
  | .hbm, ⟨51, _⟩ => ⟨S_, .i32⟩
  | .hbm, ⟨52, _⟩ => ⟨S160000, .i32⟩
  | .hbm, ⟨53, _⟩ => ⟨S160000, .i32⟩
  | .hbm, ⟨54, _⟩ => ⟨S160000, .i32⟩
  | .hbm, ⟨55, _⟩ => ⟨S160000x1, .i32⟩
  | .hbm, ⟨56, _⟩ => ⟨S10000x256, .f32⟩
  | .hbm, ⟨57, _⟩ => ⟨S_, .f32⟩
  | .hbm, ⟨58, _⟩ => ⟨S10000, .f32⟩
  | .hbm, ⟨59, _⟩ => ⟨S_, .i32⟩
  | .hbm, ⟨60, _⟩ => ⟨S160000, .i32⟩
  | .hbm, ⟨61, _⟩ => ⟨S160000, .i1⟩
  | .hbm, ⟨62, _⟩ => ⟨S_, .i32⟩
  | .hbm, ⟨63, _⟩ => ⟨S160000, .i32⟩
  | .hbm, ⟨64, _⟩ => ⟨S160000, .i32⟩
  | .hbm, ⟨65, _⟩ => ⟨S160000, .i32⟩
  | .hbm, ⟨66, _⟩ => ⟨S160000x1, .i32⟩
  | .hbm, ⟨67, _⟩ => ⟨S160000, .f32⟩
  | .hbm, ⟨68, _⟩ => ⟨S_, .i32⟩
  | .hbm, ⟨69, _⟩ => ⟨S160000, .i32⟩
  | .hbm, ⟨70, _⟩ => ⟨S160000, .i1⟩
  | .hbm, ⟨71, _⟩ => ⟨S_, .i32⟩
  | .hbm, ⟨72, _⟩ => ⟨S160000, .i32⟩
  | .hbm, ⟨73, _⟩ => ⟨S160000, .i32⟩
  | .hbm, ⟨74, _⟩ => ⟨S160000, .i32⟩
  | .hbm, ⟨75, _⟩ => ⟨S160000x1, .i32⟩
  | .hbm, ⟨76, _⟩ => ⟨S10000, .f32⟩
  | .hbm, ⟨77, _⟩ => ⟨S10000x1, .f32⟩
  | .hbm, ⟨78, _⟩ => ⟨S10000x1, .f32⟩
  | .hbm, ⟨79, _⟩ => ⟨S1x256, .f32⟩
  | .local _ .vmem, ⟨0, _⟩ => ⟨S10000x256, .f32⟩
  | .local _ .vmem, ⟨1, _⟩ => ⟨S1x256, .f32⟩
  | .local _ .vmem, ⟨2, _⟩ => ⟨S1x256, .f32⟩
  | .local _ .vmem, ⟨3, _⟩ => ⟨S256x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S10000x1, .f32⟩
  | .local _ .vmem, ⟨8, _⟩ => ⟨S10000x1, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S10000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  reduces_S10000x256_S256 : S10000x256.Reduces [0] S256
  broadcasts_S1x256_S10000x256 : S1x256.Broadcasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x256_S10000x256 : S10000x256.ShapeCasts S10000x256
  broadcasts_S10000x1_S10000x256 : S10000x1.Broadcasts S10000x256
  dot_S10000x256_S256x256_S10000x256_1_0_0_1_n_n_wf : DotDims.WF S10000x256 S256x256 S10000x256 [1] [0] [0] [1] [] []
  scatter_S10000_S160000x1_S160000_n_0_0_1_wf : ScatterDims.WF S10000 S160000x1 S160000 [] [0] [0] 1
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  gather_S10000_S160000x1_S160000_n_0_n_n_0_1_1_wf : GatherDims.WF S10000 S160000x1 S160000 [] [0] [] [0] [] 1 ![1]
  dot_S1x256_S256x256_S1x256_1_0_0_1_n_n_wf : DotDims.WF S1x256 S256x256 S1x256 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v4) false false (stage0_1 0) (sem0_1 0) (Memref.isWhole_whole _) (hstage0_1 0)

abbrev win0_2 : Pipeline.Window sig grid0 :=
  Pipeline.Window.whole (Memref.whole main_v5) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v8) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.whole (Memref.whole main_v38) false false (stage1_0 0) (sem1_0 0) (Memref.isWhole_whole _) (hstage1_0 0)

abbrev win1_1 : Pipeline.Window sig grid1 :=
  Pipeline.Window.whole (Memref.whole main_v23) false false (stage1_1 0) (sem1_1 0) (Memref.isWhole_whole _) (hstage1_1 0)

abbrev win1_2 : Pipeline.Window sig grid1 :=
  Pipeline.Window.whole (Memref.whole main_v54) false false (stage1_2 0) (sem1_2 0) (Memref.isWhole_whole _) (hstage1_2 0)

abbrev win1_3 : Pipeline.Window sig grid1 :=
  Pipeline.Window.whole (Memref.whole main_v55) false false (stage1_3 0) (sem1_3 0) (Memref.isWhole_whole _) (hstage1_3 0)

abbrev win1_4 : Pipeline.Window sig grid1 :=
  Pipeline.Window.whole (Memref.whole main_v6) false false (stage1_4 0) (sem1_4 0) (Memref.isWhole_whole _) (hstage1_4 0)

abbrev win1_5 : Pipeline.Window sig grid1 :=
  Pipeline.Window.whole (Memref.whole main_arg6) false false (stage1_5 0) (sem1_5 0) (Memref.isWhole_whole _) (hstage1_5 0)

abbrev win1_6 : Pipeline.Window sig grid1 :=
  Pipeline.Window.whole (Memref.whole main_v7) false false (stage1_6 0) (sem1_6 0) (Memref.isWhole_whole _) (hstage1_6 0)

abbrev win1_7 : Pipeline.Window sig grid1 :=
  Pipeline.Window.whole (Memref.whole main_v56) true false (stage1_7 0) (sem1_7 0) (Memref.isWhole_whole _) (hstage1_7 0)

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S_ : Shape := ⟨0, ![]⟩
abbrev S1x256 : Shape := ⟨2, ![1, 256]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S170000x1 : Shape := ⟨2, ![170000, 1]⟩
abbrev S170000x256 : Shape := ⟨2, ![170000, 256]⟩

abbrev nBuf : Space → Nat
  | .hbm => 209
  | .vmem => 0
  | .smem => 0
  | _ => 0

abbrev hbmTy0_0 (i : Nat) : BufTy := match i % 128 with
  | 0 => ⟨S10000x256, .f32⟩
  | 1 => ⟨S2x160000, .i32⟩
  | 2 => ⟨S256, .f32⟩
  | 3 => ⟨S256, .f32⟩
  | 4 => ⟨S256x256, .f32⟩
  | 5 => ⟨S256, .f32⟩
  | 6 => ⟨S256x256, .f32⟩
  | 7 => ⟨S256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S10000x256, .f32⟩
  | 21 => ⟨S10000x256, .f32⟩
  | 22 => ⟨S10000x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S10000x256, .f32⟩
  | 38 => ⟨S10000x256, .f32⟩
  | 39 => ⟨S_, .f32⟩
  | 40 => ⟨S256, .f32⟩
  | 41 => ⟨S256, .f32⟩
  | 42 => ⟨S256, .f32⟩
  | 43 => ⟨S1x256, .f32⟩
  | 44 => ⟨S10000x256, .f32⟩
  | 45 => ⟨S10000x256, .f32⟩
  | 46 => ⟨S1x256, .f32⟩
  | 47 => ⟨S10000x256, .f32⟩
  | 48 => ⟨S10000x256, .f32⟩
  | 49 => ⟨S1x256, .f32⟩
  | 50 => ⟨S10000x256, .f32⟩
  | 51 => ⟨S10000x256, .f32⟩
  | 52 => ⟨S1x160000, .i32⟩
  | 53 => ⟨S160000, .i32⟩
  | 54 => ⟨S1x160000, .i32⟩
  | 55 => ⟨S160000, .i32⟩
  | 56 => ⟨S10000x256, .f32⟩
  | 57 => ⟨S10000, .i32⟩
  | 58 => ⟨S170000, .i32⟩
  | 59 => ⟨S170000, .i32⟩
  | 60 => ⟨S_, .f32⟩
  | 61 => ⟨S10000, .f32⟩
  | 62 => ⟨S_, .i32⟩
  | 63 => ⟨S170000, .i32⟩
  | 64 => ⟨S170000, .i1⟩
  | 65 => ⟨S_, .i32⟩
  | 66 => ⟨S170000, .i32⟩
  | 67 => ⟨S170000, .i32⟩
  | 68 => ⟨S170000, .i32⟩
  | 69 => ⟨S170000x1, .i32⟩
  | 70 => ⟨S_, .f32⟩
  | 71 => ⟨S170000, .f32⟩
  | 72 => ⟨S10000, .f32⟩
  | 73 => ⟨S_, .f32⟩
  | 74 => ⟨S10000, .f32⟩
  | 75 => ⟨S10000, .i1⟩
  | 76 => ⟨S10000, .f32⟩
  | 77 => ⟨S_, .f32⟩
  | 78 => ⟨S_, .f32⟩
  | 79 => ⟨S10000, .f32⟩
  | 80 => ⟨S10000, .f32⟩
  | 81 => ⟨S_, .i32⟩
  | 82 => ⟨S170000, .i32⟩
  | 83 => ⟨S170000, .i1⟩
  | 84 => ⟨S_, .i32⟩
  | 85 => ⟨S170000, .i32⟩
  | 86 => ⟨S170000, .i32⟩
  | 87 => ⟨S170000, .i32⟩
  | 88 => ⟨S170000x1, .i32⟩
  | 89 => ⟨S170000, .f32⟩
  | 90 => ⟨S_, .i32⟩
  | 91 => ⟨S170000, .i32⟩
  | 92 => ⟨S170000, .i1⟩
  | 93 => ⟨S_, .i32⟩
  | 94 => ⟨S170000, .i32⟩
  | 95 => ⟨S170000, .i32⟩
  | 96 => ⟨S170000, .i32⟩
  | 97 => ⟨S170000x1, .i32⟩
  | 98 => ⟨S170000, .f32⟩
  | 99 => ⟨S170000, .f32⟩
  | 100 => ⟨S_, .i32⟩
  | 101 => ⟨S170000, .i32⟩
  | 102 => ⟨S170000, .i1⟩
  | 103 => ⟨S_, .i32⟩
  | 104 => ⟨S170000, .i32⟩
  | 105 => ⟨S170000, .i32⟩
  | 106 => ⟨S170000, .i32⟩
  | 107 => ⟨S170000x1, .i32⟩
  | 108 => ⟨S170000x256, .f32⟩
  | 109 => ⟨S170000x1, .f32⟩
  | 110 => ⟨S170000x256, .f32⟩
  | 111 => ⟨S170000x256, .f32⟩
  | 112 => ⟨S_, .f32⟩
  | 113 => ⟨S10000x256, .f32⟩
  | 114 => ⟨S_, .i32⟩
  | 115 => ⟨S170000, .i32⟩
  | 116 => ⟨S170000, .i1⟩
  | 117 => ⟨S_, .i32⟩
  | 118 => ⟨S170000, .i32⟩
  | 119 => ⟨S170000, .i32⟩
  | 120 => ⟨S170000, .i32⟩
  | 121 => ⟨S170000x1, .i32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x256, .f32⟩

abbrev hbmTy0_1 (i : Nat) : BufTy := match i % 128 with
  | 0 => ⟨S10000x256, .i1⟩
  | 1 => ⟨S_, .f32⟩
  | 2 => ⟨S10000x256, .f32⟩
  | 3 => ⟨S10000x256, .f32⟩
  | 4 => ⟨S10000x256, .f32⟩
  | 5 => ⟨S10000x256, .f32⟩
  | 6 => ⟨S10000, .i32⟩
  | 7 => ⟨S170000, .i32⟩
  | 8 => ⟨S170000, .i32⟩
  | 9 => ⟨S_, .f32⟩
  | 10 => ⟨S10000, .f32⟩
  | 11 => ⟨S_, .i32⟩
  | 12 => ⟨S170000, .i32⟩
  | 13 => ⟨S170000, .i1⟩
  | 14 => ⟨S_, .i32⟩
  | 15 => ⟨S170000, .i32⟩
  | 16 => ⟨S170000, .i32⟩
  | 17 => ⟨S170000, .i32⟩
  | 18 => ⟨S170000x1, .i32⟩
  | 19 => ⟨S_, .f32⟩
  | 20 => ⟨S170000, .f32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S_, .f32⟩
  | 28 => ⟨S10000, .f32⟩
  | 29 => ⟨S10000, .f32⟩
  | 30 => ⟨S_, .i32⟩
  | 31 => ⟨S170000, .i32⟩
  | 32 => ⟨S170000, .i1⟩
  | 33 => ⟨S_, .i32⟩
  | 34 => ⟨S170000, .i32⟩
  | 35 => ⟨S170000, .i32⟩
  | 36 => ⟨S170000, .i32⟩
  | 37 => ⟨S170000x1, .i32⟩
  | 38 => ⟨S170000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S170000, .f32⟩
  | 48 => ⟨S170000, .f32⟩
  | 49 => ⟨S_, .i32⟩
  | 50 => ⟨S170000, .i32⟩
  | 51 => ⟨S170000, .i1⟩
  | 52 => ⟨S_, .i32⟩
  | 53 => ⟨S170000, .i32⟩
  | 54 => ⟨S170000, .i32⟩
  | 55 => ⟨S170000, .i32⟩
  | 56 => ⟨S170000x1, .i32⟩
  | 57 => ⟨S170000x256, .f32⟩
  | 58 => ⟨S170000x1, .f32⟩
  | 59 => ⟨S170000x256, .f32⟩
  | 60 => ⟨S170000x256, .f32⟩
  | 61 => ⟨S_, .f32⟩
  | 62 => ⟨S10000x256, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S10000x256, .f32⟩
  | 72 => ⟨S1x256, .f32⟩
  | 73 => ⟨S10000x256, .f32⟩
  | 74 => ⟨S10000x256, .f32⟩
  | 75 => ⟨S_, .f32⟩
  | 76 => ⟨S256, .f32⟩
  | 77 => ⟨S1x256, .f32⟩
  | 78 => ⟨S_, .f32⟩
  | 79 => ⟨S1x256, .f32⟩
  | 80 => ⟨S1x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_c_3 : Ref sig .tc := ⟨.hbm, 62, rfl⟩
abbrev main_v28 : Ref sig .tc := ⟨.hbm, 63, rfl⟩
abbrev main_v29 : Ref sig .tc := ⟨.hbm, 64, rfl⟩
abbrev main_c_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_5 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_call1_v0 : Ref sig .tc := ⟨.hbm, 78, rfl⟩
abbrev main_call1_v1 : Ref sig .tc := ⟨.hbm, 79, rfl⟩
abbrev main_v39 : Ref sig .tc := ⟨.hbm, 80, rfl⟩
abbrev main_c_8 : Ref sig .tc := ⟨.hbm, 81, rfl⟩
abbrev main_v40 : Ref sig .tc := ⟨.hbm, 82, rfl⟩
abbrev main_v41 : Ref sig .tc := ⟨.hbm, 83, rfl⟩
abbrev main_c_9 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_c_10 : Ref sig .tc := ⟨.hbm, 90, rfl⟩
abbrev main_v47 : Ref sig .tc := ⟨.hbm, 91, rfl⟩
abbrev main_v48 : Ref sig .tc := ⟨.hbm, 92, rfl⟩
abbrev main_c_11 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_12 : Ref sig .tc := ⟨.hbm, 100, rfl⟩
abbrev main_v55 : Ref sig .tc := ⟨.hbm, 101, rfl⟩
abbrev main_v56 : Ref sig .tc := ⟨.hbm, 102, rfl⟩
abbrev main_c_13 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_14 : Ref sig .tc := ⟨.hbm, 112, rfl⟩
abbrev main_v65 : Ref sig .tc := ⟨.hbm, 113, rfl⟩
abbrev main_c_15 : Ref sig .tc := ⟨.hbm, 114, rfl⟩
abbrev main_v66 : Ref sig .tc := ⟨.hbm, 115, rfl⟩
abbrev main_v67 : Ref sig .tc := ⟨.hbm, 116, rfl⟩
abbrev main_c_16 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_17 : Ref sig .tc := ⟨.hbm, 126, rfl⟩
abbrev main_v76 : Ref sig .tc := ⟨.hbm, 127, rfl⟩
abbrev main_v77 : Ref sig .tc := ⟨.hbm, 128, rfl⟩
abbrev main_cst_18 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_19 : Ref sig .tc := ⟨.hbm, 137, rfl⟩
abbrev main_v85 : Ref sig .tc := ⟨.hbm, 138, rfl⟩
abbrev main_c_20 : Ref sig .tc := ⟨.hbm, 139, rfl⟩
abbrev main_v86 : Ref sig .tc := ⟨.hbm, 140, rfl⟩
abbrev main_v87 : Ref sig .tc := ⟨.hbm, 141, rfl⟩
abbrev main_c_21 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_22 : Ref sig .tc := ⟨.hbm, 147, rfl⟩
abbrev main_v92 : Ref sig .tc := ⟨.hbm, 148, rfl⟩
abbrev main_v93 : Ref sig .tc := ⟨.hbm, 149, rfl⟩
abbrev main_cst_23 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_24 : Ref sig .tc := ⟨.hbm, 154, rfl⟩
abbrev main_call3_v0 : Ref sig .tc := ⟨.hbm, 155, rfl⟩
abbrev main_call3_v1 : Ref sig .tc := ⟨.hbm, 156, rfl⟩
abbrev main_v97 : Ref sig .tc := ⟨.hbm, 157, rfl⟩
abbrev main_c_25 : Ref sig .tc := ⟨.hbm, 158, rfl⟩
abbrev main_v98 : Ref sig .tc := ⟨.hbm, 159, rfl⟩
abbrev main_v99 : Ref sig .tc := ⟨.hbm, 160, rfl⟩
abbrev main_c_26 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_27 : Ref sig .tc := ⟨.hbm, 167, rfl⟩
abbrev main_v105 : Ref sig .tc := ⟨.hbm, 168, rfl⟩
abbrev main_v106 : Ref sig .tc := ⟨.hbm, 169, rfl⟩
abbrev main_c_28 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_c_29 : Ref sig .tc := ⟨.hbm, 177, rfl⟩
abbrev main_v113 : Ref sig .tc := ⟨.hbm, 178, rfl⟩
abbrev main_v114 : Ref sig .tc := ⟨.hbm, 179, rfl⟩
abbrev main_c_30 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_31 : Ref sig .tc := ⟨.hbm, 189, rfl⟩
abbrev main_v123 : Ref sig .tc := ⟨.hbm, 190, rfl⟩
abbrev main_c_32 : Ref sig .tc := ⟨.hbm, 191, rfl⟩
abbrev main_v124 : Ref sig .tc := ⟨.hbm, 192, rfl⟩
abbrev main_v125 : Ref sig .tc := ⟨.hbm, 193, rfl⟩
abbrev main_c_33 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_34 : Ref sig .tc := ⟨.hbm, 203, rfl⟩
abbrev main_v134 : Ref sig .tc := ⟨.hbm, 204, rfl⟩
abbrev main_v135 : Ref sig .tc := ⟨.hbm, 205, rfl⟩
abbrev main_cst_35 : Ref sig .tc := ⟨.hbm, 206, rfl⟩
abbrev main_v136 : Ref sig .tc := ⟨.hbm, 207, rfl⟩
abbrev main_v137 : Ref sig .tc := ⟨.hbm, 208, rfl⟩

abbrev nD : Nat := 1
abbrev τ : Topo := Topo.v7x

variable {F : FTy → Type} [FloatOps F]

class Facts₀ : Prop where
  reducesTo_S10000x256_S256_d0 : S10000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S10000x256_0_1 : S1x256.BroadcastsInDim S10000x256 (![0, 1] : Fin 2 → Fin S10000x256.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S_S170000 : S_.BroadcastsInDim S170000 (![] : Fin 0 → Fin S170000.rank)
  bcast_S170000_S170000x1_0 : S170000.BroadcastsInDim S170000x1 (![0] : Fin 1 → Fin S170000x1.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

class Facts : Prop extends Facts₀ where

variable [Facts]
-- ==== Proof.KernelRun.lean ====
/-
  The idealized kernel program's run with every buffer named at the end: after the two kernel regions and the host
  operations between them, each unscoped TensorCore buffer holds the last boundary's contents (the fold of the host
  stretches and the regions' write-backs through the program).  The frame ("the arguments end unchanged") and the
  result's value are both read off this one run.
-/
import proofs.«181894_g58806692217087_cont_9to1_m_85_9_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and at the end every unscoped
    buffer of every core holds the last boundary's contents `Gen.W4`. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.GcnRun

end
-- ==== Proof.KernelRegion.lean ====
/-
  Each kernel region's output array after the region, as the body's result of the region's entry arrays.
  Both calls have one grid point and every window's block is its whole array, so the block a window stages is the
  array itself and the one write-back covers the output array.
-/
import proofs.«181894_g58806692217087_cont_9to1_m_85_9_alg».proof.Proof.Gen.KernelIdeal.Frame
import Idealize.ShloMosaic.Lib.Pipeline.Value

set_option maxRecDepth 16384

noncomputable section

namespace Cert.KernelIdeal.GcnRegion

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (V : (c : Dev nD) → (b : Ref sig .tc) → Buf (Elt F) ((c : Thread nD τ).loc b))

/-! ## The first call -/

theorem iblk0_0 (c : Dev nD) (t : Fin cfg0.N) : (iblk0 V c 0 t : Vec F S10000x256 .f32) = (V c main_arg0 : S10000x256.Idx → Elt F .f32) := by
  obtain rfl := fin_N0 t
  unfold iblk0
  have hz : (fun a => win0_0.index t0_0 a * main_arg0.ty.shape.size a) = fun _ => 0 := funext fun a => by fin_cases a <;> decide
  exact Memref.read_access_unit_zero (Elt F) main_arg0 hz (fun a => by rw [congrFun hz a]; simp) (V c main_arg0)

theorem iblk0_1 (c : Dev nD) (t : Fin cfg0.N) : (iblk0 V c 1 t : Vec F S1x256 .f32) = (V c main_v4 : S1x256.Idx → Elt F .f32) := by
  obtain rfl := fin_N0 t
  unfold iblk0
  have hz : (fun a => win0_1.index t0_0 a * main_v4.ty.shape.size a) = fun _ => 0 := funext fun a => by fin_cases a <;> decide
  exact Memref.read_access_unit_zero (Elt F) main_v4 hz (fun a => by rw [congrFun hz a]; simp) (V c main_v4)

theorem iblk0_2 (c : Dev nD) (t : Fin cfg0.N) : (iblk0 V c 2 t : Vec F S1x256 .f32) = (V c main_v5 : S1x256.Idx → Elt F .f32) := by
  obtain rfl := fin_N0 t
  unfold iblk0
  have hz : (fun a => win0_2.index t0_0 a * main_v5.ty.shape.size a) = fun _ => 0 := funext fun a => by fin_cases a <;> decide
  exact Memref.read_access_unit_zero (Elt F) main_v5 hz (fun a => by rw [congrFun hz a]; simp) (V c main_v5)

theorem iblk0_3 (c : Dev nD) (t : Fin cfg0.N) : (iblk0 V c 3 t : Vec F S256x256 .f32) = (V c main_arg4 : S256x256.Idx → Elt F .f32) := by
  obtain rfl := fin_N0 t
  unfold iblk0
  have hz : (fun a => win0_3.index t0_0 a * main_arg4.ty.shape.size a) = fun _ => 0 := funext fun a => by fin_cases a <;> decide
  exact Memref.read_access_unit_zero (Elt F) main_arg4 hz (fun a => by rw [congrFun hz a]; simp) (V c main_arg4)

/-- The output array of call 0 after the region is the body's result of the entry arrays. -/
theorem arr0 (c : Dev nD) : (dat0 V c).arrAt 4 cfg0.N
    = (out0_4 (V c main_arg0 : S10000x256.Idx → Elt F .f32) (V c main_v4 : S1x256.Idx → Elt F .f32) (V c main_v5 : S1x256.Idx → Elt F .f32) (V c main_arg4 : S256x256.Idx → Elt F .f32) : S10000x256.Idx → Elt F .f32) := by
  refine (dat0 V c).arrAt_eq_of_cover 4 _ (fun t _ => ?_) (fun i => ⟨t0_0, flush0_4 t0_0, ?_⟩)
  · obtain rfl := fin_N0 t
    show (cfg0.win 4).cut (grid0.coords t0_0) ((dat0 V c).after 4 t0_0) = _
    rw [after0_4, iblk0_0, iblk0_1, iblk0_2, iblk0_3]
    have hz : (fun a => win0_4.index t0_0 a * main_v8.ty.shape.size a) = fun _ => 0 := funext fun a => by fin_cases a <;> decide
    exact (Memref.read_access_unit_zero (Elt F) main_v8 hz (fun a => by rw [congrFun hz a]; simp) _).symm
  · show i ∈ ((View.whole main_v8).slice (win0_4.rect t0_0)).set
    rw [View.set_slice_whole, Rect.mem_set_unit]
    intro a
    have h0 : (i 0 : Nat) < S10000x256.size 0 := (i 0).isLt
    have h1 : (i 1 : Nat) < S10000x256.size 1 := (i 1).isLt
    match a with
    | ⟨0, _⟩ =>
      show win0_4.index t0_0 0 * win0_4.size 0 ≤ (i 0 : Nat) ∧ (i 0 : Nat) < win0_4.index t0_0 0 * win0_4.size 0 + win0_4.xsize (grid0.coords t0_0) 0
      rw [show win0_4.index t0_0 0 * win0_4.size 0 = 0 from by decide +kernel, show win0_4.xsize (grid0.coords t0_0) 0 = S10000x256.size 0 from by decide +kernel]; omega
    | ⟨1, _⟩ =>
      show win0_4.index t0_0 1 * win0_4.size 1 ≤ (i 1 : Nat) ∧ (i 1 : Nat) < win0_4.index t0_0 1 * win0_4.size 1 + win0_4.xsize (grid0.coords t0_0) 1
      rw [show win0_4.index t0_0 1 * win0_4.size 1 = 0 from by decide +kernel, show win0_4.xsize (grid0.coords t0_0) 1 = S10000x256.size 1 from by decide +kernel]; omega

/-! ## The second call -/

theorem iblk1_0 (c : Dev nD) (t : Fin cfg1.N) : (iblk1 V c 0 t : Vec F S10000x256 .f32) = (V c main_v38 : S10000x256.Idx → Elt F .f32) := by
  obtain rfl := fin_N1 t
  unfold iblk1
  have hz : (fun a => win1_0.index t1_0 a * main_v38.ty.shape.size a) = fun _ => 0 := funext fun a => by fin_cases a <;> decide
  exact Memref.read_access_unit_zero (Elt F) main_v38 hz (fun a => by rw [congrFun hz a]; simp) (V c main_v38)

theorem iblk1_1 (c : Dev nD) (t : Fin cfg1.N) : (iblk1 V c 1 t : Vec F S10000x256 .f32) = (V c main_v23 : S10000x256.Idx → Elt F .f32) := by
  obtain rfl := fin_N1 t
  unfold iblk1
  have hz : (fun a => win1_1.index t1_0 a * main_v23.ty.shape.size a) = fun _ => 0 := funext fun a => by fin_cases a <;> decide
  exact Memref.read_access_unit_zero (Elt F) main_v23 hz (fun a => by rw [congrFun hz a]; simp) (V c main_v23)

theorem iblk1_2 (c : Dev nD) (t : Fin cfg1.N) : (iblk1 V c 2 t : Vec F S10000x1 .f32) = (V c main_v54 : S10000x1.Idx → Elt F .f32) := by
  obtain rfl := fin_N1 t
  unfold iblk1
  have hz : (fun a => win1_2.index t1_0 a * main_v54.ty.shape.size a) = fun _ => 0 := funext fun a => by fin_cases a <;> decide
  exact Memref.read_access_unit_zero (Elt F) main_v54 hz (fun a => by rw [congrFun hz a]; simp) (V c main_v54)

theorem iblk1_3 (c : Dev nD) (t : Fin cfg1.N) : (iblk1 V c 3 t : Vec F S10000x1 .f32) = (V c main_v55 : S10000x1.Idx → Elt F .f32) := by
  obtain rfl := fin_N1 t
  unfold iblk1
  have hz : (fun a => win1_3.index t1_0 a * main_v55.ty.shape.size a) = fun _ => 0 := funext fun a => by fin_cases a <;> decide
  exact Memref.read_access_unit_zero (Elt F) main_v55 hz (fun a => by rw [congrFun hz a]; simp) (V c main_v55)

theorem iblk1_4 (c : Dev nD) (t : Fin cfg1.N) : (iblk1 V c 4 t : Vec F S1x256 .f32) = (V c main_v6 : S1x256.Idx → Elt F .f32) := by
  obtain rfl := fin_N1 t
  unfold iblk1
  have hz : (fun a => win1_4.index t1_0 a * main_v6.ty.shape.size a) = fun _ => 0 := funext fun a => by fin_cases a <;> decide
  exact Memref.read_access_unit_zero (Elt F) main_v6 hz (fun a => by rw [congrFun hz a]; simp) (V c main_v6)

theorem iblk1_5 (c : Dev nD) (t : Fin cfg1.N) : (iblk1 V c 5 t : Vec F S256x256 .f32) = (V c main_arg6 : S256x256.Idx → Elt F .f32) := by
  obtain rfl := fin_N1 t
  unfold iblk1
  have hz : (fun a => win1_5.index t1_0 a * main_arg6.ty.shape.size a) = fun _ => 0 := funext fun a => by fin_cases a <;> decide
  exact Memref.read_access_unit_zero (Elt F) main_arg6 hz (fun a => by rw [congrFun hz a]; simp) (V c main_arg6)

theorem iblk1_6 (c : Dev nD) (t : Fin cfg1.N) : (iblk1 V c 6 t : Vec F S1x256 .f32) = (V c main_v7 : S1x256.Idx → Elt F .f32) := by
  obtain rfl := fin_N1 t
  unfold iblk1
  have hz : (fun a => win1_6.index t1_0 a * main_v7.ty.shape.size a) = fun _ => 0 := funext fun a => by fin_cases a <;> decide
  exact Memref.read_access_unit_zero (Elt F) main_v7 hz (fun a => by rw [congrFun hz a]; simp) (V c main_v7)

/-- The output array of call 1 after the region is the body's result of the entry arrays. -/
theorem arr1 (c : Dev nD) : (dat1 V c).arrAt 7 cfg1.N
    = (out1_7 (V c main_v38 : S10000x256.Idx → Elt F .f32) (V c main_v23 : S10000x256.Idx → Elt F .f32) (V c main_v54 : S10000x1.Idx → Elt F .f32) (V c main_v55 : S10000x1.Idx → Elt F .f32) (V c main_v6 : S1x256.Idx → Elt F .f32) (V c main_arg6 : S256x256.Idx → Elt F .f32) (V c main_v7 : S1x256.Idx → Elt F .f32) : S1x256.Idx → Elt F .f32) := by
  refine (dat1 V c).arrAt_eq_of_cover 7 _ (fun t _ => ?_) (fun i => ⟨t1_0, flush1_7 t1_0, ?_⟩)
  · obtain rfl := fin_N1 t
    show (cfg1.win 7).cut (grid1.coords t1_0) ((dat1 V c).after 7 t1_0) = _
    rw [after1_7, iblk1_0, iblk1_1, iblk1_2, iblk1_3, iblk1_4, iblk1_5, iblk1_6]
    have hz : (fun a => win1_7.index t1_0 a * main_v56.ty.shape.size a) = fun _ => 0 := funext fun a => by fin_cases a <;> decide
    exact (Memref.read_access_unit_zero (Elt F) main_v56 hz (fun a => by rw [congrFun hz a]; simp) _).symm
  · show i ∈ ((View.whole main_v56).slice (win1_7.rect t1_0)).set
    rw [View.set_slice_whole, Rect.mem_set_unit]
    intro a
    have h0 : (i 0 : Nat) < S1x256.size 0 := (i 0).isLt
    have h1 : (i 1 : Nat) < S1x256.size 1 := (i 1).isLt
    match a with
    | ⟨0, _⟩ =>
      show win1_7.index t1_0 0 * win1_7.size 0 ≤ (i 0 : Nat) ∧ (i 0 : Nat) < win1_7.index t1_0 0 * win1_7.size 0 + win1_7.xsize (grid1.coords t1_0) 0
      rw [show win1_7.index t1_0 0 * win1_7.size 0 = 0 from by decide +kernel, show win1_7.xsize (grid1.coords t1_0) 0 = S1x256.size 0 from by decide +kernel]; omega
    | ⟨1, _⟩ =>
      show win1_7.index t1_0 1 * win1_7.size 1 ≤ (i 1 : Nat) ∧ (i 1 : Nat) < win1_7.index t1_0 1 * win1_7.size 1 + win1_7.xsize (grid1.coords t1_0) 1
      rw [show win1_7.index t1_0 1 * win1_7.size 1 = 0 from by decide +kernel, show win1_7.xsize (grid1.coords t1_0) 1 = S1x256.size 1 from by decide +kernel]; omega

end Cert.KernelIdeal.GcnRegion

end
-- ==== Proof.KernelTerm.lean ====
/-
  The idealized kernel program's result as one term of the argument arrays.
  Between the two calls the host computes, from the head indices `hd` and tail indices `tl` of the edges (rows 1 and 0 of
  the edge array, negative entries wrapped by the array length) and the first call's result `y`:
    cnt = scatter-add of ones at the heads,  dis = rsqrt (cnt + 1),  zt = dis · y (row-wise),
    acc = scatter-add at the heads of the rows of zt gathered at the tails,
    ss  = scatter-add at the tails of dis gathered at the heads.
  The second call's result of (acc, zt, dis, ss, b1, W2, b2) is the program's result.
-/
import proofs.«181894_g58806692217087_cont_9to1_m_85_9_alg».proof.Proof.Gen.KernelIdeal.Frame
import proofs.«181894_g58806692217087_cont_9to1_m_85_9_alg».proof.Proof.KernelRegion
import Idealize.ShloMosaic.Lib.StableHlo.Run

set_option maxRecDepth 16384

noncomputable section

namespace Cert.KernelIdeal.GcnTerm

open Idealize.ShloMosaic Idealize.ShloMosaic.TcCoe Idealize.SL.Sem
open Cert.KernelIdeal Cert.KernelIdeal.Gen

/-! ## The stages -/

/-- Row 0 of the edge array: the tails. -/
def tails (a1 : IVec S2x160000 32) : IVec S160000 32 :=
  shapeCast S160000 (extractStridedSlice S1x160000 ![0, 0] a1 slices_S2x160000_S1x160000_0_0) shapeCasts_S1x160000_S160000
/-- Row 1 of the edge array: the heads. -/
def heads (a1 : IVec S2x160000 32) : IVec S160000 32 :=
  shapeCast S160000 (extractStridedSlice S1x160000 ![1, 0] a1 slices_S2x160000_S1x160000_1_0) shapeCasts_S1x160000_S160000

/-- An index vector with its negative entries moved up by the array length, as a column. -/
def wrap (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

/-- The number of edges into each node, as a scatter-add of ones. -/
def cntT (hd : IVec S160000 32) : FVec Ideal S10000 .f32 :=
  Host.scatterAdd (F := Ideal) scatter_S10000_S160000x1_S160000_n_0_0_1
    (broadcastInDim S10000 ![] bcast_S_S10000 (constant (F := Ideal) S_ .f32 0x00000000#32)) (wrap hd)
    (broadcastInDim S160000 ![] bcast_S_S160000 (constant (F := Ideal) S_ .f32 0x3F800000#32))
/-- `rsqrt (cnt + 1)`. -/
def disT (hd : IVec S160000 32) : FVec Ideal S10000 .f32 :=
  Host.rsqrt (F := Ideal) (addf (cntT hd) (broadcastInDim S10000 ![] bcast_S_S10000 (constant (F := Ideal) S_ .f32 0x3F800000#32)))
/-- The rows of `y` scaled by `dis`. -/
def ztT (hd : IVec S160000 32) (y : FVec Ideal S10000x256 .f32) : FVec Ideal S10000x256 .f32 :=
  mulf (broadcastInDim S10000x256 ![0, 1] bcast_S10000x1_S10000x256_0_1 (broadcastInDim S10000x1 ![0] bcast_S10000_S10000x1_0 (disT hd))) y
/-- The scaled rows gathered at the tails and summed at the heads. -/
def accT (tl hd : IVec S160000 32) (y : FVec Ideal S10000x256 .f32) : FVec Ideal S10000x256 .f32 :=
  Host.scatterAdd (F := Ideal) scatter_S10000x256_S160000x1_S160000x256_1_0_0_1
    (broadcastInDim S10000x256 ![] bcast_S_S10000x256 (constant (F := Ideal) S_ .f32 0x00000000#32)) (wrap hd)
    (Host.gather gather_S10000x256_S160000x1_S160000x256_1_0_n_n_0_1_1256 (ztT hd y) (wrap tl))
/-- `dis` gathered at the heads and summed at the tails. -/
def ssT (tl hd : IVec S160000 32) : FVec Ideal S10000 .f32 :=
  Host.scatterAdd (F := Ideal) scatter_S10000_S160000x1_S160000_n_0_0_1
    (broadcastInDim S10000 ![] bcast_S_S10000 (constant (F := Ideal) S_ .f32 0x00000000#32)) (wrap tl)
    (Host.gather gather_S10000_S160000x1_S160000_n_0_n_n_0_1_1 (disT hd) (wrap hd))

/-- The first call's result of the arguments. -/
def yT (a0 : FVec Ideal S10000x256 .f32) (a2 a3 : FVec Ideal S256 .f32) (a4 : FVec Ideal S256x256 .f32) : FVec Ideal S10000x256 .f32 :=
  out0_4 (F := Ideal) a0 (shapeCast S1x256 a2 shapeCasts_S256_S1x256) (shapeCast S1x256 a3 shapeCasts_S256_S1x256) a4

/-- THE PROGRAM'S RESULT of the arguments. -/
def kerTerm (a0 : FVec Ideal S10000x256 .f32) (a1 : IVec S2x160000 32) (a2 a3 : FVec Ideal S256 .f32) (a4 : FVec Ideal S256x256 .f32)
    (a5 : FVec Ideal S256 .f32) (a6 : FVec Ideal S256x256 .f32) (a7 : FVec Ideal S256 .f32) : FVec Ideal S1x256 .f32 :=
  out1_7 (F := Ideal) (accT (tails a1) (heads a1) (yT a0 a2 a3 a4)) (ztT (heads a1) (yT a0 a2 a3 a4))
    (shapeCast S10000x1 (disT (heads a1)) shapeCasts_S10000_S10000x1) (shapeCast S10000x1 (ssT (tails a1) (heads a1)) shapeCasts_S10000_S10000x1)
    (shapeCast S1x256 a5 shapeCasts_S256_S1x256) a6 (shapeCast S1x256 a7 shapeCasts_S256_S1x256)

/-! ## The buffers at the region boundaries -/

variable (m : (ℓ : Loc nD τ sig) → Buf (Elt Ideal) ℓ) (ρ : Dev nD → PrngReg)

section FirstStretch
/-- What the first host stretch leaves in the buffers the first call and the rest read. -/
theorem W1_arg0 (c : Dev nD) : (W1 (F := Ideal) m ρ c (Proc.devRef .tc main_arg0) : S10000x256.Idx → EReal) = m ((c : Thread nD τ).loc main_arg0) := by
  show StableHlo.after hostOps0 (W0 m ρ c) (Proc.devRef .tc main_arg0) = _
  after_results
theorem W1_arg4 (c : Dev nD) : (W1 (F := Ideal) m ρ c (Proc.devRef .tc main_arg4) : S256x256.Idx → EReal) = m ((c : Thread nD τ).loc main_arg4) := by
  show StableHlo.after hostOps0 (W0 m ρ c) (Proc.devRef .tc main_arg4) = _
  after_results
theorem W1_arg6 (c : Dev nD) : (W1 (F := Ideal) m ρ c (Proc.devRef .tc main_arg6) : S256x256.Idx → EReal) = m ((c : Thread nD τ).loc main_arg6) := by
  show StableHlo.after hostOps0 (W0 m ρ c) (Proc.devRef .tc main_arg6) = _
  after_results
theorem W1_v1 (c : Dev nD) : (W1 (F := Ideal) m ρ c (Proc.devRef .tc main_v1) : S160000.Idx → BitVec 32) = tails (m ((c : Thread nD τ).loc main_arg1)) := by
  show StableHlo.after hostOps0 (W0 m ρ c) (Proc.devRef .tc main_v1) = _
  after_results; rfl
theorem W1_v3 (c : Dev nD) : (W1 (F := Ideal) m ρ c (Proc.devRef .tc main_v3) : S160000.Idx → BitVec 32) = heads (m ((c : Thread nD τ).loc main_arg1)) := by
  show StableHlo.after hostOps0 (W0 m ρ c) (Proc.devRef .tc main_v3) = _
  after_results; rfl
theorem W1_v4 (c : Dev nD) : (W1 (F := Ideal) m ρ c (Proc.devRef .tc main_v4) : S1x256.Idx → EReal) = shapeCast S1x256 (m ((c : Thread nD τ).loc main_arg2)) shapeCasts_S256_S1x256 := by
  show StableHlo.after hostOps0 (W0 m ρ c) (Proc.devRef .tc main_v4) = _
  after_results; rfl
theorem W1_v5 (c : Dev nD) : (W1 (F := Ideal) m ρ c (Proc.devRef .tc main_v5) : S1x256.Idx → EReal) = shapeCast S1x256 (m ((c : Thread nD τ).loc main_arg3)) shapeCasts_S256_S1x256 := by
  show StableHlo.after hostOps0 (W0 m ρ c) (Proc.devRef .tc main_v5) = _
  after_results; rfl
theorem W1_v6 (c : Dev nD) : (W1 (F := Ideal) m ρ c (Proc.devRef .tc main_v6) : S1x256.Idx → EReal) = shapeCast S1x256 (m ((c : Thread nD τ).loc main_arg5)) shapeCasts_S256_S1x256 := by
  show StableHlo.after hostOps0 (W0 m ρ c) (Proc.devRef .tc main_v6) = _
  after_results; rfl
theorem W1_v7 (c : Dev nD) : (W1 (F := Ideal) m ρ c (Proc.devRef .tc main_v7) : S1x256.Idx → EReal) = shapeCast S1x256 (m ((c : Thread nD τ).loc main_arg7)) shapeCasts_S256_S1x256 := by
  show StableHlo.after hostOps0 (W0 m ρ c) (Proc.devRef .tc main_v7) = _
  after_results; rfl
end FirstStretch

section FirstCall
/-- What the first call leaves: its result array is the body's result of the arguments; every other buffer is as the
    first host stretch left it. -/
theorem W2_v8 (c : Dev nD) : (W2 (F := Ideal) m ρ c (Proc.devRef .tc main_v8) : S10000x256.Idx → EReal) = yT (m ((c : Thread nD τ).loc main_arg0)) (m ((c : Thread nD τ).loc main_arg2)) (m ((c : Thread nD τ).loc main_arg3)) (m ((c : Thread nD τ).loc main_arg4)) := by
  refine ((W2_arr m ρ c 4).trans (GcnRegion.arr0 (V1 m ρ) c)).trans ?_
  show out0_4 (F := Ideal) (W1 m ρ c (Proc.devRef .tc main_arg0)) (W1 m ρ c (Proc.devRef .tc main_v4)) (W1 m ρ c (Proc.devRef .tc main_v5)) (W1 m ρ c (Proc.devRef .tc main_arg4)) = _
  rw [W1_arg0, W1_v4, W1_v5, W1_arg4]; rfl
theorem W2_v1 (c : Dev nD) : (W2 (F := Ideal) m ρ c (Proc.devRef .tc main_v1) : S160000.Idx → BitVec 32) = tails (m ((c : Thread nD τ).loc main_arg1)) :=
  (W2_of_ne m ρ c main_v1 (by decide)).trans (W1_v1 m ρ c)
theorem W2_v3 (c : Dev nD) : (W2 (F := Ideal) m ρ c (Proc.devRef .tc main_v3) : S160000.Idx → BitVec 32) = heads (m ((c : Thread nD τ).loc main_arg1)) :=
  (W2_of_ne m ρ c main_v3 (by decide)).trans (W1_v3 m ρ c)
theorem W2_v6 (c : Dev nD) : (W2 (F := Ideal) m ρ c (Proc.devRef .tc main_v6) : S1x256.Idx → EReal) = shapeCast S1x256 (m ((c : Thread nD τ).loc main_arg5)) shapeCasts_S256_S1x256 :=
  (W2_of_ne m ρ c main_v6 (by decide)).trans (W1_v6 m ρ c)
theorem W2_v7 (c : Dev nD) : (W2 (F := Ideal) m ρ c (Proc.devRef .tc main_v7) : S1x256.Idx → EReal) = shapeCast S1x256 (m ((c : Thread nD τ).loc main_arg7)) shapeCasts_S256_S1x256 :=
  (W2_of_ne m ρ c main_v7 (by decide)).trans (W1_v7 m ρ c)
theorem W2_arg6 (c : Dev nD) : (W2 (F := Ideal) m ρ c (Proc.devRef .tc main_arg6) : S256x256.Idx → EReal) = (m ((c : Thread nD τ).loc main_arg6)) :=
  (W2_of_ne m ρ c main_arg6 (by decide)).trans (W1_arg6 m ρ c)
end FirstCall

section SecondStretch
/-! What the second host stretch leaves in the second call's seven operand arrays, over the first call's exit
    contents `W`. -/
variable (W : Valuation τ sig (Elt Ideal))

set_option maxHeartbeats 1000000 in
theorem after1_v38 : (StableHlo.after hostOps1 W (Proc.devRef .tc main_v38) : S10000x256.Idx → EReal)
    = accT (W (Proc.devRef .tc main_v1)) (W (Proc.devRef .tc main_v3)) (W (Proc.devRef .tc main_v8)) := by
  after_results_simp; rfl
set_option maxHeartbeats 1000000 in
theorem after1_v23 : (StableHlo.after hostOps1 W (Proc.devRef .tc main_v23) : S10000x256.Idx → EReal)
    = ztT (W (Proc.devRef .tc main_v3)) (W (Proc.devRef .tc main_v8)) := by
  after_results_simp; rfl
set_option maxHeartbeats 1000000 in
theorem after1_v54 : (StableHlo.after hostOps1 W (Proc.devRef .tc main_v54) : S10000x1.Idx → EReal)
    = shapeCast S10000x1 (disT (W (Proc.devRef .tc main_v3))) shapeCasts_S10000_S10000x1 := by
  after_results_simp; rfl
set_option maxHeartbeats 1000000 in
theorem after1_v55 : (StableHlo.after hostOps1 W (Proc.devRef .tc main_v55) : S10000x1.Idx → EReal)
    = shapeCast S10000x1 (ssT (W (Proc.devRef .tc main_v1)) (W (Proc.devRef .tc main_v3))) shapeCasts_S10000_S10000x1 := by
  after_results_simp; rfl
set_option maxHeartbeats 1000000 in
theorem after1_v6 : (StableHlo.after hostOps1 W (Proc.devRef .tc main_v6) : S1x256.Idx → EReal) = W (Proc.devRef .tc main_v6) := by
  after_results_simp
set_option maxHeartbeats 1000000 in
theorem after1_v7 : (StableHlo.after hostOps1 W (Proc.devRef .tc main_v7) : S1x256.Idx → EReal) = W (Proc.devRef .tc main_v7) := by
  after_results_simp
set_option maxHeartbeats 1000000 in
theorem after1_arg6 : (StableHlo.after hostOps1 W (Proc.devRef .tc main_arg6) : S256x256.Idx → EReal) = W (Proc.devRef .tc main_arg6) := by
  after_results_simp
end SecondStretch

/-- THE RESULT BUFFER at the end of the program is `kerTerm` of the argument arrays. -/
theorem W4_result (c : Dev nD) : (W4 (F := Ideal) m ρ c (Proc.devRef .tc main_v56) : S1x256.Idx → EReal)
    = kerTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 7).trans (GcnRegion.arr1 (V3 m ρ) c)).trans ?_
  show out1_7 (F := Ideal) (StableHlo.after hostOps1 (W2 m ρ c) (Proc.devRef .tc main_v38)) (StableHlo.after hostOps1 (W2 m ρ c) (Proc.devRef .tc main_v23))
    (StableHlo.after hostOps1 (W2 m ρ c) (Proc.devRef .tc main_v54)) (StableHlo.after hostOps1 (W2 m ρ c) (Proc.devRef .tc main_v55))
    (StableHlo.after hostOps1 (W2 m ρ c) (Proc.devRef .tc main_v6)) (StableHlo.after hostOps1 (W2 m ρ c) (Proc.devRef .tc main_arg6))
    (StableHlo.after hostOps1 (W2 m ρ c) (Proc.devRef .tc main_v7)) = _
  rw [after1_v38, after1_v23, after1_v54, after1_v55, after1_v6, after1_arg6, after1_v7,
    W2_v1, W2_v3, W2_v8, W2_v6, W2_v7, W2_arg6]
  rfl

end Cert.KernelIdeal.GcnTerm

end
-- ==== Proof.KernelResult.lean ====
/-
  The idealized kernel program's run with its result named: every weakly fair execution terminates without a fault,
  the result buffer ends at the program's term of the argument arrays, and the arguments end unchanged.
-/
import proofs.«181894_g58806692217087_cont_9to1_m_85_9_alg».proof.Proof.KernelRun
import proofs.«181894_g58806692217087_cont_9to1_m_85_9_alg».proof.Proof.KernelTerm

set_option maxRecDepth 16384

noncomputable section

namespace Cert.KernelIdeal.GcnResult

open Idealize.ShloMosaic Idealize.ShloMosaic.TcCoe Idealize.SL.Sem
open Cert.KernelIdeal Cert.KernelIdeal.Gen Cert.KernelIdeal.GcnTerm

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v56)
        = kerTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v56 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (GcnRun.run_W4 m ρ)

end Cert.KernelIdeal.GcnResult

end
-- ==== Proof.Spec.lean ====
/-
  The two programs' results as functions of the argument arrays, over the extended reals, with plain indices
  (node `n : Fin 10000`, feature `k j : Fin 256`, edge `e : Fin 160000`).  No program is imported here.

  Both programs compute a two-layer graph convolution with symmetric normalisation and self loops, after a batch
  normalisation of the node features, followed by the mean over the nodes:
    mean_k = (Σ_n X n k) / 10000,  var_k = (Σ_n (X n k - mean_k)²) / 10000,
    h n k  = (X n k - mean_k) · γ_k / √(var_k + ε) + β_k,            y = h · W1,
    deg n  = 1 + #{e | d e = n},  dis n = deg n ^ (-1/2),
    out1 n j = Σ_{e : d e = n} dis (s e) · dis n · y (s e) j + dis n · dis n · y n j + b1 j,
    h1 = leaky_relu out1,  g = h1 · W2,
    result j = (1/10000) Σ_n ( Σ_{e : d e = n} dis (s e) · dis n · g (s e) j + dis n · dis n · g n j + b2 j ).
  The kernel form (`GK`) pulls the mean through the second convolution: with
    w n = dis n · (dis n + Σ_{e : s e = n} dis (d e))   (the column sums of the normalised adjacency)
  the result is  Σ_k ((Σ_n h1 n k · w n) · (1/10000)) · W2 k j + b2 j.
  The reference form (`GR`) runs both convolutions over the 170000 edges "the 160000 given ones, then one self loop
  per node".
-/
import Idealize.ShloMosaic.PureOps.Ideal

noncomputable section

namespace Cert.GcnSpec

open Idealize.ShloMosaic

/-- The four float literals both programs carry, as the extended reals their words denote. -/
def c10000 : EReal := Ideal.ofBits .f32 0x461C4000#32
def cEps : EReal := Ideal.ofBits .f32 0x3727C5AC#32
def cOne : EReal := Ideal.ofBits .f32 0x3F800000#32
def cSlope : EReal := Ideal.ofBits .f32 0x3DCCCCCD#32

/-- The leaky rectifier: `v` where `v > 0`, else `slope · v`. -/
def leaky (v : EReal) : EReal := if 0 < v then v else cSlope * v

section BatchNorm
variable (X : Fin 10000 → Fin 256 → EReal) (γ β : Fin 256 → EReal)

/-- The column mean. -/
def mean (k : Fin 256) : EReal := Ideal.div (∑ n : Fin 10000, X n k) c10000
/-- The centred entry. -/
def xm (n : Fin 10000) (k : Fin 256) : EReal := X n k - mean X k
/-- The column variance (mean of the centred squares). -/
def var (k : Fin 256) : EReal := Ideal.div (∑ n : Fin 10000, xm X n k * xm X n k) c10000
/-- The normalised features, as the kernel writes them: centred · (γ · rsqrt(var + ε)) + β. -/
def hK (n : Fin 10000) (k : Fin 256) : EReal := xm X n k * (γ k * Ideal.rsqrt (var X k + cEps)) + β k
/-- The normalised features, as the reference writes them: centred / sqrt(var + ε) · γ + β. -/
def hR (n : Fin 10000) (k : Fin 256) : EReal := Ideal.div (xm X n k) (Ideal.sqrt (var X k + cEps)) * γ k + β k
end BatchNorm

/-- A product of a `[10000, 256]` matrix with a `[256, 256]` one. -/
def mm (A : Fin 10000 → Fin 256 → EReal) (W : Fin 256 → Fin 256 → EReal) (n : Fin 10000) (j : Fin 256) : EReal :=
  ∑ k : Fin 256, A n k * W k j

/-! ## The kernel's form -/

section Kernel
variable (s d : Fin 160000 → Fin 10000)

/-- The number of edges into node `n`, as a sum of ones. -/
def cnt (n : Fin 10000) : EReal := ∑ e : Fin 160000, if d e = n then cOne else 0
/-- `(1 + in-degree)^(-1/2)`. -/
def disK (n : Fin 10000) : EReal := Ideal.rsqrt (cnt d n + cOne)
/-- The sum over the edges out of `n` of the normaliser of their heads. -/
def ssK (n : Fin 10000) : EReal := ∑ e : Fin 160000, if s e = n then disK d (d e) else 0

variable (y : Fin 10000 → Fin 256 → EReal)
/-- The scaled rows `dis n · y n`. -/
def ztK (n : Fin 10000) (j : Fin 256) : EReal := disK d n * y n j
/-- The scaled rows gathered at the tails and summed at the heads. -/
def accK (n : Fin 10000) (j : Fin 256) : EReal :=
  ∑ e ∈ Finset.univ.filter (fun e : Fin 160000 => d e = n), ztK d y (s e) j
end Kernel

/-- What the kernel's second call computes from its seven operands (plain-indexed):
    `out1 = dis · (acc + zt) + b1`, `h1 = leaky out1`, `w = dis · (dis + ss)`,
    `pooled = (Σ_n h1 · w) · (1/10000)`, result `pooled · W2 + b2`. -/
def finalK (acc zt : Fin 10000 → Fin 256 → EReal) (dis ss : Fin 10000 → EReal) (b1 : Fin 256 → EReal)
    (W2 : Fin 256 → Fin 256 → EReal) (b2 : Fin 256 → EReal) (j : Fin 256) : EReal :=
  (∑ k : Fin 256,
      ((∑ n : Fin 10000, leaky (dis n * (acc n k + zt n k) + b1 k) * (dis n * (dis n + ss n)))
        * (((1 / 10000 : ℝ) : ℝ) : EReal)) * W2 k j) + b2 j

/-- THE KERNEL'S RESULT as a function of the arguments. -/
def GK (X : Fin 10000 → Fin 256 → EReal) (γ β : Fin 256 → EReal) (W1 : Fin 256 → Fin 256 → EReal) (b1 : Fin 256 → EReal)
    (W2 : Fin 256 → Fin 256 → EReal) (b2 : Fin 256 → EReal) (s d : Fin 160000 → Fin 10000) (j : Fin 256) : EReal :=
  finalK (accK s d (mm (hK X γ β) W1)) (ztK d (mm (hK X γ β) W1)) (disK d) (ssK s d) b1 W2 b2 j

/-! ## The reference's form -/

/-- The tail / head of edge `e'` of the extended list: the given edge for `e' < 160000`, else the self loop of node
    `e' - 160000`. -/
def ext (f : Fin 160000 → Fin 10000) (e' : Fin 170000) : Fin 10000 :=
  if h : e'.val < 160000 then f ⟨e'.val, h⟩ else ⟨e'.val - 160000, by have := e'.isLt; omega⟩

section Reference
variable (s d : Fin 160000 → Fin 10000)

/-- The degree with self loops, as a sum of ones over the extended list. -/
def degR (n : Fin 10000) : EReal := ∑ e' : Fin 170000, if ext d e' = n then cOne else 0
/-- `deg^(-1/2)` where `deg > 0`, else `0`. -/
def disR (n : Fin 10000) : EReal := if 0 < degR d n then Ideal.rsqrt (degR d n) else 0
/-- The weight of an extended edge. -/
def normR (e' : Fin 170000) : EReal := disR d (ext s e') * disR d (ext d e')
/-- One convolution: the rows of `t` gathered at the tails, weighted, summed at the heads, plus the bias. -/
def convR (t : Fin 10000 → Fin 256 → EReal) (b : Fin 256 → EReal) (n : Fin 10000) (j : Fin 256) : EReal :=
  (∑ e' ∈ Finset.univ.filter (fun e' : Fin 170000 => ext d e' = n), t (ext s e') j * normR s d e') + b j
end Reference

/-- THE REFERENCE'S RESULT as a function of the arguments. -/
def GR (X : Fin 10000 → Fin 256 → EReal) (γ β : Fin 256 → EReal) (W1 : Fin 256 → Fin 256 → EReal) (b1 : Fin 256 → EReal)
    (W2 : Fin 256 → Fin 256 → EReal) (b2 : Fin 256 → EReal) (s d : Fin 160000 → Fin 10000) (j : Fin 256) : EReal :=
  Ideal.div
    (∑ n : Fin 10000,
      convR s d (mm (fun n k => leaky (convR s d (mm (hR X γ β) W1) b1 n k)) W2) b2 n j)
    c10000

end Cert.GcnSpec

end
-- ==== Proof.LibGatherTable.lean ====
/-
  A TABLE GATHERED BY ONE INDEX PER ENTRY, READ AT AN INDEX.  `x[idx]` of a table `x : [N, C]` at indices
  `idx : [E, 1]` is the array `[E, C]` whose row `e` is the table's row `idx[e, 0]`; the transposed form takes the
  columns of a table `x : [C, N]` into an array `[C, E]`.  In both the index is read as a signed integer and clamped
  into `[0, N − 1]`: a negative index reads row 0, an index past the end reads the last row.  The extents are
  arbitrary naturals and the elements of any type; nothing here depends on a program.
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- The position in a table of `N` entries that an index word names: read as a signed integer, a negative value
    goes to 0 and a value past the end to `N − 1`. -/
def clampIdx {w : Nat} (N : Nat) (hN : 0 < N) (i : BitVec w) : Fin N :=
  ⟨min i.toInt.toNat (N - 1), by omega⟩

/-! ## Rows of `[N, C]` -/

/-- The dimension numbers of a row gather: the index vector (length one, on the indices' axis 1) names operand axis 0,
    which is collapsed; the result's axis 1 is the offset axis and runs along operand axis 1, whole. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` (signed, clamped) and the column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c) = x (ix2 (clampIdx N hN (idx (ix2 e (0 : Fin 1)))) c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = c.val
    have hst : (rowsDims N C E wf).start (ix2 e c) idx 1 = 0 := by
      unfold GatherDims.start
      rw [dif_neg]
      exact (show (1 : Fin 2) ∉ ([0] : List (Fin 2)) by decide)
    have hoff : (rowsDims N C E wf).offCoord (ix2 e c) 1 = c.val := by
      unfold GatherDims.offCoord
      rw [dif_pos]
      · rfl
      · exact (show (1 : Fin 2) ∈ (List.finRange 2).filter (fun a => a ∉ ([0] : List (Fin 2))) by decide)
    rw [GatherDims.batchCoord_eq_zero _ _ _ List.not_mem_nil, hst, hoff]
    omega

/-! ## Columns of `[C, N]` -/

/-- The dimension numbers of a column gather: the index vector names operand axis 1, which is collapsed; the result's
    axis 0 is the offset axis and runs along operand axis 0, whole. -/
abbrev colsDims (N C E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, e)`: the table at the row `c` and the column `idx[e, 0]` (signed, clamped). -/
theorem gather_cols_apply {N C E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (c : Fin C) (e : Fin E) :
    Host.gather (colsDims N C E wf) x idx (ix2 c e) = x (ix2 c (clampIdx N hN (idx (ix2 e (0 : Fin 1))))) := by
  unfold Host.gather
  congr 1
  funext a
  refine Fin.ext ?_
  match a with
  | ⟨0, _⟩ =>
    show (colsDims N C E wf).start (ix2 c e) idx 0 + (colsDims N C E wf).batchCoord (ix2 c e) 0
      + (colsDims N C E wf).offCoord (ix2 c e) 0 = c.val
    have hst : (colsDims N C E wf).start (ix2 c e) idx 0 = 0 := by
      unfold GatherDims.start
      rw [dif_neg]
      exact (show (0 : Fin 2) ∉ ([1] : List (Fin 2)) by decide)
    have hoff : (colsDims N C E wf).offCoord (ix2 c e) 0 = c.val := by
      unfold GatherDims.offCoord
      rw [dif_pos]
      · rfl
      · exact (show (0 : Fin 2) ∈ (List.finRange 2).filter (fun a => a ∉ ([1] : List (Fin 2))) by decide)
    rw [GatherDims.batchCoord_eq_zero _ _ _ List.not_mem_nil, hst, hoff]
    omega
  | ⟨1, _⟩ =>
    show (colsDims N C E wf).start (ix2 c e) idx 1 + (colsDims N C E wf).batchCoord (ix2 c e) 1
      + (colsDims N C E wf).offCoord (ix2 c e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 c e) ⟨List.idxOf (1 : Fin 2) (colsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.GatherTable

end
-- ==== Proof.RefNode.lean ====
/-
  The node an index word of the edge array names: the word read as a signed integer and clamped into [0, 9999].
-/
import proofs.«181894_g58806692217087_cont_9to1_m_85_9_alg».proof.Proof.LibGatherTable

noncomputable section

namespace Cert.RefValue

/-- The node an index word names: read signed, a negative value goes to 0 and a value past the end to 9999. -/
def node (w : BitVec 32) : Fin 10000 := Idealize.ShloMosaic.GatherTable.clampIdx 10000 (by norm_num) w

/-- Its value. -/
theorem node_val (w : BitVec 32) : (node w).val = min w.toInt.toNat 9999 := rfl

/-- A word in range names the node of its own value. -/
theorem node_val_of_range {w : BitVec 32} (h : 0 ≤ w.toInt ∧ w.toInt < 10000) : ((node w).val : ℤ) = w.toInt := by
  rw [node_val]; omega

/-- For a word in range, "the word read signed is n" is "its node is n". -/
theorem toInt_eq_iff_node_eq {w : BitVec 32} (h : 0 ≤ w.toInt ∧ w.toInt < 10000) (n : Fin 10000) :
    w.toInt = (n.val : ℤ) ↔ node w = n := by
  constructor
  · intro e; apply Fin.ext; have := node_val_of_range h; omega
  · intro e; rw [← e]; exact (node_val_of_range h).symm

end Cert.RefValue

end
-- ==== Proof.LibGatherScatter.lean ====
/-
  Reading a host gather and a host accumulating scatter at an index, for the two index layouts that `x[idx]` and
  `segment_sum` lower to when the operand is a flat array [N] or a column [N, 1] and the indices are a column [E, 1].

  * A gather along axis 0 reads the operand at the start index, taken as a signed integer and clamped into [0, N - 1].
  * An accumulating scatter at the exact (ideal) instance leaves at element `i` the old element plus the sum of the
    updates whose index word, read as a signed integer and NOT clamped, is exactly `i`; an update whose index falls
    outside [0, N) lands nowhere.
  * A sum over a concatenated range [0, E + N) splits as the sum over [0, E) plus the sum over the shifted [0, N).
-/
import Idealize.ShloMosaic.PureOps.Ideal
import Idealize.ShloMosaic.Lib.ValueIdx
import Idealize.ShloMosaic.Lib.Pipeline.Value

noncomputable section

open scoped BigOperators

namespace Idealize.ShloMosaic.GatherScatterIdx

open Idealize.ShloMosaic Idealize.ShloMosaic.ValueIdx

/-! ## Rank-1 index sets and sums over them -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column index set [n, 1] is the sum over the row coordinate. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  refine Finset.sum_congr rfl fun a _ => ?_
  exact Fin.sum_univ_one _

/-- A sum over [0, T) with T = E + N is the sum over [0, E) plus the sum over E + [0, N). -/
theorem sum_fin_split {M : Type*} [AddCommMonoid M] {E N T : Nat} (hT : E + N = T) (f : Fin T → M) :
    ∑ t, f t = (∑ e : Fin E, f ⟨e.val, by omega⟩) + ∑ n : Fin N, f ⟨E + n.val, by omega⟩ := by
  subst hT
  rw [Fin.sum_univ_add]
  rfl

/-! ## The gather of a flat array at a column of indices -/

section Gather
variable {α : Type}

/-- The dimension numbers of `x[idx]` for `x : [N]`, `idx : [E, 1]`, result `[E]`. -/
abbrev rowGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at index word `idx[e, 0]`, read signed and clamped into [0, N - 1]. -/
theorem gather_row_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (rowGather N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (rowGather N E wf).start j idx 0 + (rowGather N E wf).batchCoord j 0 + (rowGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather N E wf).startIndexMap from List.mem_singleton.mpr rfl)]
  have hsi : (rowGather N E wf).siIdx j ⟨List.idxOf (0 : Fin 1) (rowGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a column `x : [N, 1]`, `idx : [E, 1]`, result `[E, 1]`. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of the gathered column is the operand's row at index word `idx[e, 0]`, read signed and clamped. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (colGather N E wf) x idx j
      = x (ix2 (⟨min (idx (ix2 (j 0) (0 : Fin 1))).toInt.toNat (N - 1), by omega⟩ : Fin N) (0 : Fin 1)) := by
  unfold Host.gather
  congr 1
  funext a
  match a with
  | ⟨0, _⟩ =>
    refine Fin.ext ?_
    show (colGather N E wf).start j idx 0 + (colGather N E wf).batchCoord j 0 + (colGather N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx j ⟨List.idxOf (0 : Fin 2) (colGather N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (_ : Fin 1) = _
    exact Subsingleton.elim _ _

end Gather

/-! ## The accumulating scatter into a flat array, and into a column, at a column of indices -/

section Scatter

/-- The dimension numbers of `segment_sum` into `x : [N]` at `idx : [E, 1]` with updates `[E]`. -/
abbrev rowScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `i` exactly when its index word, read signed, is `i`. -/
theorem resultIdx_row_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (rowScatter N E wf).resultIdx? j idx = some i ↔ (idx (ix2 (j 0) (0 : Fin 1))).toInt = ((i 0).val : Int) := by
  have hst : ∀ a, (rowScatter N E wf).start j idx a + ((rowScatter N E wf).window j a : Int)
      = (idx (ix2 (j 0) (0 : Fin 1))).toInt := by
    intro a
    obtain rfl : a = 0 := Subsingleton.elim _ _
    have hw : (rowScatter N E wf).window j 0 = 0 := by
      unfold ScatterDims.window
      rw [dif_neg (by simp [ScatterDims.sKept, Shape.kept])]
    have hs : (rowScatter N E wf).start j idx 0 = (idx (ix2 (j 0) (0 : Fin 1))).toInt := by
      unfold ScatterDims.start
      rw [dif_pos (show (0 : Fin 1) ∈ (rowScatter N E wf).scatterDimsToOperandDims from List.mem_singleton.mpr rfl)]
      have hsi : (rowScatter N E wf).siIdx j ⟨List.idxOf (0 : Fin 1) (rowScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  unfold ScatterDims.resultIdx?
  by_cases h : ∀ a, 0 ≤ (rowScatter N E wf).start j idx a + ((rowScatter N E wf).window j a : Int) ∧
      (rowScatter N E wf).start j idx a + ((rowScatter N E wf).window j a : Int) < ((⟨1, ![N]⟩ : Shape).size a : Int)
  · rw [dif_pos h]
    constructor
    · intro e
      have e0 : ((rowScatter N E wf).start j idx 0 + ((rowScatter N E wf).window j 0 : Int)).toNat = (i 0).val :=
        congrArg (fun f : (⟨1, ![N]⟩ : Shape).Idx => (f 0).val) (Option.some.inj e)
      have h0 := (h 0).1
      rw [hst 0] at e0 h0
      omega
    · intro e
      refine congrArg some ?_
      funext a
      obtain rfl : a = 0 := Subsingleton.elim _ _
      refine Fin.ext ?_
      show ((rowScatter N E wf).start j idx 0 + ((rowScatter N E wf).window j 0 : Int)).toNat = (i 0).val
      rw [hst 0, e]; simp
  · rw [dif_neg h]
    constructor
    · intro e; cases e
    · intro e
      exfalso; apply h
      intro a
      rw [hst a, e]
      obtain rfl : a = 0 := Subsingleton.elim _ _
      exact ⟨by positivity, by exact_mod_cast (i 0).isLt⟩

/-- At the exact instance element `i` of the scatter is the old element plus the sum of the updates whose index word
    is `i`. -/
theorem scatterAdd_row_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (i : (⟨1, ![N]⟩ : Shape).Idx) :
    Host.scatterAdd (F := Ideal) (rowScatter N E wf) x idx upd i
      = x i + ∑ e : Fin E, if (idx (ix2 e (0 : Fin 1))).toInt = ((i 0).val : Int) then upd (ix1 e) else 0 := by
  show x i + ∑ j ∈ Finset.univ.filter (fun j => (rowScatter N E wf).resultIdx? j idx = some i), upd j = _
  refine congrArg (x i + ·) ?_
  rw [Finset.sum_filter, sum_idx1]
  refine Finset.sum_congr rfl fun e _ => ?_
  exact if_congr (resultIdx_row_iff wf (ix1 e) idx i) rfl rfl

/-- The dimension numbers of `segment_sum` into a column `x : [N, 1]` at `idx : [E, 1]` with updates `[E, 1]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when its index word, read signed, is `i`. -/
theorem resultIdx_col_iff {N E w : Nat} (wf : ScatterDims.WF ⟨2, ![N, 1]⟩ ⟨2, ![E, 1]⟩ ⟨2, ![E, 1]⟩ [1] [0] [0] 1)
    (j : (⟨2, ![E, 1]⟩ : Shape).Idx) (idx : IVec ⟨2, ![E, 1]⟩ w) (i : (⟨2, ![N, 1]⟩ : Shape).Idx) :
    (colScatter N E wf).resultIdx? j idx = some i ↔ (idx (ix2 (j 0) (0 : Fin 1))).toInt = ((i 0).val : Int) := by
  have hst0 : (colScatter N E wf).start j idx 0 + ((colScatter N E wf).window j 0 : Int)
      = (idx (ix2 (j 0) (0 : Fin 1))).toInt := by
    have hw : (colScatter N E wf).window j 0 = 0 := by
      unfold ScatterDims.window
      rw [dif_neg (by simp [ScatterDims.sKept, Shape.kept])]
    have hs : (colScatter N E wf).start j idx 0 = (idx (ix2 (j 0) (0 : Fin 1))).toInt := by
      unfold ScatterDims.start
      rw [dif_pos (show (0 : Fin 2) ∈ (colScatter N E wf).scatterDimsToOperandDims from List.mem_singleton.mpr rfl)]
      have hsi : (colScatter N E wf).siIdx j ⟨List.idxOf (0 : Fin 2) (colScatter N E wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      rw [hsi]
      rfl
    rw [hw, hs]; simp
  have hst1 : (colScatter N E wf).start j idx 1 + ((colScatter N E wf).window j 1 : Int) = 0 := by
    have hw : (colScatter N E wf).window j 1 = 0 := by
      unfold ScatterDims.window
      rw [dif_pos (by simp [ScatterDims.sKept, Shape.kept])]
      have := (j 1).isLt
      show (j 1).val = 0
      have h1 : (j 1).val < 1 := this
      omega
    have hs : (colScatter N E wf).start j idx 1 = 0 := by
      unfold ScatterDims.start
      rw [dif_neg (fun h => absurd (congrArg Fin.val (List.mem_singleton.mp h)) (by simp))]
    rw [hw, hs]; simp
  have hi1 : (i 1).val = 0 := by
    have h1 : (i 1).val < 1 := (i 1).isLt
    omega
  unfold ScatterDims.resultIdx?
  by_cases h : ∀ a, 0 ≤ (colScatter N E wf).start j idx a + ((colScatter N E wf).window j a : Int) ∧
      (colScatter N E wf).start j idx a + ((colScatter N E wf).window j a : Int) < ((⟨2, ![N, 1]⟩ : Shape).size a : Int)
  · rw [dif_pos h]
    constructor
    · intro e
      have e0 : ((colScatter N E wf).start j idx 0 + ((colScatter N E wf).window j 0 : Int)).toNat = (i 0).val :=
        congrArg (fun f : (⟨2, ![N, 1]⟩ : Shape).Idx => (f 0).val) (Option.some.inj e)
      have h0 := (h 0).1
      rw [hst0] at e0 h0
      omega
    · intro e
      refine congrArg some ?_
      funext a
      refine Fin.ext ?_
      match a with
      | ⟨0, _⟩ =>
        show ((colScatter N E wf).start j idx 0 + ((colScatter N E wf).window j 0 : Int)).toNat = (i 0).val
        rw [hst0, e]; simp
      | ⟨1, _⟩ =>
        show ((colScatter N E wf).start j idx 1 + ((colScatter N E wf).window j 1 : Int)).toNat = (i 1).val
        rw [hst1, hi1]; rfl
  · rw [dif_neg h]
    constructor
    · intro e; cases e
    · intro e
      exfalso; apply h
      intro a
      match a with
      | ⟨0, _⟩ =>
        show 0 ≤ (colScatter N E wf).start j idx 0 + ((colScatter N E wf).window j 0 : Int) ∧
          (colScatter N E wf).start j idx 0 + ((colScatter N E wf).window j 0 : Int) < ((⟨2, ![N, 1]⟩ : Shape).size 0 : Int)
        rw [hst0, e]
        exact ⟨by positivity, by exact_mod_cast (i 0).isLt⟩
      | ⟨1, _⟩ =>
        show 0 ≤ (colScatter N E wf).start j idx 1 + ((colScatter N E wf).window j 1 : Int) ∧
          (colScatter N E wf).start j idx 1 + ((colScatter N E wf).window j 1 : Int) < ((⟨2, ![N, 1]⟩ : Shape).size 1 : Int)
        rw [hst1]
        exact ⟨le_refl _, Int.natCast_pos.mpr Nat.one_pos⟩

/-- At the exact instance row `i` of the scattered column is the old row plus the sum of the update rows whose index
    word is `i`. -/
theorem scatterAdd_col_apply {N E w : Nat} (wf : ScatterDims.WF ⟨2, ![N, 1]⟩ ⟨2, ![E, 1]⟩ ⟨2, ![E, 1]⟩ [1] [0] [0] 1)
    (x : FVec Ideal ⟨2, ![N, 1]⟩ .f32) (idx : IVec ⟨2, ![E, 1]⟩ w) (upd : FVec Ideal ⟨2, ![E, 1]⟩ .f32)
    (i : (⟨2, ![N, 1]⟩ : Shape).Idx) :
    Host.scatterAdd (F := Ideal) (colScatter N E wf) x idx upd i
      = x i + ∑ e : Fin E, if (idx (ix2 e (0 : Fin 1))).toInt = ((i 0).val : Int) then upd (ix2 e (0 : Fin 1)) else 0 := by
  show x i + ∑ j ∈ Finset.univ.filter (fun j => (colScatter N E wf).resultIdx? j idx = some i), upd j = _
  refine congrArg (x i + ·) ?_
  rw [Finset.sum_filter, sum_idxCol]
  refine Finset.sum_congr rfl fun e _ => ?_
  exact if_congr (resultIdx_col_iff wf (ix2 e (0 : Fin 1)) idx i) rfl rfl

end Scatter

end Idealize.ShloMosaic.GatherScatterIdx

end
-- ==== Proof.LibScatterRows.lean ====
/-
  A ROW SCATTER-ADD READ AT AN INDEX.  What `x.at[idx].add(u)` of a table `x : [N, C]`, one row index per update row
  `idx : [E, 1]` and update rows `u : [E, C]` means on the extended reals: element `(n, c)` of the result is
  `x[n, c]` plus the sum of `u[e, c]` over the update rows `e` whose row index, read as a signed integer, is `n`.
  An update row whose index is negative or at least `N` lands nowhere and is dropped.  The extents are arbitrary
  naturals; nothing here depends on a program.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the index vector (of length one, on the indices' axis 1) names operand
    axis 0, which is inserted; the updates' axis 1 is the window axis and runs along operand axis 1. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update element `(e, c)` reads its row index: `(e, 0)`. -/
abbrev rowIdx {E C : Nat} (j : (⟨2, ![E, C]⟩ : Shape).Idx) : (⟨2, ![E, 1]⟩ : Shape).Idx :=
  ix2 (⟨(j 0).val, idx2_lt0 j⟩ : Fin E) (0 : Fin 1)

section
variable {N C E w : Nat} (wf : ScatterDims.WF ⟨2, ![N, C]⟩ ⟨2, ![E, 1]⟩ ⟨2, ![E, C]⟩ [1] [0] [0] 1)

/-- On the row axis the window starts at the row index, read signed. -/
theorem start_row (j : (⟨2, ![E, C]⟩ : Shape).Idx) (idx : IVec ⟨2, ![E, 1]⟩ w) :
    (rowDims N C E wf).start j idx 0 = (idx (rowIdx j)).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the column axis it starts at zero. -/
theorem start_col (j : (⟨2, ![E, C]⟩ : Shape).Idx) (idx : IVec ⟨2, ![E, 1]⟩ w) :
    (rowDims N C E wf).start j idx 1 = 0 := by
  unfold ScatterDims.start
  rw [dif_neg (show (1 : Fin 2) ∉ ([0] : List (Fin 2)) by decide)]

/-- The window has no extent along the rows … -/
theorem window_row (j : (⟨2, ![E, C]⟩ : Shape).Idx) : (rowDims N C E wf).window j 0 = 0 := by
  unfold ScatterDims.window
  rw [dif_neg]
  exact (show (0 : Fin 2) ∉ (List.finRange 2).filter (fun a => a ∉ ([0] : List (Fin 2))) by decide)

/-- … and along the columns it is the update's column. -/
theorem window_col (j : (⟨2, ![E, C]⟩ : Shape).Idx) : (rowDims N C E wf).window j 1 = (j 1).val := by
  unfold ScatterDims.window
  rw [dif_pos]
  · rfl
  · exact (show (1 : Fin 2) ∈ (List.finRange 2).filter (fun a => a ∉ ([0] : List (Fin 2))) by decide)

/-- An update element lands on operand element `i` exactly when its row index, read signed, is `i`'s row and its
    column is `i`'s column. -/
theorem resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (rowIdx j)).toInt = ((i 0).val : ℤ) ∧ (j 1).val = (i 1).val := by
  have hi0 : (i 0).val < N := idx2_lt0 i
  have hi1 : (i 1).val < C := idx2_lt1 i
  constructor
  · intro hsome
    unfold ScatterDims.resultIdx? at hsome
    split at hsome
    · rename_i h
      have e := Option.some.inj hsome
      have e0 := congrArg Fin.val (congrFun e 0)
      have e1 := congrArg Fin.val (congrFun e 1)
      have h0 := h 0
      have h1 := h 1
      simp only [start_row, start_col, window_row, window_col] at e0 e1 h0 h1
      constructor <;> omega
    · exact absurd hsome (by simp)
  · rintro ⟨e0, e1⟩
    have h : ∀ a, 0 ≤ (rowDims N C E wf).start j idx a + (rowDims N C E wf).window j a ∧
        (rowDims N C E wf).start j idx a + (rowDims N C E wf).window j a < (⟨2, ![N, C]⟩ : Shape).size a := by
      intro a
      match a with
      | ⟨0, _⟩ =>
        show 0 ≤ (rowDims N C E wf).start j idx 0 + (rowDims N C E wf).window j 0 ∧
          (rowDims N C E wf).start j idx 0 + (rowDims N C E wf).window j 0 < (N : ℤ)
        rw [start_row, window_row]; omega
      | ⟨1, _⟩ =>
        show 0 ≤ (rowDims N C E wf).start j idx 1 + (rowDims N C E wf).window j 1 ∧
          (rowDims N C E wf).start j idx 1 + (rowDims N C E wf).window j 1 < (C : ℤ)
        rw [start_col, window_col]; omega
    unfold ScatterDims.resultIdx?
    rw [dif_pos h]
    congr 1
    funext a
    refine Fin.ext ?_
    match a with
    | ⟨0, _⟩ =>
      show ((rowDims N C E wf).start j idx 0 + (rowDims N C E wf).window j 0).toNat = (i 0).val
      rw [start_row, window_row]; omega
    | ⟨1, _⟩ =>
      show ((rowDims N C E wf).start j idx 1 + (rowDims N C E wf).window j 1).toNat = (i 1).val
      rw [start_col, window_col]; omega

/-- THE ROW SCATTER-ADD READ AT `(n, c)`, on the extended reals: the operand's element plus the sum, over the update
    rows `e` whose row index read signed is `n`, of the update's element `(e, c)`.  The update elements that land on
    `(n, c)` are exactly the `(e, c)` with such an `e`, one for each. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N C E wf) x idx upd (ix2 n c) =
      x (ix2 n c) + ∑ e ∈ Finset.univ.filter (fun e : Fin E => (idx (ix2 e (0 : Fin 1))).toInt = (n.val : ℤ)),
        upd (ix2 e c) := by
  show Ideal.hostScatterAdd (rowDims N C E wf) x idx upd (ix2 n c) = _
  unfold Ideal.hostScatterAdd
  refine congrArg (x (ix2 n c) + ·) ?_
  have key : ∀ j : (⟨2, ![E, C]⟩ : Shape).Idx, (rowDims N C E wf).resultIdx? j idx = some (ix2 n c) ↔
      (idx (rowIdx j)).toInt = (n.val : ℤ) ∧ (j 1).val = c.val :=
    fun j => resultIdx?_eq_some_iff wf j idx (ix2 n c)
  have back : ∀ j : (⟨2, ![E, C]⟩ : Shape).Idx, (j 1).val = c.val →
      ix2 (⟨(j 0).val, idx2_lt0 j⟩ : Fin E) c = j := by
    intro j hj
    have hc : j 1 = c := Fin.ext hj
    rw [← hc]
    exact (eq_ix2 j).symm
  refine Finset.sum_bij' (fun j _ => (⟨(j 0).val, idx2_lt0 j⟩ : Fin E)) (fun e _ => ix2 e c) ?_ ?_ ?_ ?_ ?_
  · intro j hj
    rw [Finset.mem_filter] at hj ⊢
    exact ⟨Finset.mem_univ _, ((key j).mp hj.2).1⟩
  · intro e he
    rw [Finset.mem_filter] at he ⊢
    exact ⟨Finset.mem_univ _, (key (ix2 e c)).mpr ⟨he.2, rfl⟩⟩
  · intro j hj
    rw [Finset.mem_filter] at hj
    exact back j ((key j).mp hj.2).2
  · intro e _
    rfl
  · intro j hj
    rw [Finset.mem_filter] at hj
    exact congrArg upd (back j ((key j).mp hj.2).2).symm

end

end Idealize.ShloMosaic.ScatterRows

end
-- ==== Proof.KernelStages.lean ====
/-
  The stages of the host computation between the kernel's two calls, read at an index.  When every word of the edge
  array lies in [0, 10000), the wrap of negative indices leaves each word as it is, the clamp of a gather is the node
  the word names, and "the word read signed is n" is "the node it names is n".  So, with `s e` and `d e` the nodes
  the tail and the head word of edge `e` name:
    the scatter-add of ones at the heads is the in-degree count, its `rsqrt (· + 1)` the normaliser,
    the normaliser broadcast along the columns times `y` the scaled rows,
    the scatter-add at the heads of the scaled rows gathered at the tails their sum over the edges into each node,
    the scatter-add at the tails of the normaliser gathered at the heads its sum over the edges out of each node.
-/
import proofs.«181894_g58806692217087_cont_9to1_m_85_9_alg».proof.Proof.KernelTerm
import proofs.«181894_g58806692217087_cont_9to1_m_85_9_alg».proof.Proof.Spec
import proofs.«181894_g58806692217087_cont_9to1_m_85_9_alg».proof.Proof.RefNode
import proofs.«181894_g58806692217087_cont_9to1_m_85_9_alg».proof.Proof.LibGatherScatter
import proofs.«181894_g58806692217087_cont_9to1_m_85_9_alg».proof.Proof.LibGatherTable
import proofs.«181894_g58806692217087_cont_9to1_m_85_9_alg».proof.Proof.LibScatterRows
import Idealize.ShloMosaic.Lib.ValueLayout
import Idealize.ShloMosaic.Lib.IdealHost
import Idealize.ShloMosaic.PureOps.Ideal.Laws

noncomputable section

namespace Cert.KernelValue

open Idealize.ShloMosaic Idealize.ShloMosaic.ValueIdx
open Cert.KernelIdeal Cert.KernelIdeal.Gen Cert.KernelIdeal.GcnTerm
open Cert.RefValue (node)

/-! ## The index vectors -/

/-- The tails are row 0 of the edge array. -/
theorem tails_apply (a1 : IVec S2x160000 32) (e : Fin 160000) : tails a1 (ix1 e) = a1 (ix2 (0 : Fin 2) e) := by
  unfold tails
  rw [shapeCast_apply _ _ (ix1 e) (ix2 (0 : Fin 1) e)
    (by rw [Shape.rowMajor_val_one, Shape.rowMajor_val_two]; show 0 * 160000 + e.val = e.val; omega)]
  exact extractStridedSlice_apply _ a1 _ _ (ix2 (0 : Fin 2) e)
    (fun a => match a with | ⟨0, _⟩ => rfl | ⟨1, _⟩ => (Nat.zero_add _).symm)

/-- The heads are row 1 of the edge array. -/
theorem heads_apply (a1 : IVec S2x160000 32) (e : Fin 160000) : heads a1 (ix1 e) = a1 (ix2 (1 : Fin 2) e) := by
  unfold heads
  rw [shapeCast_apply _ _ (ix1 e) (ix2 (0 : Fin 1) e)
    (by rw [Shape.rowMajor_val_one, Shape.rowMajor_val_two]; show 0 * 160000 + e.val = e.val; omega)]
  exact extractStridedSlice_apply _ a1 _ _ (ix2 (1 : Fin 2) e)
    (fun a => match a with | ⟨0, _⟩ => rfl | ⟨1, _⟩ => (Nat.zero_add _).symm)

/-- The wrapped column at `(e, 0)`: the word, plus 10000 when it is negative. -/
theorem wrap_apply (v : IVec S160000 32) (e : Fin 160000) :
    wrap v (ix2 e (0 : Fin 1))
      = Scalar.select (IntOp.cmpi .slt (v (ix1 e)) 0#32) (IntOp.addi (v (ix1 e)) 10000#32) (v (ix1 e)) := by
  unfold wrap
  rw [broadcastInDim_apply _ _ _ _ (ix1 e) (fun a => match a with | ⟨0, _⟩ => rfl), select_apply]
  show Scalar.select (IntOp.cmpi .slt (v (ix1 e)) (broadcastInDim S160000 ![] bcast_S_S160000 (constantI S_ 32 0#32) (ix1 e)))
      (IntOp.addi (v (ix1 e)) (broadcastInDim S160000 ![] bcast_S_S160000 (constantI S_ 32 10000#32) (ix1 e))) (v (ix1 e)) = _
  rw [broadcastInDim_scalar_apply, broadcastInDim_scalar_apply]
  rfl

/-- On a word that is not negative the wrap is the identity. -/
theorem wrap_word_of_nonneg (w : BitVec 32) (h : 0 ≤ w.toInt) :
    Scalar.select (IntOp.cmpi .slt w 0#32) (IntOp.addi w 10000#32) w = w := by
  have hs : w.slt 0#32 = false := by
    rw [BitVec.slt_eq_decide]
    have : (0#32 : BitVec 32).toInt = 0 := by decide
    rw [this]; exact decide_eq_false (by omega)
  show Scalar.select (BitVec.ofBool (w.slt 0#32)) _ _ = w
  rw [hs]
  exact select_zero _ _

/-- The host's reciprocal square root at an index is the extended reals' one of the element. -/
theorem hostRsqrt_apply {s : Shape} {φ : FTy} (x : FVec Ideal s φ) (i : s.Idx) :
    Host.rsqrt (F := Ideal) x i = Ideal.rsqrt (x i) := rfl

section Stages
variable (tl hd : IVec S160000 32)
  (htl : ∀ e : Fin 160000, 0 ≤ (tl (ix1 e)).toInt ∧ (tl (ix1 e)).toInt < 10000)
  (hhd : ∀ e : Fin 160000, 0 ≤ (hd (ix1 e)).toInt ∧ (hd (ix1 e)).toInt < 10000)

/-- The wrapped column of a vector of words in range reads the vector. -/
theorem wrap_of_range (v : IVec S160000 32)
    (hv : ∀ e : Fin 160000, 0 ≤ (v (ix1 e)).toInt ∧ (v (ix1 e)).toInt < 10000) (e : Fin 160000) :
    wrap v (ix2 e (0 : Fin 1)) = v (ix1 e) := by
  rw [wrap_apply, wrap_word_of_nonneg _ (hv e).1]

/-- "The wrapped word of edge `e` read signed is `n`" is "the node the word names is `n`". -/
theorem wrap_toInt_iff (v : IVec S160000 32)
    (hv : ∀ e : Fin 160000, 0 ≤ (v (ix1 e)).toInt ∧ (v (ix1 e)).toInt < 10000) (e : Fin 160000) (n : Fin 10000) :
    (wrap v (ix2 e (0 : Fin 1))).toInt = (n.val : ℤ) ↔ node (v (ix1 e)) = n := by
  rw [wrap_of_range v hv e]
  exact Cert.RefValue.toInt_eq_iff_node_eq (hv e) n

/-! ## The program's dimension records are the literal-shape ones -/

theorem scatterRow_eq : scatter_S10000_S160000x1_S160000_n_0_0_1
    = GatherScatterIdx.rowScatter 10000 160000 scatter_S10000_S160000x1_S160000_n_0_0_1_wf := rfl

theorem gatherRow_eq : gather_S10000_S160000x1_S160000_n_0_n_n_0_1_1
    = GatherScatterIdx.rowGather 10000 160000 gather_S10000_S160000x1_S160000_n_0_n_n_0_1_1_wf := rfl

theorem gatherRows_eq : gather_S10000x256_S160000x1_S160000x256_1_0_n_n_0_1_1256
    = GatherTable.rowsDims 10000 256 160000 gather_S10000x256_S160000x1_S160000x256_1_0_n_n_0_1_1256_wf := rfl

theorem scatterRows_eq : scatter_S10000x256_S160000x1_S160000x256_1_0_0_1
    = ScatterRows.rowDims 10000 256 160000 scatter_S10000x256_S160000x1_S160000x256_1_0_0_1_wf := rfl

/-! ## The stages -/

include hhd in
/-- The scatter-add of ones at the heads counts the edges into each node. -/
theorem cntT_apply (n : Fin 10000) :
    cntT hd (ix1 n) = Cert.GcnSpec.cnt (fun e => node (hd (ix1 e))) n := by
  unfold cntT Cert.GcnSpec.cnt
  rw [scatterRow_eq, GatherScatterIdx.scatterAdd_row_apply, broadcastInDim_scalar_apply, constant_apply,
    Ideal.ofBits_zero_f32, zero_add]
  refine Finset.sum_congr rfl fun e _ => ?_
  refine if_congr (wrap_toInt_iff hd hhd e n) ?_ rfl
  rw [broadcastInDim_scalar_apply, constant_apply]
  rfl

include hhd in
/-- `rsqrt (cnt + 1)` is the normaliser. -/
theorem disT_apply (n : Fin 10000) :
    disT hd (ix1 n) = Cert.GcnSpec.disK (fun e => node (hd (ix1 e))) n := by
  unfold disT Cert.GcnSpec.disK
  rw [hostRsqrt_apply, addf_apply, cntT_apply hd hhd, broadcastInDim_scalar_apply, constant_apply]
  rfl

include hhd in
/-- The rows of `y` scaled by the normaliser. -/
theorem ztT_apply (y : FVec Ideal S10000x256 .f32) (n : Fin 10000) (j : Fin 256) :
    ztT hd y (ix2 n j) = Cert.GcnSpec.disK (fun e => node (hd (ix1 e))) n * y (ix2 n j) := by
  unfold ztT
  rw [mulf_apply,
    broadcastInDim_apply _ _ _ _ (ix2 n (0 : Fin 1)) (fun a => match a with | ⟨0, _⟩ => rfl | ⟨1, _⟩ => rfl),
    broadcastInDim_apply _ _ _ _ (ix1 n) (fun a => match a with | ⟨0, _⟩ => rfl),
    disT_apply hd hhd]

include htl hhd in
/-- The scaled rows gathered at the tails and summed at the heads. -/
theorem accT_apply (y : FVec Ideal S10000x256 .f32) (n : Fin 10000) (j : Fin 256) :
    accT tl hd y (ix2 n j)
      = Cert.GcnSpec.accK (fun e => node (tl (ix1 e))) (fun e => node (hd (ix1 e))) (fun n k => y (ix2 n k)) n j := by
  unfold accT Cert.GcnSpec.accK Cert.GcnSpec.ztK
  rw [scatterRows_eq, ScatterRows.scatterAdd_rows_apply, broadcastInDim_scalar_apply, constant_apply,
    Ideal.ofBits_zero_f32, zero_add,
    Finset.filter_congr (fun e _ => wrap_toInt_iff hd hhd e n)]
  refine Finset.sum_congr rfl fun e _ => ?_
  rw [gatherRows_eq, GatherTable.gather_rows_apply (by norm_num : 0 < 10000), wrap_of_range tl htl e]
  exact ztT_apply hd hhd y (node (tl (ix1 e))) j

include htl hhd in
/-- The normaliser gathered at the heads and summed at the tails. -/
theorem ssT_apply (n : Fin 10000) :
    ssT tl hd (ix1 n) = Cert.GcnSpec.ssK (fun e => node (tl (ix1 e))) (fun e => node (hd (ix1 e))) n := by
  unfold ssT Cert.GcnSpec.ssK
  rw [scatterRow_eq, GatherScatterIdx.scatterAdd_row_apply, broadcastInDim_scalar_apply, constant_apply,
    Ideal.ofBits_zero_f32, zero_add]
  refine Finset.sum_congr rfl fun e _ => ?_
  refine if_congr (wrap_toInt_iff tl htl e n) ?_ rfl
  rw [gatherRow_eq, GatherScatterIdx.gather_row_apply (by norm_num : 0 < 10000)]
  show disT hd (ix1 (node (wrap hd (ix2 e (0 : Fin 1))))) = _
  rw [wrap_of_range hd hhd e]
  exact disT_apply hd hhd _

end Stages

end Cert.KernelValue

end
-- ==== Proof.LibColumnSum.lean ====
/-
  The sum of each COLUMN of a rank-2 vector over the extended reals: reducing an [a, b] vector along axis 0 leaves a
  length-`b` vector whose entry `l` is the sum of the `a` entries of column `l`.
-/
import Idealize.ShloMosaic.Lib.ValueIdx
import Idealize.ShloMosaic.PureOps.Ideal.Laws

noncomputable section

namespace Cert.LibColumnSum

open Idealize.ShloMosaic Idealize.ShloMosaic.ValueIdx

variable {a b : ℕ} {φ : FTy}

/-- The reduced index `l` of a column reduction with the row `k` put back is `(k, l)`. -/
theorem lift_col (h : (⟨2, ![a, b]⟩ : Shape).Reduces [0] ⟨1, ![b]⟩) (l : Fin b) (k : Fin a) :
    h.lift (ix1 l) k = ix2 k l := by
  funext c; apply Fin.ext
  fin_cases c <;> rfl

/-- A column sum at column `l` is the sum of that column's entries. -/
theorem colsum_apply (src : FVec Ideal ⟨2, ![a, b]⟩ φ) (acc : BitVec φ.bits)
    (h : (⟨2, ![a, b]⟩ : Shape).Reduces [0] ⟨1, ![b]⟩)
    (hφ : FKind.Formats φ) (hacc : acc = FKind.add.neutral φ hφ) (l : Fin b) :
    multiReduction .add [0] ⟨1, ![b]⟩ src acc h hφ hacc (ix1 l) = ∑ k : Fin a, src (ix2 k l) :=
  (Ideal.multiReduction_add_single src acc h hφ hacc (ix1 l)).trans
    (Finset.sum_congr rfl fun k _ => congrArg src (lift_col h l k))

end Cert.LibColumnSum

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.KernelBody0.lean ====
/-
  The first kernel body's result read at an index, over the extended reals: the column mean, the centred entries,
  the column variance, the normalised features and their product with the weight matrix, each as the shared
  specification spells it.
-/
import proofs.«181894_g58806692217087_cont_9to1_m_85_9_alg».proof.Proof.Gen.KernelIdeal.Frame
import proofs.«181894_g58806692217087_cont_9to1_m_85_9_alg».proof.Proof.Spec
import proofs.«181894_g58806692217087_cont_9to1_m_85_9_alg».proof.Proof.LibColumnSum
import proofs.«181894_g58806692217087_cont_9to1_m_85_9_alg».proof.Proof.LibRowOps

noncomputable section

namespace Cert.KernelBody

open Idealize.ShloMosaic Idealize.ShloMosaic.ValueIdx Cert.KernelIdeal Cert.KernelIdeal.Gen

/-- The whole-array rectangles start at the origin. -/
theorem hz2 : (![0, 0] : Fin 2 → Nat) = fun _ => 0 := funext fun a => by fin_cases a <;> rfl

section Body0
variable (x0 : FVec Ideal S10000x256 .f32) (x1 x2 : FVec Ideal S1x256 .f32) (x3 : FVec Ideal S256x256 .f32)

/-- The row of column means: the column sums over the literal 10000. -/
def meanRow : FVec Ideal S1x256 .f32 :=
  divf (shapeCast S1x256 (multiReduction (F := Ideal) .add [0] S256 x0 0x00000000#32 reduces_S10000x256_S256 (.inl rfl) rfl) shapeCasts_S256_S1x256)
    (broadcast S1x256 (Scalar.ofBits (F := Ideal) .f32 0x461C4000#32))

/-- The centred entries. -/
def centred : FVec Ideal S10000x256 .f32 :=
  subf x0 (broadcastTo S10000x256 (meanRow x0) broadcasts_S1x256_S10000x256)

/-- The row of column variances: the column sums of the centred squares over the literal 10000. -/
def varRow : FVec Ideal S1x256 .f32 :=
  divf (shapeCast S1x256 (multiReduction (F := Ideal) .add [0] S256 (mulf (centred x0) (centred x0)) 0x00000000#32 reduces_S10000x256_S256 (.inl rfl) rfl) shapeCasts_S256_S1x256)
    (broadcast S1x256 (Scalar.ofBits (F := Ideal) .f32 0x461C4000#32))

/-- The row of scales: the first parameter row times the reciprocal square root of the variance plus the literal ε. -/
def scaleRow : FVec Ideal S1x256 .f32 :=
  mulf (shapeCast S1x256 x1 shapeCasts_S1x256_S1x256)
    (rsqrt (addf (varRow x0) (broadcast S1x256 (Scalar.ofBits (F := Ideal) .f32 0x3727C5AC#32))))

/-- The normalised features. -/
def normed : FVec Ideal S10000x256 .f32 :=
  addf (mulf (centred x0) (broadcastTo S10000x256 (scaleRow x0 x1) broadcasts_S1x256_S10000x256))
    (broadcastTo S10000x256 (shapeCast S1x256 x2 shapeCasts_S1x256_S1x256) broadcasts_S1x256_S10000x256)

/-- The body's payload is the product of the normalised features with the weight matrix, into the zero splat. -/
theorem pay0_eq : k0_pay1 (F := Ideal) x0 x1 x2 x3
    = matmul dot_S10000x256_S256x256_S10000x256_1_0_0_1_n_n none (normed x0 x1 x2) x3 (constant (F := Ideal) S10000x256 .f32 0x00000000#32) := rfl

/-- A column sum of a [10000, 256] vector from the zero accumulator, read at column `k`. -/
theorem colsum_S (src : FVec Ideal S10000x256 .f32) (k : Fin 256) :
    multiReduction (F := Ideal) .add [0] S256 src 0x00000000#32 reduces_S10000x256_S256 (.inl rfl) rfl (ix1 k)
      = ∑ n : Fin 10000, src (ix2 n k) :=
  Cert.LibColumnSum.colsum_apply src _ _ _ _ k

/-- The plain-indexed view of the feature array. -/
abbrev X0 : Fin 10000 → Fin 256 → EReal := fun n k => x0 (ix2 n k)

/-- The mean row at column `k` is the specification's column mean. -/
theorem meanRow_apply (k : Fin 256) : meanRow x0 (ix2 (0 : Fin 1) k) = Cert.GcnSpec.mean (X0 x0) k := by
  unfold meanRow
  rw [divf_apply, shapeCast_row_apply, colsum_S, broadcast_apply]
  rfl

/-- A centred entry is the specification's. -/
theorem centred_apply (n : Fin 10000) (k : Fin 256) : centred x0 (ix2 n k) = Cert.GcnSpec.xm (X0 x0) n k := by
  unfold centred
  rw [subf_apply, broadcastTo_row_apply, meanRow_apply]
  rfl

/-- The variance row at column `k` is the specification's column variance. -/
theorem varRow_apply (k : Fin 256) : varRow x0 (ix2 (0 : Fin 1) k) = Cert.GcnSpec.var (X0 x0) k := by
  unfold varRow
  rw [divf_apply, shapeCast_row_apply, colsum_S, broadcast_apply]
  simp only [mulf_apply, centred_apply]
  rfl

/-- The scale row at column `k`. -/
theorem scaleRow_apply (k : Fin 256) :
    scaleRow x0 x1 (ix2 (0 : Fin 1) k)
      = x1 (ix2 (0 : Fin 1) k) * Ideal.rsqrt (Cert.GcnSpec.var (X0 x0) k + Cert.GcnSpec.cEps) := by
  unfold scaleRow
  rw [mulf_apply, shapeCast_self]
  show x1 (ix2 (0 : Fin 1) k) * Ideal.rsqrt (varRow x0 (ix2 (0 : Fin 1) k) + Cert.GcnSpec.cEps) = _
  rw [varRow_apply]

/-- A normalised feature is the specification's, in the kernel's spelling. -/
theorem normed_apply (n : Fin 10000) (k : Fin 256) :
    normed x0 x1 x2 (ix2 n k)
      = Cert.GcnSpec.hK (X0 x0) (fun k => x1 (ix2 (0 : Fin 1) k)) (fun k => x2 (ix2 (0 : Fin 1) k)) n k := by
  unfold normed
  rw [addf_apply, mulf_apply, centred_apply, broadcastTo_row_apply, broadcastTo_row_apply, scaleRow_apply, shapeCast_self]
  rfl

/-- The payload at `(n, j)` is row `n` of the normalised features against column `j` of the weights. -/
theorem pay0_apply (n : Fin 10000) (j : Fin 256) :
    k0_pay1 (F := Ideal) x0 x1 x2 x3 (ix2 n j)
      = Cert.GcnSpec.mm (Cert.GcnSpec.hK (X0 x0) (fun k => x1 (ix2 (0 : Fin 1) k)) (fun k => x2 (ix2 (0 : Fin 1) k)))
          (fun k j => x3 (ix2 k j)) n j := by
  rw [pay0_eq]
  unfold dot_S10000x256_S256x256_S10000x256_1_0_0_1_n_n
  rw [matmul_plain_zero_apply]
  unfold Cert.GcnSpec.mm
  refine Finset.sum_congr rfl fun k _ => ?_
  rw [normed_apply]

end Body0

/-- THE FIRST BODY'S RESULT at `(n, j)`: the specification's product of the normalised features with the weights. -/
theorem out0_apply (x0 : Vec Ideal S10000x256 .f32) (x1 x2 : Vec Ideal S1x256 .f32) (x3 : Vec Ideal S256x256 .f32)
    (n : Fin 10000) (j : Fin 256) :
    out0_4 (F := Ideal) x0 x1 x2 x3 (ix2 n j)
      = Cert.GcnSpec.mm (Cert.GcnSpec.hK (fun n k => x0 (ix2 n k)) (fun k => x1 (ix2 (0 : Fin 1) k)) (fun k => x2 (ix2 (0 : Fin 1) k)))
          (fun k j => x3 (ix2 k j)) n j := by
  unfold out0_4
  rw [View.canon_unit_zero hz2]
  simp only [View.ld_unit_zero (S := S10000x256) hz2, View.ld_unit_zero (S := S1x256) hz2, View.ld_unit_zero (S := S256x256) hz2]
  exact pay0_apply x0 x1 x2 x3 n j

end Cert.KernelBody

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.KernelBody1.lean ====
/-
  The second kernel body's result read at an index, over the extended reals: the scaled and biased rows, the leaky
  rectifier, the column weights, the pooled row and its product with the second weight matrix plus the bias, each as
  the shared specification spells it.
-/
import proofs.«181894_g58806692217087_cont_9to1_m_85_9_alg».proof.Proof.Gen.KernelIdeal.Frame
import proofs.«181894_g58806692217087_cont_9to1_m_85_9_alg».proof.Proof.Spec
import proofs.«181894_g58806692217087_cont_9to1_m_85_9_alg».proof.Proof.LibColumnSum
import proofs.«181894_g58806692217087_cont_9to1_m_85_9_alg».proof.Proof.LibKeepdims
import proofs.«181894_g58806692217087_cont_9to1_m_85_9_alg».proof.Proof.LibRowOps

noncomputable section

namespace Cert.KernelBody1

open Idealize.ShloMosaic Idealize.ShloMosaic.ValueIdx Cert.KernelIdeal Cert.KernelIdeal.Gen Cert.KernelBody

/-- The whole-array rectangles start at the origin. -/
theorem hz2 : (![0, 0] : Fin 2 → Nat) = fun _ => 0 := funext fun a => by fin_cases a <;> rfl

/-- The named reciprocal denotes the rational 1/10000. -/
theorem inv_n : Named.named (F := Ideal) Cert.KernelIdeal.κ "inv_10000" (φ := .f32) 0x38D1B717#32 = ((1 / 10000 : ℝ) : EReal) :=
  IdealRules.named_const.ideal_named_scalar _ _ _ _ rfl

/-- A select on "greater than the zero word" between `v` and `c · v` is the leaky rectifier's case split. -/
theorem select_ogt_zero (v c : EReal) :
    Scalar.select (FloatOps.cmpf (F := Ideal) (φ := .f32) .ogt v (Scalar.ofBits (F := Ideal) .f32 0x00000000#32)) v (c * v)
      = if 0 < v then v else c * v := by
  have h0 : (Scalar.ofBits (F := Ideal) .f32 0x00000000#32 : EReal) = 0 := Ideal.ofBits_zero_f32
  show Scalar.select (Ideal.cmp .ogt v (Scalar.ofBits (F := Ideal) .f32 0x00000000#32)) v (c * v) = _
  rw [h0]
  unfold Scalar.select Ideal.cmp
  by_cases h : (0 : EReal) < v
  · simp [h]
  · simp [h]

/-- A column sum of a [10000, 256] vector from the zero accumulator, read at column `k`. -/
theorem colsum_S (src : FVec Ideal S10000x256 .f32) (k : Fin 256) :
    multiReduction (F := Ideal) .add [0] S256 src 0x00000000#32 reduces_S10000x256_S256 (.inl rfl) rfl (ix1 k)
      = ∑ n : Fin 10000, src (ix2 n k) :=
  Cert.LibColumnSum.colsum_apply src _ _ _ _ k

section Body1
variable (dis : FVec Ideal S10000x1 .f32) (acc zt : FVec Ideal S10000x256 .f32) (b1 : FVec Ideal S1x256 .f32)
  (ss : FVec Ideal S10000x1 .f32) (W2 : FVec Ideal S256x256 .f32) (b2 : FVec Ideal S1x256 .f32)

/-- The scaled and biased rows `dis · (acc + zt) + b1`. -/
def out1V : FVec Ideal S10000x256 .f32 :=
  addf (mulf (broadcastTo S10000x256 (shapeCast S10000x1 dis shapeCasts_S10000x1_S10000x1) broadcasts_S10000x1_S10000x256)
      (addf (shapeCast S10000x256 acc shapeCasts_S10000x256_S10000x256) (shapeCast S10000x256 zt shapeCasts_S10000x256_S10000x256)))
    (broadcastTo S10000x256 (shapeCast S1x256 b1 shapeCasts_S1x256_S1x256) broadcasts_S1x256_S10000x256)

/-- The leaky rectifier of them. -/
def h1V : FVec Ideal S10000x256 .f32 :=
  select (cmpf .ogt (out1V dis acc zt b1) (broadcast S10000x256 (Scalar.ofBits (F := Ideal) .f32 0x00000000#32)))
    (out1V dis acc zt b1)
    (mulf (broadcast S10000x256 (Scalar.ofBits (F := Ideal) .f32 0x3DCCCCCD#32)) (out1V dis acc zt b1))

/-- The column of weights `dis · (dis + ss)`. -/
def wCol : FVec Ideal S10000x1 .f32 :=
  mulf (shapeCast S10000x1 dis shapeCasts_S10000x1_S10000x1)
    (addf (shapeCast S10000x1 dis shapeCasts_S10000x1_S10000x1) (shapeCast S10000x1 ss shapeCasts_S10000x1_S10000x1))

/-- The pooled row: the column sums of the weighted rectified rows, times the named reciprocal. -/
def pooled : FVec Ideal S1x256 .f32 :=
  mulf (shapeCast S1x256
      (multiReduction (F := Ideal) .add [0] S256
        (mulf (h1V dis acc zt b1) (broadcastTo S10000x256 (wCol dis ss) broadcasts_S10000x1_S10000x256))
        0x00000000#32 reduces_S10000x256_S256 (.inl rfl) rfl) shapeCasts_S256_S1x256)
    (broadcast S1x256 (Named.named (F := Ideal) Cert.KernelIdeal.κ "inv_10000" (φ := .f32) 0x38D1B717#32))

/-- The body's payload is the pooled row times the second weight matrix, into the zero splat, plus the bias row. -/
theorem pay1_eq : k1_pay1 (F := Ideal) dis acc zt b1 ss W2 b2
    = addf (matmul dot_S1x256_S256x256_S1x256_1_0_0_1_n_n none (pooled dis acc zt b1 ss) W2 (constant (F := Ideal) S1x256 .f32 0x00000000#32))
        (shapeCast S1x256 b2 shapeCasts_S1x256_S1x256) := rfl

/-- A scaled and biased entry. -/
theorem out1V_apply (n : Fin 10000) (k : Fin 256) :
    out1V dis acc zt b1 (ix2 n k)
      = dis (ix2 n (0 : Fin 1)) * (acc (ix2 n k) + zt (ix2 n k)) + b1 (ix2 (0 : Fin 1) k) := by
  unfold out1V
  rw [addf_apply, mulf_apply, addf_apply, Cert.LibKeepdims.broadcastTo_col_apply, broadcastTo_row_apply]
  simp only [shapeCast_self]

/-- A rectified entry is the specification's leaky rectifier of the scaled and biased entry. -/
theorem h1V_apply (n : Fin 10000) (k : Fin 256) :
    h1V dis acc zt b1 (ix2 n k)
      = Cert.GcnSpec.leaky (dis (ix2 n (0 : Fin 1)) * (acc (ix2 n k) + zt (ix2 n k)) + b1 (ix2 (0 : Fin 1) k)) := by
  unfold h1V
  rw [select_apply, cmpf_apply, mulf_apply, broadcast_apply, broadcast_apply, select_ogt_zero, out1V_apply]
  rfl

/-- A column weight. -/
theorem wCol_apply (n : Fin 10000) :
    wCol dis ss (ix2 n (0 : Fin 1))
      = dis (ix2 n (0 : Fin 1)) * (dis (ix2 n (0 : Fin 1)) + ss (ix2 n (0 : Fin 1))) := by
  unfold wCol
  simp only [shapeCast_self]
  rfl

/-- The pooled row at column `k`: the weighted column sum of the rectified entries, over 10000. -/
theorem pooled_apply (k : Fin 256) :
    pooled dis acc zt b1 ss (ix2 (0 : Fin 1) k)
      = (∑ n : Fin 10000,
          Cert.GcnSpec.leaky (dis (ix2 n (0 : Fin 1)) * (acc (ix2 n k) + zt (ix2 n k)) + b1 (ix2 (0 : Fin 1) k))
            * (dis (ix2 n (0 : Fin 1)) * (dis (ix2 n (0 : Fin 1)) + ss (ix2 n (0 : Fin 1)))))
        * ((1 / 10000 : ℝ) : EReal) := by
  unfold pooled
  rw [mulf_apply, shapeCast_row_apply, colsum_S, broadcast_apply, inv_n]
  refine congrArg (· * ((1 / 10000 : ℝ) : EReal)) (Finset.sum_congr rfl fun n _ => ?_)
  rw [mulf_apply, h1V_apply, Cert.LibKeepdims.broadcastTo_col_apply, wCol_apply]

/-- The payload at column `j` is the specification's second-call result. -/
theorem pay1_apply (j : Fin 256) :
    k1_pay1 (F := Ideal) dis acc zt b1 ss W2 b2 (ix2 (0 : Fin 1) j)
      = Cert.GcnSpec.finalK (fun n k => acc (ix2 n k)) (fun n k => zt (ix2 n k)) (fun n => dis (ix2 n (0 : Fin 1)))
          (fun n => ss (ix2 n (0 : Fin 1))) (fun k => b1 (ix2 (0 : Fin 1) k)) (fun k j => W2 (ix2 k j))
          (fun k => b2 (ix2 (0 : Fin 1) k)) j := by
  rw [pay1_eq, addf_apply, shapeCast_self]
  unfold dot_S1x256_S256x256_S1x256_1_0_0_1_n_n
  rw [matmul_plain_zero_apply]
  unfold Cert.GcnSpec.finalK
  refine congrArg (· + b2 (ix2 (0 : Fin 1) j)) (Finset.sum_congr rfl fun k _ => ?_)
  rw [pooled_apply]

end Body1

end Cert.KernelBody1

namespace Cert.KernelBody

open Idealize.ShloMosaic Idealize.ShloMosaic.ValueIdx Cert.KernelIdeal Cert.KernelIdeal.Gen

/-- THE SECOND BODY'S RESULT at column `j`: the specification's second-call result of the seven operands. -/
theorem out1_apply (x0 x1 : Vec Ideal S10000x256 .f32) (x2 x3 : Vec Ideal S10000x1 .f32) (x4 : Vec Ideal S1x256 .f32)
    (x5 : Vec Ideal S256x256 .f32) (x6 : Vec Ideal S1x256 .f32) (j : Fin 256) :
    out1_7 (F := Ideal) x0 x1 x2 x3 x4 x5 x6 (ix2 (0 : Fin 1) j)
      = Cert.GcnSpec.finalK (fun n k => x0 (ix2 n k)) (fun n k => x1 (ix2 n k)) (fun n => x2 (ix2 n (0 : Fin 1)))
          (fun n => x3 (ix2 n (0 : Fin 1))) (fun k => x4 (ix2 (0 : Fin 1) k)) (fun k j => x5 (ix2 k j))
          (fun k => x6 (ix2 (0 : Fin 1) k)) j := by
  unfold out1_7
  rw [View.canon_unit_zero Cert.KernelBody1.hz2]
  simp only [View.ld_unit_zero (S := S10000x256) Cert.KernelBody1.hz2, View.ld_unit_zero (S := S10000x1) Cert.KernelBody1.hz2,
    View.ld_unit_zero (S := S1x256) Cert.KernelBody1.hz2, View.ld_unit_zero (S := S256x256) Cert.KernelBody1.hz2]
  exact Cert.KernelBody1.pay1_apply x2 x0 x1 x4 x3 x5 x6 j

end Cert.KernelBody

end
-- ==== Proof.KernelValue.lean ====
/-
  The kernel program's result term read at an index: with every word of the edge array in [0, 10000), entry
  `(0, j)` of the result is the specification's kernel form of the arguments read by coordinates, the tail and the
  head of an edge being the nodes its two words name.
-/
import proofs.«181894_g58806692217087_cont_9to1_m_85_9_alg».proof.Proof.KernelStages
import proofs.«181894_g58806692217087_cont_9to1_m_85_9_alg».proof.Proof.KernelBody0
import proofs.«181894_g58806692217087_cont_9to1_m_85_9_alg».proof.Proof.KernelBody1
import proofs.«181894_g58806692217087_cont_9to1_m_85_9_alg».proof.Proof.LibRowOps
import proofs.«181894_g58806692217087_cont_9to1_m_85_9_alg».proof.Proof.LibKeepdims

noncomputable section

namespace Cert.KernelValue

open Idealize.ShloMosaic Idealize.ShloMosaic.ValueIdx
open Cert.KernelIdeal Cert.KernelIdeal.Gen Cert.KernelIdeal.GcnTerm
open Cert.RefValue (node)

/-- The first call's result at `(n, j)`: the product of the normalised features with the first weight matrix. -/
theorem yT_apply (a0 : FVec Ideal S10000x256 .f32) (a2 a3 : FVec Ideal S256 .f32) (a4 : FVec Ideal S256x256 .f32)
    (n : Fin 10000) (j : Fin 256) :
    yT a0 a2 a3 a4 (ix2 n j)
      = Cert.GcnSpec.mm (Cert.GcnSpec.hK (fun n k => a0 (ix2 n k)) (fun k => a2 (ix1 k)) (fun k => a3 (ix1 k)))
          (fun k j => a4 (ix2 k j)) n j := by
  unfold yT
  rw [Cert.KernelBody.out0_apply]
  simp only [Cert.KernelBody.shapeCast_row_apply]

/-- THE PROGRAM'S RESULT at `(0, j)` is the specification's kernel form of the arguments. -/
theorem kerTerm_apply (a0 : FVec Ideal S10000x256 .f32) (a1 : IVec S2x160000 32) (a2 a3 : FVec Ideal S256 .f32)
    (a4 : FVec Ideal S256x256 .f32) (a5 : FVec Ideal S256 .f32) (a6 : FVec Ideal S256x256 .f32)
    (a7 : FVec Ideal S256 .f32)
    (hrange : ∀ i, 0 ≤ (a1 i).toInt ∧ (a1 i).toInt < 10000) (j : Fin 256) :
    Cert.KernelIdeal.GcnTerm.kerTerm a0 a1 a2 a3 a4 a5 a6 a7 (ix2 (0 : Fin 1) j)
      = Cert.GcnSpec.GK (fun n k => a0 (ix2 n k)) (fun k => a2 (ix1 k)) (fun k => a3 (ix1 k))
          (fun k j => a4 (ix2 k j)) (fun k => a5 (ix1 k)) (fun k j => a6 (ix2 k j)) (fun k => a7 (ix1 k))
          (fun e => Cert.RefValue.node (a1 (ix2 (0 : Fin 2) e))) (fun e => Cert.RefValue.node (a1 (ix2 (1 : Fin 2) e)))
          j := by
  have htl : ∀ e : Fin 160000, 0 ≤ (tails a1 (ix1 e)).toInt ∧ (tails a1 (ix1 e)).toInt < 10000 := fun e => by
    rw [tails_apply]; exact hrange _
  have hhd : ∀ e : Fin 160000, 0 ≤ (heads a1 (ix1 e)).toInt ∧ (heads a1 (ix1 e)).toInt < 10000 := fun e => by
    rw [heads_apply]; exact hrange _
  have es : (fun e => node (tails a1 (ix1 e))) = fun e => node (a1 (ix2 (0 : Fin 2) e)) :=
    funext fun e => by rw [tails_apply]
  have ed : (fun e => node (heads a1 (ix1 e))) = fun e => node (a1 (ix2 (1 : Fin 2) e)) :=
    funext fun e => by rw [heads_apply]
  have hY : (fun n k => yT a0 a2 a3 a4 (ix2 n k))
      = Cert.GcnSpec.mm (Cert.GcnSpec.hK (fun n k => a0 (ix2 n k)) (fun k => a2 (ix1 k)) (fun k => a3 (ix1 k)))
          (fun k j => a4 (ix2 k j)) :=
    funext fun n => funext fun k => yT_apply a0 a2 a3 a4 n k
  have e1 : (fun n k => accT (tails a1) (heads a1) (yT a0 a2 a3 a4) (ix2 n k))
      = Cert.GcnSpec.accK (fun e => node (a1 (ix2 (0 : Fin 2) e))) (fun e => node (a1 (ix2 (1 : Fin 2) e)))
          (Cert.GcnSpec.mm (Cert.GcnSpec.hK (fun n k => a0 (ix2 n k)) (fun k => a2 (ix1 k)) (fun k => a3 (ix1 k)))
            (fun k j => a4 (ix2 k j))) :=
    funext fun n => funext fun k => by rw [accT_apply _ _ htl hhd, hY, es, ed]
  have e2 : (fun n k => ztT (heads a1) (yT a0 a2 a3 a4) (ix2 n k))
      = Cert.GcnSpec.ztK (fun e => node (a1 (ix2 (1 : Fin 2) e)))
          (Cert.GcnSpec.mm (Cert.GcnSpec.hK (fun n k => a0 (ix2 n k)) (fun k => a2 (ix1 k)) (fun k => a3 (ix1 k)))
            (fun k j => a4 (ix2 k j))) :=
    funext fun n => funext fun k => by rw [ztT_apply _ hhd, yT_apply, ed]; rfl
  have e3 : (fun n => shapeCast S10000x1 (disT (heads a1)) shapeCasts_S10000_S10000x1 (ix2 n (0 : Fin 1)))
      = Cert.GcnSpec.disK (fun e => node (a1 (ix2 (1 : Fin 2) e))) :=
    funext fun n => by rw [Cert.LibKeepdims.shapeCast_col_apply, disT_apply _ hhd, ed]
  have e4 : (fun n => shapeCast S10000x1 (ssT (tails a1) (heads a1)) shapeCasts_S10000_S10000x1 (ix2 n (0 : Fin 1)))
      = Cert.GcnSpec.ssK (fun e => node (a1 (ix2 (0 : Fin 2) e))) (fun e => node (a1 (ix2 (1 : Fin 2) e))) :=
    funext fun n => by rw [Cert.LibKeepdims.shapeCast_col_apply, ssT_apply _ _ htl hhd, es, ed]
  have e5 : (fun k => shapeCast S1x256 a5 shapeCasts_S256_S1x256 (ix2 (0 : Fin 1) k)) = fun k => a5 (ix1 k) :=
    funext fun k => Cert.KernelBody.shapeCast_row_apply a5 _ k
  have e7 : (fun k => shapeCast S1x256 a7 shapeCasts_S256_S1x256 (ix2 (0 : Fin 1) k)) = fun k => a7 (ix1 k) :=
    funext fun k => Cert.KernelBody.shapeCast_row_apply a7 _ k
  unfold kerTerm Cert.GcnSpec.GK
  rw [Cert.KernelBody.out1_apply, e1, e2, e3, e4, e5, e7]

end Cert.KernelValue

end
-- ==== Proof.AlgebraLits.lean ====
/-
  The four float literals of the specification as extended reals: `10000`, `1`, a positive real `ε` and a real
  slope.  Each 32-bit word is evaluated through the definition of the IEEE-754 reading.
-/
import proofs.«181894_g58806692217087_cont_9to1_m_85_9_alg».proof.Proof.Spec

noncomputable section

namespace Cert.GcnAlgebra

open Idealize.ShloMosaic Cert.GcnSpec

/-- The word `0x461C4000` reads as `10000`. -/
theorem c10000_eq : c10000 = ((10000 : ℝ) : EReal) := by
  unfold c10000
  simp [Ideal.ofBits, Ideal.ieee, -EReal.coe_mul]; norm_num

/-- The word `0x3F800000` reads as `1`. -/
theorem cOne_eq : cOne = ((1 : ℝ) : EReal) := by
  unfold cOne
  simp [Ideal.ofBits, Ideal.ieee, -EReal.coe_mul]; norm_num

/-- The real number the word `0x3727C5AC` denotes (about `1e-5`). -/
def epsR : ℝ := 10995116 * (2 : ℝ) ^ (-40 : ℤ)

/-- The real number the word `0x3DCCCCCD` denotes (about `0.1`). -/
def slopeR : ℝ := 13421773 * (2 : ℝ) ^ (-27 : ℤ)

theorem epsR_pos : 0 < epsR := by unfold epsR; positivity

theorem cEps_eq : cEps = ((epsR : ℝ) : EReal) := by
  unfold cEps epsR
  simp [Ideal.ofBits, Ideal.ieee, -EReal.coe_mul]

theorem cSlope_eq : cSlope = ((slopeR : ℝ) : EReal) := by
  unfold cSlope slopeR
  simp [Ideal.ofBits, Ideal.ieee, -EReal.coe_mul]

end Cert.GcnAlgebra

end
-- ==== Proof.AlgebraReal.lean ====
/-
  Real-valued twins of the specification's functions, over arbitrary finite index types, and the identity between
  the kernel's form and the reference's form of the result, in plain real arithmetic.

  The node type is `N`, the feature type `K`, the type of the given edges `E`; `c` stands for `1 / #N`.
  The reference's convolution is written here over the given edges plus one self loop per node.
-/
import Mathlib

noncomputable section

namespace Cert.GcnAlgebra

open Finset

variable {N K E : Type*} [Fintype N] [Fintype K] [Fintype E] [DecidableEq N]

/-- The column mean. -/
def meanr (c : ℝ) (x : N → K → ℝ) (k : K) : ℝ := (∑ n, x n k) * c
/-- The centred entry. -/
def xmr (c : ℝ) (x : N → K → ℝ) (n : N) (k : K) : ℝ := x n k - meanr c x k
/-- The column variance. -/
def varr (c : ℝ) (x : N → K → ℝ) (k : K) : ℝ := (∑ n, xmr c x n k * xmr c x n k) * c
/-- The normalised features. -/
def hr (c ε : ℝ) (x : N → K → ℝ) (γ β : K → ℝ) (n : N) (k : K) : ℝ :=
  xmr c x n k * (γ k * (Real.sqrt (varr c x k + ε))⁻¹) + β k
/-- A matrix product. -/
def mmr (a : N → K → ℝ) (w : K → K → ℝ) (n : N) (j : K) : ℝ := ∑ k, a n k * w k j
/-- The number of edges into `n`. -/
def cntr (d : E → N) (n : N) : ℝ := ∑ e, if d e = n then (1 : ℝ) else 0
/-- `(1 + in-degree)^(-1/2)`. -/
def disr (d : E → N) (n : N) : ℝ := (Real.sqrt (cntr d n + 1))⁻¹
/-- The sum over the edges out of `n` of the normaliser of their heads. -/
def ssr (s d : E → N) (n : N) : ℝ := ∑ e, if s e = n then disr d (d e) else 0
/-- The scaled rows. -/
def ztr (d : E → N) (y : N → K → ℝ) (n : N) (j : K) : ℝ := disr d n * y n j
/-- The scaled rows gathered at the tails and summed at the heads. -/
def accr (s d : E → N) (y : N → K → ℝ) (n : N) (j : K) : ℝ :=
  ∑ e ∈ univ.filter (fun e => d e = n), ztr d y (s e) j
/-- The leaky rectifier with slope `a`. -/
def leakyr (a v : ℝ) : ℝ := if 0 < v then v else a * v
/-- The kernel's second call. -/
def finalKr (c a : ℝ) (acc zt : N → K → ℝ) (dis ss : N → ℝ) (b1 : K → ℝ) (w2 : K → K → ℝ) (b2 : K → ℝ) (j : K) : ℝ :=
  (∑ k, ((∑ n, leakyr a (dis n * (acc n k + zt n k) + b1 k) * (dis n * (dis n + ss n))) * c) * w2 k j) + b2 j
/-- The kernel's result. -/
def GKr (c ε a : ℝ) (x : N → K → ℝ) (γ β : K → ℝ) (w1 : K → K → ℝ) (b1 : K → ℝ) (w2 : K → K → ℝ) (b2 : K → ℝ)
    (s d : E → N) (j : K) : ℝ :=
  finalKr c a (accr s d (mmr (hr c ε x γ β) w1)) (ztr d (mmr (hr c ε x γ β) w1)) (disr d) (ssr s d) b1 w2 b2 j
/-- One convolution of the reference: the given edges, then the self loop, then the bias. -/
def convr (s d : E → N) (t : N → K → ℝ) (b : K → ℝ) (n : N) (j : K) : ℝ :=
  (∑ e ∈ univ.filter (fun e => d e = n), t (s e) j * (disr d (s e) * disr d (d e)))
    + t n j * (disr d n * disr d n) + b j
/-- The reference's result. -/
def GRr (c ε a : ℝ) (x : N → K → ℝ) (γ β : K → ℝ) (w1 : K → K → ℝ) (b1 : K → ℝ) (w2 : K → K → ℝ) (b2 : K → ℝ)
    (s d : E → N) (j : K) : ℝ :=
  (∑ n, convr s d (mmr (fun n k => leakyr a (convr s d (mmr (hr c ε x γ β) w1) b1 n k)) w2) b2 n j) * c

/-- The variance is nonnegative. -/
theorem varr_nonneg {c : ℝ} (hc : 0 ≤ c) (x : N → K → ℝ) (k : K) : 0 ≤ varr c x k :=
  mul_nonneg (Finset.sum_nonneg fun n _ => mul_self_nonneg _) hc

/-- The in-degree is nonnegative. -/
theorem cntr_nonneg (d : E → N) (n : N) : 0 ≤ cntr d n :=
  Finset.sum_nonneg fun e _ => by split_ifs <;> norm_num

/-- The first layer: the kernel's `dis · (acc + zt) + b` is the reference's convolution. -/
theorem out1_eq (s d : E → N) (y : N → K → ℝ) (b : K → ℝ) (n : N) (k : K) :
    disr d n * (accr s d y n k + ztr d y n k) + b k = convr s d y b n k := by
  unfold accr ztr convr
  rw [mul_add, Finset.mul_sum]
  congr 1
  congr 1
  · refine Finset.sum_congr rfl fun e he => ?_
    rw [(Finset.mem_filter.mp he).2]
    ring
  · ring

/-- The mean pulled through the second layer. -/
theorem pool_eq (s d : E → N) (dis : N → ℝ) (h1 : N → K → ℝ) (w2 : K → ℝ) (b c : ℝ)
    (hc : (Fintype.card N : ℝ) * c = 1) :
    (∑ k, ((∑ n, h1 n k * (dis n * (dis n + ∑ e, if s e = n then dis (d e) else 0))) * c) * w2 k) + b
      = (∑ n, ((∑ e ∈ univ.filter (fun e => d e = n), (∑ k, h1 (s e) k * w2 k) * (dis (s e) * dis (d e)))
          + (∑ k, h1 n k * w2 k) * (dis n * dis n) + b)) * c := by
  have hA : ∑ n, ∑ e ∈ univ.filter (fun e => d e = n), (∑ k, h1 (s e) k * w2 k) * (dis (s e) * dis (d e))
      = ∑ e, (∑ k, h1 (s e) k * w2 k) * (dis (s e) * dis (d e)) :=
    Finset.sum_fiberwise univ d _
  have hB : ∑ n, (∑ k, h1 n k * w2 k) * (dis n * ∑ e, if s e = n then dis (d e) else 0)
      = ∑ e, (∑ k, h1 (s e) k * w2 k) * (dis (s e) * dis (d e)) := by
    simp_rw [Finset.mul_sum, mul_ite, mul_zero]
    rw [Finset.sum_comm]
    refine Finset.sum_congr rfl fun e _ => ?_
    rw [Finset.sum_ite_eq]
    simp
  have hL : ∑ k, ((∑ n, h1 n k * (dis n * (dis n + ∑ e, if s e = n then dis (d e) else 0))) * c) * w2 k
      = (∑ n, (∑ k, h1 n k * w2 k) * (dis n * (dis n + ∑ e, if s e = n then dis (d e) else 0))) * c := by
    simp_rw [Finset.sum_mul]
    rw [Finset.sum_comm]
    refine Finset.sum_congr rfl fun n _ => ?_
    refine Finset.sum_congr rfl fun k _ => ?_
    ring
  rw [hL]
  simp_rw [Finset.sum_add_distrib]
  rw [hA, Finset.sum_const, Finset.card_univ, nsmul_eq_mul]
  have hsplit : ∑ n, (∑ k, h1 n k * w2 k) * (dis n * (dis n + ∑ e, if s e = n then dis (d e) else 0))
      = ∑ n, (∑ k, h1 n k * w2 k) * (dis n * dis n)
        + ∑ n, (∑ k, h1 n k * w2 k) * (dis n * ∑ e, if s e = n then dis (d e) else 0) := by
    rw [← Finset.sum_add_distrib]
    refine Finset.sum_congr rfl fun n _ => ?_
    ring
  rw [hsplit, hB]
  have : (Fintype.card N : ℝ) * b * c = b := by rw [mul_right_comm, hc, one_mul]
  linear_combination (-1 : ℝ) * this

/-- The kernel's form of the result equals the reference's form. -/
theorem GKr_eq_GRr (c ε a : ℝ) (hc : (Fintype.card N : ℝ) * c = 1) (x : N → K → ℝ) (γ β : K → ℝ) (w1 : K → K → ℝ)
    (b1 : K → ℝ) (w2 : K → K → ℝ) (b2 : K → ℝ) (s d : E → N) (j : K) :
    GKr c ε a x γ β w1 b1 w2 b2 s d j = GRr c ε a x γ β w1 b1 w2 b2 s d j := by
  unfold GKr GRr finalKr
  simp_rw [out1_eq]
  have := pool_eq s d (disr d) (fun n k => leakyr a (convr s d (mmr (hr c ε x γ β) w1) b1 n k)) (fun k => w2 k j)
    (b2 j) c hc
  simpa only [ssr, convr, mmr] using this

end Cert.GcnAlgebra

end
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.AlgebraLift.lean ====
/-
  Each function of the specification, on arguments that are coercions of real tables, is the coercion of its
  real-valued twin.  The extended reals need care only because distributivity and cancellation fail at the
  infinities; once every intermediate is known to be a real number the arithmetic is carried out in `ℝ`.

  The reference's sums over the extended edge list (the given edges, then one self loop per node) are split into
  the sum over the given edges plus the sum over the nodes.
-/
import proofs.«181894_g58806692217087_cont_9to1_m_85_9_alg».proof.Proof.Spec
import proofs.«181894_g58806692217087_cont_9to1_m_85_9_alg».proof.Proof.LibERealCoe
import proofs.«181894_g58806692217087_cont_9to1_m_85_9_alg».proof.Proof.AlgebraLits
import proofs.«181894_g58806692217087_cont_9to1_m_85_9_alg».proof.Proof.AlgebraReal

noncomputable section

namespace Cert.GcnAlgebra

open Idealize.ShloMosaic Cert.GcnSpec Finset

local notation "cR" => (1 / 10000 : ℝ)

theorem cR_nonneg : (0 : ℝ) ≤ cR := by norm_num

/-! ## The batch normalisation -/

section BatchNorm
variable {X : Fin 10000 → Fin 256 → EReal} {x : Fin 10000 → Fin 256 → ℝ}
  (hX : ∀ n k, X n k = ((x n k : ℝ) : EReal))
include hX

theorem mean_coe (k : Fin 256) : mean X k = ((meanr cR x k : ℝ) : EReal) := by
  unfold mean meanr
  rw [c10000_eq, Ideal.div_coe (by norm_num : (10000 : ℝ) ≠ 0)]
  simp only [hX]
  rw [← ERealCoe.coe_sum, ← EReal.coe_mul]

theorem xm_coe (n : Fin 10000) (k : Fin 256) : xm X n k = ((xmr cR x n k : ℝ) : EReal) := by
  unfold xm xmr
  rw [hX, mean_coe hX, ← EReal.coe_sub]

theorem var_coe (k : Fin 256) : var X k = ((varr cR x k : ℝ) : EReal) := by
  unfold var varr
  rw [c10000_eq, Ideal.div_coe (by norm_num : (10000 : ℝ) ≠ 0)]
  have h : ∀ n, xm X n k * xm X n k = ((xmr cR x n k * xmr cR x n k : ℝ) : EReal) := fun n => by
    rw [xm_coe hX, ← EReal.coe_mul]
  simp only [h]
  rw [← ERealCoe.coe_sum, ← EReal.coe_mul]

variable {γ β : Fin 256 → EReal} {g bt : Fin 256 → ℝ}
  (hγ : ∀ k, γ k = ((g k : ℝ) : EReal)) (hβ : ∀ k, β k = ((bt k : ℝ) : EReal))
include hγ hβ

theorem hK_coe (n : Fin 10000) (k : Fin 256) : hK X γ β n k = ((hr cR epsR x g bt n k : ℝ) : EReal) := by
  have hv : 0 < varr cR x k + epsR := add_pos_of_nonneg_of_pos (varr_nonneg cR_nonneg x k) epsR_pos
  unfold hK hr
  rw [xm_coe hX, var_coe hX, cEps_eq, hγ, hβ, ← EReal.coe_add, Ideal.rsqrt_coe, if_neg (not_lt.mpr hv.le),
    if_neg hv.ne']
  simp only [← EReal.coe_mul, ← EReal.coe_add]

theorem hR_coe (n : Fin 10000) (k : Fin 256) : hR X γ β n k = ((hr cR epsR x g bt n k : ℝ) : EReal) := by
  have hv : 0 < varr cR x k + epsR := add_pos_of_nonneg_of_pos (varr_nonneg cR_nonneg x k) epsR_pos
  have hs : Real.sqrt (varr cR x k + epsR) ≠ 0 := (Real.sqrt_pos.mpr hv).ne'
  unfold hR hr
  rw [xm_coe hX, var_coe hX, cEps_eq, hγ, hβ, ← EReal.coe_add, Ideal.sqrt_coe, if_neg (not_lt.mpr hv.le),
    Ideal.div_coe hs]
  simp only [← EReal.coe_mul, ← EReal.coe_add]
  rw [EReal.coe_eq_coe_iff]
  ring

end BatchNorm

theorem mm_coe {A : Fin 10000 → Fin 256 → EReal} {a : Fin 10000 → Fin 256 → ℝ} {W : Fin 256 → Fin 256 → EReal}
    {w : Fin 256 → Fin 256 → ℝ} (hA : ∀ n k, A n k = ((a n k : ℝ) : EReal)) (hW : ∀ k j, W k j = ((w k j : ℝ) : EReal))
    (n : Fin 10000) (j : Fin 256) : mm A W n j = ((mmr a w n j : ℝ) : EReal) := by
  unfold mm mmr
  have h : ∀ k, A n k * W k j = ((a n k * w k j : ℝ) : EReal) := fun k => by rw [hA, hW, ← EReal.coe_mul]
  simp only [h]
  rw [← ERealCoe.coe_sum]

/-! ## The kernel's form -/

theorem cnt_coe (d : Fin 160000 → Fin 10000) (n : Fin 10000) : cnt d n = ((cntr d n : ℝ) : EReal) := by
  unfold cnt cntr
  rw [ERealCoe.coe_sum]
  refine Finset.sum_congr rfl fun e _ => ?_
  rw [cOne_eq]
  split_ifs <;> simp

theorem cntr_add_one_pos (d : Fin 160000 → Fin 10000) (n : Fin 10000) : 0 < cntr d n + 1 := by
  have := cntr_nonneg d n
  linarith

theorem disK_coe (d : Fin 160000 → Fin 10000) (n : Fin 10000) : disK d n = ((disr d n : ℝ) : EReal) := by
  have hp := cntr_add_one_pos d n
  unfold disK disr
  rw [cnt_coe, cOne_eq, ← EReal.coe_add, Ideal.rsqrt_coe, if_neg (not_lt.mpr hp.le), if_neg hp.ne']

theorem ssK_coe (s d : Fin 160000 → Fin 10000) (n : Fin 10000) : ssK s d n = ((ssr s d n : ℝ) : EReal) := by
  unfold ssK ssr
  rw [ERealCoe.coe_sum]
  refine Finset.sum_congr rfl fun e _ => ?_
  rw [disK_coe]
  split_ifs <;> simp

section Conv
variable {y : Fin 10000 → Fin 256 → EReal} {yr : Fin 10000 → Fin 256 → ℝ}
  (hy : ∀ n j, y n j = ((yr n j : ℝ) : EReal))
include hy

theorem ztK_coe (d : Fin 160000 → Fin 10000) (n : Fin 10000) (j : Fin 256) :
    ztK d y n j = ((ztr d yr n j : ℝ) : EReal) := by
  unfold ztK ztr
  rw [disK_coe, hy, ← EReal.coe_mul]

theorem accK_coe (s d : Fin 160000 → Fin 10000) (n : Fin 10000) (j : Fin 256) :
    accK s d y n j = ((accr s d yr n j : ℝ) : EReal) := by
  unfold accK accr
  rw [ERealCoe.coe_finset_sum]
  exact Finset.sum_congr rfl fun e _ => ztK_coe hy d (s e) j

end Conv

theorem leaky_coe (v : ℝ) : leaky (v : EReal) = ((leakyr slopeR v : ℝ) : EReal) := by
  unfold leaky leakyr
  rw [cSlope_eq]
  by_cases h : 0 < v
  · rw [if_pos (EReal.coe_pos.mpr h), if_pos h]
  · rw [if_neg (mt EReal.coe_pos.mp h), if_neg h, EReal.coe_mul]

theorem finalK_coe {acc zt : Fin 10000 → Fin 256 → EReal} {accv ztv : Fin 10000 → Fin 256 → ℝ}
    {dis ss : Fin 10000 → EReal} {disv ssv : Fin 10000 → ℝ} {b1 b2 : Fin 256 → EReal} {b1v b2v : Fin 256 → ℝ}
    {W2 : Fin 256 → Fin 256 → EReal} {w2 : Fin 256 → Fin 256 → ℝ}
    (hacc : ∀ n k, acc n k = ((accv n k : ℝ) : EReal)) (hzt : ∀ n k, zt n k = ((ztv n k : ℝ) : EReal))
    (hdis : ∀ n, dis n = ((disv n : ℝ) : EReal)) (hss : ∀ n, ss n = ((ssv n : ℝ) : EReal))
    (hb1 : ∀ k, b1 k = ((b1v k : ℝ) : EReal)) (hW2 : ∀ k j, W2 k j = ((w2 k j : ℝ) : EReal))
    (hb2 : ∀ k, b2 k = ((b2v k : ℝ) : EReal)) (j : Fin 256) :
    finalK acc zt dis ss b1 W2 b2 j = ((finalKr cR slopeR accv ztv disv ssv b1v w2 b2v j : ℝ) : EReal) := by
  unfold finalK finalKr
  have h1 : ∀ n k, leaky (dis n * (acc n k + zt n k) + b1 k) * (dis n * (dis n + ss n))
      = ((leakyr slopeR (disv n * (accv n k + ztv n k) + b1v k) * (disv n * (disv n + ssv n)) : ℝ) : EReal) :=
    fun n k => by
      rw [hacc, hzt, hdis, hss, hb1, ← EReal.coe_add, ← EReal.coe_mul, ← EReal.coe_add, leaky_coe, ← EReal.coe_add,
        ← EReal.coe_mul, ← EReal.coe_mul]
  have h2 : ∀ k, ((∑ n : Fin 10000, leaky (dis n * (acc n k + zt n k) + b1 k) * (dis n * (dis n + ss n)))
        * ((cR : ℝ) : EReal)) * W2 k j
      = ((((∑ n : Fin 10000, leakyr slopeR (disv n * (accv n k + ztv n k) + b1v k) * (disv n * (disv n + ssv n)))
        * cR) * w2 k j : ℝ) : EReal) := fun k => by
    simp only [h1]
    rw [← ERealCoe.coe_sum, hW2, ← EReal.coe_mul, ← EReal.coe_mul]
  simp only [h2]
  rw [← ERealCoe.coe_sum, hb2, ← EReal.coe_add]

/-! ## The extended edge list -/

theorem ext_castAdd (f : Fin 160000 → Fin 10000) (e : Fin 160000) : ext f (Fin.castAdd 10000 e) = f e := by
  unfold GcnSpec.ext
  rw [dif_pos (by simp : (Fin.castAdd 10000 e).val < 160000)]
  rfl

theorem ext_natAdd (f : Fin 160000 → Fin 10000) (i : Fin 10000) : ext f (Fin.natAdd 160000 i) = i := by
  unfold GcnSpec.ext
  rw [dif_neg (by simp : ¬ (Fin.natAdd 160000 i).val < 160000)]
  apply Fin.ext
  simp

/-- A sum over the extended edge list is the sum over the given edges plus the sum over the self loops. -/
theorem sum_ext {M : Type*} [AddCommMonoid M] (s d : Fin 160000 → Fin 10000) (F : Fin 10000 → Fin 10000 → M) :
    ∑ e' : Fin 170000, F (ext s e') (ext d e') = ∑ e : Fin 160000, F (s e) (d e) + ∑ i : Fin 10000, F i i := by
  have h := Fin.sum_univ_add (M := M) (a := 160000) (b := 10000) (fun e' => F (ext s e') (ext d e'))
  simp only [ext_castAdd, ext_natAdd] at h
  exact h

/-- The extended edges into `n` are the given edges into `n` and the self loop of `n`. -/
theorem sum_ext_filter {M : Type*} [AddCommMonoid M] (s d : Fin 160000 → Fin 10000) (n : Fin 10000)
    (F : Fin 10000 → Fin 10000 → M) :
    ∑ e' ∈ univ.filter (fun e' : Fin 170000 => ext d e' = n), F (ext s e') (ext d e')
      = ∑ e ∈ univ.filter (fun e : Fin 160000 => d e = n), F (s e) (d e) + F n n := by
  rw [Finset.sum_filter, Finset.sum_filter]
  have h := sum_ext s d (fun a b => if b = n then F a b else 0)
  beta_reduce at h
  rw [h, Finset.sum_ite_eq']
  simp only [Finset.mem_univ, if_true]

/-! ## The reference's form -/

theorem degR_eq (d : Fin 160000 → Fin 10000) (n : Fin 10000) : degR d n = cnt d n + cOne := by
  unfold degR cnt
  have h := sum_ext (M := EReal) d d (fun _ b => if b = n then cOne else 0)
  beta_reduce at h
  rw [h, Finset.sum_ite_eq']
  simp only [Finset.mem_univ, if_true]

theorem disR_coe (d : Fin 160000 → Fin 10000) (n : Fin 10000) : disR d n = ((disr d n : ℝ) : EReal) := by
  have hp := cntr_add_one_pos d n
  unfold disR disr
  rw [degR_eq, cnt_coe, cOne_eq, ← EReal.coe_add, if_pos (EReal.coe_pos.mpr hp), Ideal.rsqrt_coe,
    if_neg (not_lt.mpr hp.le), if_neg hp.ne']

theorem convR_coe {t : Fin 10000 → Fin 256 → EReal} {tr : Fin 10000 → Fin 256 → ℝ} {b : Fin 256 → EReal}
    {br : Fin 256 → ℝ} (ht : ∀ n j, t n j = ((tr n j : ℝ) : EReal)) (hb : ∀ j, b j = ((br j : ℝ) : EReal))
    (s d : Fin 160000 → Fin 10000) (n : Fin 10000) (j : Fin 256) :
    convR s d t b n j = ((convr s d tr br n j : ℝ) : EReal) := by
  unfold convR convr normR
  have h := sum_ext_filter (M := EReal) s d n (fun a c => t a j * (disR d a * disR d c))
  beta_reduce at h
  rw [h]
  have h1 : ∀ a c, t a j * (disR d a * disR d c) = ((tr a j * (disr d a * disr d c) : ℝ) : EReal) := fun a c => by
    rw [ht, disR_coe, disR_coe, ← EReal.coe_mul, ← EReal.coe_mul]
  simp only [h1]
  rw [← ERealCoe.coe_finset_sum, hb, ← EReal.coe_add, ← EReal.coe_add]

end Cert.GcnAlgebra

end
-- ==== Proof.Algebra.lean ====
/-
  The kernel's form of the result equals the reference's form whenever every entry of every argument is a real
  number: choose the real tables, read both forms as coercions of their real-valued twins, and conclude by the
  identity between the twins in real arithmetic.
-/
import proofs.«181894_g58806692217087_cont_9to1_m_85_9_alg».proof.Proof.Spec
import proofs.«181894_g58806692217087_cont_9to1_m_85_9_alg».proof.Proof.AlgebraLits
import proofs.«181894_g58806692217087_cont_9to1_m_85_9_alg».proof.Proof.AlgebraReal
import proofs.«181894_g58806692217087_cont_9to1_m_85_9_alg».proof.Proof.AlgebraLift

noncomputable section

namespace Cert.GcnAlgebra

open Idealize.ShloMosaic Cert.GcnSpec Finset

theorem GK_eq_GR (X : Fin 10000 → Fin 256 → EReal) (γ β : Fin 256 → EReal) (W1 : Fin 256 → Fin 256 → EReal)
    (b1 : Fin 256 → EReal) (W2 : Fin 256 → Fin 256 → EReal) (b2 : Fin 256 → EReal) (s d : Fin 160000 → Fin 10000)
    (hX : ∀ n k, ∃ r : ℝ, X n k = (r : EReal)) (hγ : ∀ k, ∃ r : ℝ, γ k = (r : EReal))
    (hβ : ∀ k, ∃ r : ℝ, β k = (r : EReal))
    (hW1 : ∀ k j, ∃ r : ℝ, W1 k j = (r : EReal)) (hb1 : ∀ k, ∃ r : ℝ, b1 k = (r : EReal))
    (hW2 : ∀ k j, ∃ r : ℝ, W2 k j = (r : EReal)) (hb2 : ∀ k, ∃ r : ℝ, b2 k = (r : EReal)) (j : Fin 256) :
    Cert.GcnSpec.GK X γ β W1 b1 W2 b2 s d j = Cert.GcnSpec.GR X γ β W1 b1 W2 b2 s d j := by
  choose x hx using hX
  choose g hg using hγ
  choose bt hbt using hβ
  choose w1 hw1 using hW1
  choose b1v hb1v using hb1
  choose w2 hw2 using hW2
  choose b2v hb2v using hb2
  -- the first layer's input `h · W1`, in the kernel's and in the reference's spelling
  have hyK : ∀ n j, mm (hK X γ β) W1 n j = ((mmr (hr (1 / 10000) epsR x g bt) w1 n j : ℝ) : EReal) :=
    fun n j => mm_coe (fun n k => hK_coe hx hg hbt n k) hw1 n j
  have hyR : ∀ n j, mm (hR X γ β) W1 n j = ((mmr (hr (1 / 10000) epsR x g bt) w1 n j : ℝ) : EReal) :=
    fun n j => mm_coe (fun n k => hR_coe hx hg hbt n k) hw1 n j
  -- the kernel's result is real
  have hGK : GK X γ β W1 b1 W2 b2 s d j
      = ((GKr (1 / 10000) epsR slopeR x g bt w1 b1v w2 b2v s d j : ℝ) : EReal) := by
    unfold GK GKr
    exact finalK_coe (fun n k => accK_coe hyK s d n k) (fun n k => ztK_coe hyK d n k) (disK_coe d) (ssK_coe s d)
      hb1v hw2 hb2v j
  -- the reference's result is real
  have hGR : GR X γ β W1 b1 W2 b2 s d j
      = ((GRr (1 / 10000) epsR slopeR x g bt w1 b1v w2 b2v s d j : ℝ) : EReal) := by
    unfold GR GRr
    rw [c10000_eq, Ideal.div_coe (by norm_num : (10000 : ℝ) ≠ 0)]
    have h1 : ∀ n k, leaky (convR s d (mm (hR X γ β) W1) b1 n k)
        = ((leakyr slopeR (convr s d (mmr (hr (1 / 10000) epsR x g bt) w1) b1v n k) : ℝ) : EReal) := fun n k => by
      rw [convR_coe hyR hb1v, leaky_coe]
    have h2 : ∀ n j, mm (fun n k => leaky (convR s d (mm (hR X γ β) W1) b1 n k)) W2 n j
        = ((mmr (fun n k => leakyr slopeR (convr s d (mmr (hr (1 / 10000) epsR x g bt) w1) b1v n k)) w2 n j : ℝ)
            : EReal) :=
      fun n j => mm_coe h1 hw2 n j
    have h3 : ∀ n, convR s d (mm (fun n k => leaky (convR s d (mm (hR X γ β) W1) b1 n k)) W2) b2 n j
        = ((convr s d (mmr (fun n k => leakyr slopeR (convr s d (mmr (hr (1 / 10000) epsR x g bt) w1) b1v n k)) w2)
            b2v n j : ℝ) : EReal) :=
      fun n => convR_coe h2 hb2v s d n j
    simp only [h3]
    rw [← ERealCoe.coe_sum, ← EReal.coe_mul]
  have hc : (Fintype.card (Fin 10000) : ℝ) * (1 / 10000) = 1 := by
    rw [Fintype.card_fin]
    norm_num
  rw [hGK, hGR, GKr_eq_GRr (1 / 10000) epsR slopeR hc]

end Cert.GcnAlgebra

end
-- ==== Proof.PreFacts.lean ====
/-
  The precondition decoded, over the extended reals: when the printed predicate is the all-ones bit, every entry of the
  seven float inputs is a real number (its absolute value is below +∞) and every entry of the integer edge array,
  read signed, lies in [0, 10000).
-/
import proofs.«181894_g58806692217087_cont_9to1_m_85_9_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- An extended real whose absolute value `max x (-x)` compares below the word of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have h' : max x (-x) < ⊤ := by
    by_contra hn
    simp [hn] at h
  induction x using EReal.rec with
  | bot => simp at h'
  | coe r => exact ⟨r, rfl⟩
  | top => simp at h'

/-- The conjunction over all entries of `|a| < +∞` being the one bit says every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi
        (cmpf .olt (Host.absf a) (broadcastInDim s ![] hb (constant (F := Ideal) S_ .f32 0x7F800000#32))) init hr hu ix0 = 1#1)
    (i : s.Idx) : ∃ r : ℝ, a i = (r : EReal) :=
  real_of_abs_lt (a i) (Host.reduce_andi_all _ init hr hu ix0 e i)

/-- The conjunction over all entries of `0 ≤ a` and `a < 10000` being the one bit says every entry of `a`, read signed, is
    in [0, 10000). -/
theorem all_range {s : Shape} {axes : List (Fin s.rank)} (a : IVec s 32)
    (hb : S_.BroadcastsInDim s (![] : Fin 0 → Fin s.rank)) (hr : s.ReducesTo axes S_) (hu : 0 < S_.numel) (init : IVec S_ 1)
    (e : Host.reduce IntOp.andi
        (andi (cmpi .sge a (broadcastInDim s ![] hb (constantI S_ 32 0#32)))
          (cmpi .slt a (broadcastInDim s ![] hb (constantI S_ 32 10000#32)))) init hr hu ix0 = 1#1)
    (i : s.Idx) : 0 ≤ (a i).toInt ∧ (a i).toInt < 10000 := by
  have h := Host.reduce_andi_all _ init hr hu ix0 e i
  have h2 : IntOp.andi (IntOp.cmpi .sge (a i) 0#32) (IntOp.cmpi .slt (a i) 10000#32) = 1#1 := h
  obtain ⟨hge, hlt⟩ := IntOp.andi_eq_one.1 h2
  have hge' := IntOp.cmpi_sge.1 hge
  have hlt' := IntOp.cmpi_slt.1 hlt
  have z0 : (0#32 : BitVec 32).toInt = 0 := by decide
  have z1 : (10000#32 : BitVec 32).toInt = 10000 := by decide
  rw [z0] at hge'
  rw [z1] at hlt'
  exact ⟨hge', hlt'⟩

/-- THE PRECONDITION DECODED: the seven float inputs hold reals and the edge array's entries are in [0, 10000). -/
theorem of_pre (a0 : FVec Ideal Cert.Pre_finite_inputs.S10000x256 .f32) (a1 : IVec Cert.Pre_finite_inputs.S2x160000 32)
    (a2 a3 : FVec Ideal Cert.Pre_finite_inputs.S256 .f32) (a4 : FVec Ideal Cert.Pre_finite_inputs.S256x256 .f32)
    (a5 : FVec Ideal Cert.Pre_finite_inputs.S256 .f32) (a6 : FVec Ideal Cert.Pre_finite_inputs.S256x256 .f32)
    (a7 : FVec Ideal Cert.Pre_finite_inputs.S256 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, 0 ≤ (a1 i).toInt ∧ (a1 i).toInt < 10000) := by
  have h0 := congrFun h ix0
  dsimp only [fn, fn_part1, fn_part2] at h0
  obtain ⟨h33, e1⟩ := IntOp.andi_eq_one.1 h0
  obtain ⟨h28, e7⟩ := IntOp.andi_eq_one.1 h33
  obtain ⟨h23, e6⟩ := IntOp.andi_eq_one.1 h28
  obtain ⟨h18, e5⟩ := IntOp.andi_eq_one.1 h23
  obtain ⟨h13, e4⟩ := IntOp.andi_eq_one.1 h18
  obtain ⟨h8, e3⟩ := IntOp.andi_eq_one.1 h13
  obtain ⟨e0, e2⟩ := IntOp.andi_eq_one.1 h8
  exact ⟨all_real a0 _ _ _ _ e0, all_real a2 _ _ _ _ e2, all_real a3 _ _ _ _ e3, all_real a4 _ _ _ _ e4,
    all_real a5 _ _ _ _ e5, all_real a6 _ _ _ _ e6, all_real a7 _ _ _ _ e7, all_range a1 _ _ _ _ e1⟩

end Cert.PreFacts

end
-- ==== Proof.RefRunOps.lean ====
import proofs.«181894_g58806692217087_cont_9to1_m_85_9_alg».proof.Proof.Gen.ReferenceIdeal
import Idealize.ShloMosaic.Lib.StableHlo.Run

/-
  The reference program's @main as three lists of host operations (one per printed window of its statements),
  the calls of its outlined functions written out at the call sites over each call's buffer record, and the facts
  the run of a straight line asks of them: every operation touches TensorCore references only and determines its
  results, and no reference or semaphore of the signature is scoped.
-/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements window 0 of @main, in order, calls written out. -/
abbrev ops0 : List (HloOp τ sig (Elt F)) :=
  [ StableHlo.nullary main_cst (constant S_ .f32 0x00000000#32),
    StableHlo.binary main_arg0 main_cst main_v0 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_0 (constant S_ .f32 0x461C4000#32),
    StableHlo.unary main_cst_0 main_v1 (broadcastInDim S256 ![] bcast_S_S256 : (⟨S_, .f32⟩ : BufTy).Contents (Elt F) → (⟨S256, .f32⟩ : BufTy).Contents (Elt F)),
    StableHlo.binary main_v0 main_v1 main_v2 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (StableHlo.TRef.of main_arg0 : StableHlo.TRef sig ⟨S10000x256, .f32⟩) main_call0.cst main_call0.v0 (fun x v => Host.reduceAdd x v reducesTo_S10000x256_S256_d0 h_S_),
    StableHlo.TRef.unary main_call0.v0 main_call0.v1 (broadcastInDim S1x256 ![1] bcast_S256_S1x256_1),
    StableHlo.TRef.nullary main_call0.cst_0 (constant S_ .f32 0x461C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S10000x256 ![0, 1] bcast_S1x256_S10000x256_0_1),
    StableHlo.TRef.binary (StableHlo.TRef.of main_arg0 : StableHlo.TRef sig ⟨S10000x256, .f32⟩) main_call0.v4 main_call0.v5 subf,
    StableHlo.TRef.binary main_call0.v5 main_call0.v5 main_call0.v6 mulf,
    StableHlo.TRef.unary (StableHlo.TRef.of main_c : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v2 main_v4 (broadcastInDim S1x256 ![1] bcast_S256_S1x256_1 : (⟨S256, .f32⟩ : BufTy).Contents (Elt F) → (⟨S1x256, .f32⟩ : BufTy).Contents (Elt F)),
    StableHlo.unary main_v4 main_v5 (broadcastInDim S10000x256 ![0, 1] bcast_S1x256_S10000x256_0_1 : (⟨S1x256, .f32⟩ : BufTy).Contents (Elt F) → (⟨S10000x256, .f32⟩ : BufTy).Contents (Elt F)),
    StableHlo.binary main_arg0 main_v5 main_v6 (subf : (⟨S10000x256, .f32⟩ : BufTy).Contents (Elt F) → (⟨S10000x256, .f32⟩ : BufTy).Contents (Elt F) → (⟨S10000x256, .f32⟩ : BufTy).Contents (Elt F)),
    StableHlo.nullary main_cst_1 (constant S_ .f32 0x3727C5AC#32),
    StableHlo.unary main_cst_1 main_v7 (broadcastInDim S256 ![] bcast_S_S256 : (⟨S_, .f32⟩ : BufTy).Contents (Elt F) → (⟨S256, .f32⟩ : BufTy).Contents (Elt F)),
    StableHlo.binary main_v3 main_v7 main_v8 (addf : (⟨S256, .f32⟩ : BufTy).Contents (Elt F) → (⟨S256, .f32⟩ : BufTy).Contents (Elt F) → (⟨S256, .f32⟩ : BufTy).Contents (Elt F)),
    StableHlo.unary main_v8 main_v9 (Host.sqrt : (⟨S256, .f32⟩ : BufTy).Contents (Elt F) → (⟨S256, .f32⟩ : BufTy).Contents (Elt F)),
    StableHlo.unary main_v9 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S10000x256 ![0, 1] bcast_S1x256_S10000x256_0_1 : (⟨S1x256, .f32⟩ : BufTy).Contents (Elt F) → (⟨S10000x256, .f32⟩ : BufTy).Contents (Elt F)),
    StableHlo.binary main_v6 main_v11 main_v12 (Host.divf : (⟨S10000x256, .f32⟩ : BufTy).Contents (Elt F) → (⟨S10000x256, .f32⟩ : BufTy).Contents (Elt F) → (⟨S10000x256, .f32⟩ : BufTy).Contents (Elt F)),
    StableHlo.unary main_arg2 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S10000x256 ![0, 1] bcast_S1x256_S10000x256_0_1 : (⟨S1x256, .f32⟩ : BufTy).Contents (Elt F) → (⟨S10000x256, .f32⟩ : BufTy).Contents (Elt F)),
    StableHlo.binary main_v12 main_v14 main_v15 (mulf : (⟨S10000x256, .f32⟩ : BufTy).Contents (Elt F) → (⟨S10000x256, .f32⟩ : BufTy).Contents (Elt F) → (⟨S10000x256, .f32⟩ : BufTy).Contents (Elt F)),
    StableHlo.unary main_arg3 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S10000x256 ![0, 1] bcast_S1x256_S10000x256_0_1 : (⟨S1x256, .f32⟩ : BufTy).Contents (Elt F) → (⟨S10000x256, .f32⟩ : BufTy).Contents (Elt F)),
    StableHlo.binary main_v15 main_v17 main_v18 (addf : (⟨S10000x256, .f32⟩ : BufTy).Contents (Elt F) → (⟨S10000x256, .f32⟩ : BufTy).Contents (Elt F) → (⟨S10000x256, .f32⟩ : BufTy).Contents (Elt F)),
    StableHlo.unary main_arg1 main_v19 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v19 main_v20 rfl shapeCasts_S1x160000_S160000,
    StableHlo.unary main_arg1 main_v21 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v21 main_v22 rfl shapeCasts_S1x160000_S160000,
    StableHlo.binary main_v18 main_arg4 main_v23 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.nullary main_v24 (iotaInDim S10000 32 0),
    StableHlo.binary main_v20 main_v24 main_v25 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.binary main_v22 main_v24 main_v26 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.nullary main_cst_2 (constant S_ .f32 0x00000000#32),
    StableHlo.unary main_cst_2 main_v27 (broadcastInDim S10000 ![] bcast_S_S10000 : (⟨S_, .f32⟩ : BufTy).Contents (Elt F) → (⟨S10000, .f32⟩ : BufTy).Contents (Elt F)),
    StableHlo.nullary main_c_3 (constantI S_ 32 0#32),
    StableHlo.unary main_c_3 main_v28 (broadcastInDim S170000 ![] bcast_S_S170000 : (⟨S_, .i32⟩ : BufTy).Contents (Elt F) → (⟨S170000, .i32⟩ : BufTy).Contents (Elt F)),
    StableHlo.binary main_v26 main_v28 main_v29 (cmpi .slt : (⟨S170000, .i32⟩ : BufTy).Contents (Elt F) → (⟨S170000, .i32⟩ : BufTy).Contents (Elt F) → (⟨S170000, .i1⟩ : BufTy).Contents (Elt F)),
    StableHlo.nullary main_c_4 (constantI S_ 32 10000#32),
    StableHlo.unary main_c_4 main_v30 (broadcastInDim S170000 ![] bcast_S_S170000 : (⟨S_, .i32⟩ : BufTy).Contents (Elt F) → (⟨S170000, .i32⟩ : BufTy).Contents (Elt F)),
    StableHlo.binary main_v26 main_v30 main_v31 (addi : (⟨S170000, .i32⟩ : BufTy).Contents (Elt F) → (⟨S170000, .i32⟩ : BufTy).Contents (Elt F) → (⟨S170000, .i32⟩ : BufTy).Contents (Elt F)),
    StableHlo.ternary main_v29 main_v31 main_v26 main_v32 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v32 main_v33 (broadcastInDim S170000x1 ![0] bcast_S170000_S170000x1_0 : (⟨S170000, .i32⟩ : BufTy).Contents (Elt F) → (⟨S170000x1, .i32⟩ : BufTy).Contents (Elt F)),
    StableHlo.nullary main_cst_5 (constant S_ .f32 0x3F800000#32),
    StableHlo.unary main_cst_5 main_v34 (broadcastInDim S170000 ![] bcast_S_S170000 : (⟨S_, .f32⟩ : BufTy).Contents (Elt F) → (⟨S170000, .f32⟩ : BufTy).Contents (Elt F)),
    StableHlo.ternary main_v27 main_v33 main_v34 main_v35 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    StableHlo.nullary main_cst_6 (constant S_ .f32 0x00000000#32),
    StableHlo.unary main_cst_6 main_v36 (broadcastInDim S10000 ![] bcast_S_S10000 : (⟨S_, .f32⟩ : BufTy).Contents (Elt F) → (⟨S10000, .f32⟩ : BufTy).Contents (Elt F)),
    StableHlo.binary main_v35 main_v36 main_v37 (cmpf .ogt : (⟨S10000, .f32⟩ : BufTy).Contents (Elt F) → (⟨S10000, .f32⟩ : BufTy).Contents (Elt F) → (⟨S10000, .i1⟩ : BufTy).Contents (Elt F)),
    StableHlo.unary main_v35 main_v38 (Host.rsqrt : (⟨S10000, .f32⟩ : BufTy).Contents (Elt F) → (⟨S10000, .f32⟩ : BufTy).Contents (Elt F)),
    StableHlo.nullary main_cst_7 (constant S_ .f32 0x00000000#32),
    StableHlo.TRef.unary (StableHlo.TRef.of main_cst_7 : StableHlo.TRef sig ⟨S_, .f32⟩) main_call1.v0 id,
    StableHlo.TRef.unary main_call1.v0 main_call1.v1 (broadcastInDim S10000 ![] bcast_S_S10000),
    StableHlo.TRef.ternary (StableHlo.TRef.of main_v37 : StableHlo.TRef sig ⟨S10000, .i1⟩) (StableHlo.TRef.of main_v38 : StableHlo.TRef sig ⟨S10000, .f32⟩) main_call1.v1 main_call1.v2 select,
    StableHlo.nullary main_c_8 (constantI S_ 32 0#32),
    StableHlo.unary main_c_8 main_v40 (broadcastInDim S170000 ![] bcast_S_S170000 : (⟨S_, .i32⟩ : BufTy).Contents (Elt F) → (⟨S170000, .i32⟩ : BufTy).Contents (Elt F)),
    StableHlo.binary main_v25 main_v40 main_v41 (cmpi .slt : (⟨S170000, .i32⟩ : BufTy).Contents (Elt F) → (⟨S170000, .i32⟩ : BufTy).Contents (Elt F) → (⟨S170000, .i1⟩ : BufTy).Contents (Elt F)),
    StableHlo.nullary main_c_9 (constantI S_ 32 10000#32),
    StableHlo.unary main_c_9 main_v42 (broadcastInDim S170000 ![] bcast_S_S170000 : (⟨S_, .i32⟩ : BufTy).Contents (Elt F) → (⟨S170000, .i32⟩ : BufTy).Contents (Elt F)),
    StableHlo.binary main_v25 main_v42 main_v43 (addi : (⟨S170000, .i32⟩ : BufTy).Contents (Elt F) → (⟨S170000, .i32⟩ : BufTy).Contents (Elt F) → (⟨S170000, .i32⟩ : BufTy).Contents (Elt F)),
    StableHlo.ternary main_v41 main_v43 main_v25 main_v44 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v44 main_v45 (broadcastInDim S170000x1 ![0] bcast_S170000_S170000x1_0 : (⟨S170000, .i32⟩ : BufTy).Contents (Elt F) → (⟨S170000x1, .i32⟩ : BufTy).Contents (Elt F)),
    StableHlo.binary main_v39 main_v45 main_v46 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.nullary main_c_10 (constantI S_ 32 0#32) ]

/-- The operations of statements window 1 of @main, in order, calls written out. -/
abbrev ops1 : List (HloOp τ sig (Elt F)) :=
  [ StableHlo.unary main_c_10 main_v47 (broadcastInDim S170000 ![] bcast_S_S170000 : (⟨S_, .i32⟩ : BufTy).Contents (Elt F) → (⟨S170000, .i32⟩ : BufTy).Contents (Elt F)),
    StableHlo.binary main_v26 main_v47 main_v48 (cmpi .slt : (⟨S170000, .i32⟩ : BufTy).Contents (Elt F) → (⟨S170000, .i32⟩ : BufTy).Contents (Elt F) → (⟨S170000, .i1⟩ : BufTy).Contents (Elt F)),
    StableHlo.nullary main_c_11 (constantI S_ 32 10000#32),
    StableHlo.unary main_c_11 main_v49 (broadcastInDim S170000 ![] bcast_S_S170000 : (⟨S_, .i32⟩ : BufTy).Contents (Elt F) → (⟨S170000, .i32⟩ : BufTy).Contents (Elt F)),
    StableHlo.binary main_v26 main_v49 main_v50 (addi : (⟨S170000, .i32⟩ : BufTy).Contents (Elt F) → (⟨S170000, .i32⟩ : BufTy).Contents (Elt F) → (⟨S170000, .i32⟩ : BufTy).Contents (Elt F)),
    StableHlo.ternary main_v48 main_v50 main_v26 main_v51 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v51 main_v52 (broadcastInDim S170000x1 ![0] bcast_S170000_S170000x1_0 : (⟨S170000, .i32⟩ : BufTy).Contents (Elt F) → (⟨S170000x1, .i32⟩ : BufTy).Contents (Elt F)),
    StableHlo.binary main_v39 main_v52 main_v53 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.binary main_v46 main_v53 main_v54 (mulf : (⟨S170000, .f32⟩ : BufTy).Contents (Elt F) → (⟨S170000, .f32⟩ : BufTy).Contents (Elt F) → (⟨S170000, .f32⟩ : BufTy).Contents (Elt F)),
    StableHlo.nullary main_c_12 (constantI S_ 32 0#32),
    StableHlo.unary main_c_12 main_v55 (broadcastInDim S170000 ![] bcast_S_S170000 : (⟨S_, .i32⟩ : BufTy).Contents (Elt F) → (⟨S170000, .i32⟩ : BufTy).Contents (Elt F)),
    StableHlo.binary main_v25 main_v55 main_v56 (cmpi .slt : (⟨S170000, .i32⟩ : BufTy).Contents (Elt F) → (⟨S170000, .i32⟩ : BufTy).Contents (Elt F) → (⟨S170000, .i1⟩ : BufTy).Contents (Elt F)),
    StableHlo.nullary main_c_13 (constantI S_ 32 10000#32),
    StableHlo.unary main_c_13 main_v57 (broadcastInDim S170000 ![] bcast_S_S170000 : (⟨S_, .i32⟩ : BufTy).Contents (Elt F) → (⟨S170000, .i32⟩ : BufTy).Contents (Elt F)),
    StableHlo.binary main_v25 main_v57 main_v58 (addi : (⟨S170000, .i32⟩ : BufTy).Contents (Elt F) → (⟨S170000, .i32⟩ : BufTy).Contents (Elt F) → (⟨S170000, .i32⟩ : BufTy).Contents (Elt F)),
    StableHlo.ternary main_v56 main_v58 main_v25 main_v59 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v59 main_v60 (broadcastInDim S170000x1 ![0] bcast_S170000_S170000x1_0 : (⟨S170000, .i32⟩ : BufTy).Contents (Elt F) → (⟨S170000x1, .i32⟩ : BufTy).Contents (Elt F)),
    StableHlo.binary main_v23 main_v60 main_v61 ((fun x i => Host.gather gather_S10000x256_S170000x1_S170000x256_1_0_n_n_0_1_1256 x i) : (⟨S10000x256, .f32⟩ : BufTy).Contents (Elt F) → (⟨S170000x1, .i32⟩ : BufTy).Contents (Elt F) → (⟨S170000x256, .f32⟩ : BufTy).Contents (Elt F)),
    StableHlo.unary main_v54 main_v62 (broadcastInDim S170000x1 ![0] bcast_S170000_S170000x1_0 : (⟨S170000, .f32⟩ : BufTy).Contents (Elt F) → (⟨S170000x1, .f32⟩ : BufTy).Contents (Elt F)),
    StableHlo.unary main_v62 main_v63 (broadcastInDim S170000x256 ![0, 1] bcast_S170000x1_S170000x256_0_1 : (⟨S170000x1, .f32⟩ : BufTy).Contents (Elt F) → (⟨S170000x256, .f32⟩ : BufTy).Contents (Elt F)),
    StableHlo.binary main_v61 main_v63 main_v64 (mulf : (⟨S170000x256, .f32⟩ : BufTy).Contents (Elt F) → (⟨S170000x256, .f32⟩ : BufTy).Contents (Elt F) → (⟨S170000x256, .f32⟩ : BufTy).Contents (Elt F)),
    StableHlo.nullary main_cst_14 (constant S_ .f32 0x00000000#32),
    StableHlo.unary main_cst_14 main_v65 (broadcastInDim S10000x256 ![] bcast_S_S10000x256 : (⟨S_, .f32⟩ : BufTy).Contents (Elt F) → (⟨S10000x256, .f32⟩ : BufTy).Contents (Elt F)),
    StableHlo.nullary main_c_15 (constantI S_ 32 0#32),
    StableHlo.unary main_c_15 main_v66 (broadcastInDim S170000 ![] bcast_S_S170000 : (⟨S_, .i32⟩ : BufTy).Contents (Elt F) → (⟨S170000, .i32⟩ : BufTy).Contents (Elt F)),
    StableHlo.binary main_v26 main_v66 main_v67 (cmpi .slt : (⟨S170000, .i32⟩ : BufTy).Contents (Elt F) → (⟨S170000, .i32⟩ : BufTy).Contents (Elt F) → (⟨S170000, .i1⟩ : BufTy).Contents (Elt F)),
    StableHlo.nullary main_c_16 (constantI S_ 32 10000#32),
    StableHlo.unary main_c_16 main_v68 (broadcastInDim S170000 ![] bcast_S_S170000 : (⟨S_, .i32⟩ : BufTy).Contents (Elt F) → (⟨S170000, .i32⟩ : BufTy).Contents (Elt F)),
    StableHlo.binary main_v26 main_v68 main_v69 (addi : (⟨S170000, .i32⟩ : BufTy).Contents (Elt F) → (⟨S170000, .i32⟩ : BufTy).Contents (Elt F) → (⟨S170000, .i32⟩ : BufTy).Contents (Elt F)),
    StableHlo.ternary main_v67 main_v69 main_v26 main_v70 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v70 main_v71 (broadcastInDim S170000x1 ![0] bcast_S170000_S170000x1_0 : (⟨S170000, .i32⟩ : BufTy).Contents (Elt F) → (⟨S170000x1, .i32⟩ : BufTy).Contents (Elt F)),
    StableHlo.ternary main_v65 main_v71 main_v64 main_v72 ((fun x i u => Host.scatterAdd scatter_S10000x256_S170000x1_S170000x256_1_0_0_1 x i u) : (⟨S10000x256, .f32⟩ : BufTy).Contents (Elt F) → (⟨S170000x1, .i32⟩ : BufTy).Contents (Elt F) → (⟨S170000x256, .f32⟩ : BufTy).Contents (Elt F) → (⟨S10000x256, .f32⟩ : BufTy).Contents (Elt F)),
    StableHlo.unary main_arg5 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S10000x256 ![0, 1] bcast_S1x256_S10000x256_0_1 : (⟨S1x256, .f32⟩ : BufTy).Contents (Elt F) → (⟨S10000x256, .f32⟩ : BufTy).Contents (Elt F)),
    StableHlo.binary main_v72 main_v74 main_v75 (addf : (⟨S10000x256, .f32⟩ : BufTy).Contents (Elt F) → (⟨S10000x256, .f32⟩ : BufTy).Contents (Elt F) → (⟨S10000x256, .f32⟩ : BufTy).Contents (Elt F)),
    StableHlo.nullary main_cst_17 (constant S_ .f32 0x00000000#32),
    StableHlo.unary main_cst_17 main_v76 (broadcastInDim S10000x256 ![] bcast_S_S10000x256 : (⟨S_, .f32⟩ : BufTy).Contents (Elt F) → (⟨S10000x256, .f32⟩ : BufTy).Contents (Elt F)),
    StableHlo.binary main_v75 main_v76 main_v77 (cmpf .ogt : (⟨S10000x256, .f32⟩ : BufTy).Contents (Elt F) → (⟨S10000x256, .f32⟩ : BufTy).Contents (Elt F) → (⟨S10000x256, .i1⟩ : BufTy).Contents (Elt F)),
    StableHlo.nullary main_cst_18 (constant S_ .f32 0x3DCCCCCD#32),
    StableHlo.unary main_cst_18 main_v78 (broadcastInDim S10000x256 ![] bcast_S_S10000x256 : (⟨S_, .f32⟩ : BufTy).Contents (Elt F) → (⟨S10000x256, .f32⟩ : BufTy).Contents (Elt F)),
    StableHlo.binary main_v78 main_v75 main_v79 (mulf : (⟨S10000x256, .f32⟩ : BufTy).Contents (Elt F) → (⟨S10000x256, .f32⟩ : BufTy).Contents (Elt F) → (⟨S10000x256, .f32⟩ : BufTy).Contents (Elt F)),
    StableHlo.TRef.ternary (StableHlo.TRef.of main_v77 : StableHlo.TRef sig ⟨S10000x256, .i1⟩) (StableHlo.TRef.of main_v75 : StableHlo.TRef sig ⟨S10000x256, .f32⟩) (StableHlo.TRef.of main_v79 : StableHlo.TRef sig ⟨S10000x256, .f32⟩) main_call2.v0 select,
    StableHlo.binary main_v80 main_arg6 main_v81 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.nullary main_v82 (iotaInDim S10000 32 0),
    StableHlo.binary main_v20 main_v82 main_v83 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.binary main_v22 main_v82 main_v84 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.nullary main_cst_19 (constant S_ .f32 0x00000000#32),
    StableHlo.unary main_cst_19 main_v85 (broadcastInDim S10000 ![] bcast_S_S10000 : (⟨S_, .f32⟩ : BufTy).Contents (Elt F) → (⟨S10000, .f32⟩ : BufTy).Contents (Elt F)),
    StableHlo.nullary main_c_20 (constantI S_ 32 0#32),
    StableHlo.unary main_c_20 main_v86 (broadcastInDim S170000 ![] bcast_S_S170000 : (⟨S_, .i32⟩ : BufTy).Contents (Elt F) → (⟨S170000, .i32⟩ : BufTy).Contents (Elt F)),
    StableHlo.binary main_v84 main_v86 main_v87 (cmpi .slt : (⟨S170000, .i32⟩ : BufTy).Contents (Elt F) → (⟨S170000, .i32⟩ : BufTy).Contents (Elt F) → (⟨S170000, .i1⟩ : BufTy).Contents (Elt F)),
    StableHlo.nullary main_c_21 (constantI S_ 32 10000#32),
    StableHlo.unary main_c_21 main_v88 (broadcastInDim S170000 ![] bcast_S_S170000 : (⟨S_, .i32⟩ : BufTy).Contents (Elt F) → (⟨S170000, .i32⟩ : BufTy).Contents (Elt F)),
    StableHlo.binary main_v84 main_v88 main_v89 (addi : (⟨S170000, .i32⟩ : BufTy).Contents (Elt F) → (⟨S170000, .i32⟩ : BufTy).Contents (Elt F) → (⟨S170000, .i32⟩ : BufTy).Contents (Elt F)),
    StableHlo.ternary main_v87 main_v89 main_v84 main_v90 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v90 main_v91 (broadcastInDim S170000x1 ![0] bcast_S170000_S170000x1_0 : (⟨S170000, .i32⟩ : BufTy).Contents (Elt F) → (⟨S170000x1, .i32⟩ : BufTy).Contents (Elt F)),
    StableHlo.nullary main_cst_22 (constant S_ .f32 0x3F800000#32),
    StableHlo.unary main_cst_22 main_v92 (broadcastInDim S170000 ![] bcast_S_S170000 : (⟨S_, .f32⟩ : BufTy).Contents (Elt F) → (⟨S170000, .f32⟩ : BufTy).Contents (Elt F)),
    StableHlo.ternary main_v85 main_v91 main_v92 main_v93 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    StableHlo.nullary main_cst_23 (constant S_ .f32 0x00000000#32) ]

/-- The operations of statements window 2 of @main, in order, calls written out. -/
abbrev ops2 : List (HloOp τ sig (Elt F)) :=
  [ StableHlo.unary main_cst_23 main_v94 (broadcastInDim S10000 ![] bcast_S_S10000 : (⟨S_, .f32⟩ : BufTy).Contents (Elt F) → (⟨S10000, .f32⟩ : BufTy).Contents (Elt F)),
    StableHlo.binary main_v93 main_v94 main_v95 (cmpf .ogt : (⟨S10000, .f32⟩ : BufTy).Contents (Elt F) → (⟨S10000, .f32⟩ : BufTy).Contents (Elt F) → (⟨S10000, .i1⟩ : BufTy).Contents (Elt F)),
    StableHlo.unary main_v93 main_v96 (Host.rsqrt : (⟨S10000, .f32⟩ : BufTy).Contents (Elt F) → (⟨S10000, .f32⟩ : BufTy).Contents (Elt F)),
    StableHlo.nullary main_cst_24 (constant S_ .f32 0x00000000#32),
    StableHlo.TRef.unary (StableHlo.TRef.of main_cst_24 : StableHlo.TRef sig ⟨S_, .f32⟩) main_call3.v0 id,
    StableHlo.TRef.unary main_call3.v0 main_call3.v1 (broadcastInDim S10000 ![] bcast_S_S10000),
    StableHlo.TRef.ternary (StableHlo.TRef.of main_v95 : StableHlo.TRef sig ⟨S10000, .i1⟩) (StableHlo.TRef.of main_v96 : StableHlo.TRef sig ⟨S10000, .f32⟩) main_call3.v1 main_call3.v2 select,
    StableHlo.nullary main_c_25 (constantI S_ 32 0#32),
    StableHlo.unary main_c_25 main_v98 (broadcastInDim S170000 ![] bcast_S_S170000 : (⟨S_, .i32⟩ : BufTy).Contents (Elt F) → (⟨S170000, .i32⟩ : BufTy).Contents (Elt F)),
    StableHlo.binary main_v83 main_v98 main_v99 (cmpi .slt : (⟨S170000, .i32⟩ : BufTy).Contents (Elt F) → (⟨S170000, .i32⟩ : BufTy).Contents (Elt F) → (⟨S170000, .i1⟩ : BufTy).Contents (Elt F)),
    StableHlo.nullary main_c_26 (constantI S_ 32 10000#32),
    StableHlo.unary main_c_26 main_v100 (broadcastInDim S170000 ![] bcast_S_S170000 : (⟨S_, .i32⟩ : BufTy).Contents (Elt F) → (⟨S170000, .i32⟩ : BufTy).Contents (Elt F)),
    StableHlo.binary main_v83 main_v100 main_v101 (addi : (⟨S170000, .i32⟩ : BufTy).Contents (Elt F) → (⟨S170000, .i32⟩ : BufTy).Contents (Elt F) → (⟨S170000, .i32⟩ : BufTy).Contents (Elt F)),
    StableHlo.ternary main_v99 main_v101 main_v83 main_v102 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v102 main_v103 (broadcastInDim S170000x1 ![0] bcast_S170000_S170000x1_0 : (⟨S170000, .i32⟩ : BufTy).Contents (Elt F) → (⟨S170000x1, .i32⟩ : BufTy).Contents (Elt F)),
    StableHlo.binary main_v97 main_v103 main_v104 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.nullary main_c_27 (constantI S_ 32 0#32),
    StableHlo.unary main_c_27 main_v105 (broadcastInDim S170000 ![] bcast_S_S170000 : (⟨S_, .i32⟩ : BufTy).Contents (Elt F) → (⟨S170000, .i32⟩ : BufTy).Contents (Elt F)),
    StableHlo.binary main_v84 main_v105 main_v106 (cmpi .slt : (⟨S170000, .i32⟩ : BufTy).Contents (Elt F) → (⟨S170000, .i32⟩ : BufTy).Contents (Elt F) → (⟨S170000, .i1⟩ : BufTy).Contents (Elt F)),
    StableHlo.nullary main_c_28 (constantI S_ 32 10000#32),
    StableHlo.unary main_c_28 main_v107 (broadcastInDim S170000 ![] bcast_S_S170000 : (⟨S_, .i32⟩ : BufTy).Contents (Elt F) → (⟨S170000, .i32⟩ : BufTy).Contents (Elt F)),
    StableHlo.binary main_v84 main_v107 main_v108 (addi : (⟨S170000, .i32⟩ : BufTy).Contents (Elt F) → (⟨S170000, .i32⟩ : BufTy).Contents (Elt F) → (⟨S170000, .i32⟩ : BufTy).Contents (Elt F)),
    StableHlo.ternary main_v106 main_v108 main_v84 main_v109 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v109 main_v110 (broadcastInDim S170000x1 ![0] bcast_S170000_S170000x1_0 : (⟨S170000, .i32⟩ : BufTy).Contents (Elt F) → (⟨S170000x1, .i32⟩ : BufTy).Contents (Elt F)),
    StableHlo.binary main_v97 main_v110 main_v111 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.binary main_v104 main_v111 main_v112 (mulf : (⟨S170000, .f32⟩ : BufTy).Contents (Elt F) → (⟨S170000, .f32⟩ : BufTy).Contents (Elt F) → (⟨S170000, .f32⟩ : BufTy).Contents (Elt F)),
    StableHlo.nullary main_c_29 (constantI S_ 32 0#32),
    StableHlo.unary main_c_29 main_v113 (broadcastInDim S170000 ![] bcast_S_S170000 : (⟨S_, .i32⟩ : BufTy).Contents (Elt F) → (⟨S170000, .i32⟩ : BufTy).Contents (Elt F)),
    StableHlo.binary main_v83 main_v113 main_v114 (cmpi .slt : (⟨S170000, .i32⟩ : BufTy).Contents (Elt F) → (⟨S170000, .i32⟩ : BufTy).Contents (Elt F) → (⟨S170000, .i1⟩ : BufTy).Contents (Elt F)),
    StableHlo.nullary main_c_30 (constantI S_ 32 10000#32),
    StableHlo.unary main_c_30 main_v115 (broadcastInDim S170000 ![] bcast_S_S170000 : (⟨S_, .i32⟩ : BufTy).Contents (Elt F) → (⟨S170000, .i32⟩ : BufTy).Contents (Elt F)),
    StableHlo.binary main_v83 main_v115 main_v116 (addi : (⟨S170000, .i32⟩ : BufTy).Contents (Elt F) → (⟨S170000, .i32⟩ : BufTy).Contents (Elt F) → (⟨S170000, .i32⟩ : BufTy).Contents (Elt F)),
    StableHlo.ternary main_v114 main_v116 main_v83 main_v117 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v117 main_v118 (broadcastInDim S170000x1 ![0] bcast_S170000_S170000x1_0 : (⟨S170000, .i32⟩ : BufTy).Contents (Elt F) → (⟨S170000x1, .i32⟩ : BufTy).Contents (Elt F)),
    StableHlo.binary main_v81 main_v118 main_v119 ((fun x i => Host.gather gather_S10000x256_S170000x1_S170000x256_1_0_n_n_0_1_1256 x i) : (⟨S10000x256, .f32⟩ : BufTy).Contents (Elt F) → (⟨S170000x1, .i32⟩ : BufTy).Contents (Elt F) → (⟨S170000x256, .f32⟩ : BufTy).Contents (Elt F)),
    StableHlo.unary main_v112 main_v120 (broadcastInDim S170000x1 ![0] bcast_S170000_S170000x1_0 : (⟨S170000, .f32⟩ : BufTy).Contents (Elt F) → (⟨S170000x1, .f32⟩ : BufTy).Contents (Elt F)),
    StableHlo.unary main_v120 main_v121 (broadcastInDim S170000x256 ![0, 1] bcast_S170000x1_S170000x256_0_1 : (⟨S170000x1, .f32⟩ : BufTy).Contents (Elt F) → (⟨S170000x256, .f32⟩ : BufTy).Contents (Elt F)),
    StableHlo.binary main_v119 main_v121 main_v122 (mulf : (⟨S170000x256, .f32⟩ : BufTy).Contents (Elt F) → (⟨S170000x256, .f32⟩ : BufTy).Contents (Elt F) → (⟨S170000x256, .f32⟩ : BufTy).Contents (Elt F)),
    StableHlo.nullary main_cst_31 (constant S_ .f32 0x00000000#32),
    StableHlo.unary main_cst_31 main_v123 (broadcastInDim S10000x256 ![] bcast_S_S10000x256 : (⟨S_, .f32⟩ : BufTy).Contents (Elt F) → (⟨S10000x256, .f32⟩ : BufTy).Contents (Elt F)),
    StableHlo.nullary main_c_32 (constantI S_ 32 0#32),
    StableHlo.unary main_c_32 main_v124 (broadcastInDim S170000 ![] bcast_S_S170000 : (⟨S_, .i32⟩ : BufTy).Contents (Elt F) → (⟨S170000, .i32⟩ : BufTy).Contents (Elt F)),
    StableHlo.binary main_v84 main_v124 main_v125 (cmpi .slt : (⟨S170000, .i32⟩ : BufTy).Contents (Elt F) → (⟨S170000, .i32⟩ : BufTy).Contents (Elt F) → (⟨S170000, .i1⟩ : BufTy).Contents (Elt F)),
    StableHlo.nullary main_c_33 (constantI S_ 32 10000#32),
    StableHlo.unary main_c_33 main_v126 (broadcastInDim S170000 ![] bcast_S_S170000 : (⟨S_, .i32⟩ : BufTy).Contents (Elt F) → (⟨S170000, .i32⟩ : BufTy).Contents (Elt F)),
    StableHlo.binary main_v84 main_v126 main_v127 (addi : (⟨S170000, .i32⟩ : BufTy).Contents (Elt F) → (⟨S170000, .i32⟩ : BufTy).Contents (Elt F) → (⟨S170000, .i32⟩ : BufTy).Contents (Elt F)),
    StableHlo.ternary main_v125 main_v127 main_v84 main_v128 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v128 main_v129 (broadcastInDim S170000x1 ![0] bcast_S170000_S170000x1_0 : (⟨S170000, .i32⟩ : BufTy).Contents (Elt F) → (⟨S170000x1, .i32⟩ : BufTy).Contents (Elt F)),
    StableHlo.ternary main_v123 main_v129 main_v122 main_v130 ((fun x i u => Host.scatterAdd scatter_S10000x256_S170000x1_S170000x256_1_0_0_1 x i u) : (⟨S10000x256, .f32⟩ : BufTy).Contents (Elt F) → (⟨S170000x1, .i32⟩ : BufTy).Contents (Elt F) → (⟨S170000x256, .f32⟩ : BufTy).Contents (Elt F) → (⟨S10000x256, .f32⟩ : BufTy).Contents (Elt F)),
    StableHlo.unary main_arg7 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S10000x256 ![0, 1] bcast_S1x256_S10000x256_0_1 : (⟨S1x256, .f32⟩ : BufTy).Contents (Elt F) → (⟨S10000x256, .f32⟩ : BufTy).Contents (Elt F)),
    StableHlo.binary main_v130 main_v132 main_v133 (addf : (⟨S10000x256, .f32⟩ : BufTy).Contents (Elt F) → (⟨S10000x256, .f32⟩ : BufTy).Contents (Elt F) → (⟨S10000x256, .f32⟩ : BufTy).Contents (Elt F)),
    StableHlo.nullary main_cst_34 (constant S_ .f32 0x00000000#32),
    StableHlo.binary main_v133 main_cst_34 main_v134 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.unary main_v134 main_v135 (broadcastInDim S1x256 ![1] bcast_S256_S1x256_1 : (⟨S256, .f32⟩ : BufTy).Contents (Elt F) → (⟨S1x256, .f32⟩ : BufTy).Contents (Elt F)),
    StableHlo.nullary main_cst_35 (constant S_ .f32 0x461C4000#32),
    StableHlo.unary main_cst_35 main_v136 (broadcastInDim S1x256 ![] bcast_S_S1x256 : (⟨S_, .f32⟩ : BufTy).Contents (Elt F) → (⟨S1x256, .f32⟩ : BufTy).Contents (Elt F)),
    StableHlo.binary main_v135 main_v136 main_v137 (Host.divf : (⟨S1x256, .f32⟩ : BufTy).Contents (Elt F) → (⟨S1x256, .f32⟩ : BufTy).Contents (Elt F) → (⟨S1x256, .f32⟩ : BufTy).Contents (Elt F)) ]

set_option maxRecDepth 4096 in
/-- Window 0 is that straight line: the outlined functions' bodies unfolded at their calls, sequencing reassociated. -/
theorem part0_eq (c : Dev nD) : main_part0 (F := F) c = seq ops0 := by
  simp only [main_part0, fn_var.body, fn_where.body, fn_where_0.body, seq, bind_assoc, pure_bind] <;> rfl

set_option maxRecDepth 4096 in
theorem part1_eq (c : Dev nD) : main_part1 (F := F) c = seq ops1 := by
  simp only [main_part1, fn_where_1.body, seq, bind_assoc, pure_bind] <;> rfl

set_option maxRecDepth 4096 in
theorem part2_eq (c : Dev nD) : main_part2 (F := F) c = seq ops2 := by
  simp only [main_part2, fn_where_0.body, seq, bind_assoc, pure_bind] <;> rfl

/-- @main's operations: the three windows one after the other. -/
abbrev ops : List (HloOp τ sig (Elt F)) := ops0 ++ (ops1 ++ ops2)

theorem main_eq (c : Dev nD) : main (F := F) c = seq ops := by
  rw [show (ops : List (HloOp τ sig (Elt F))) = ops0 ++ (ops1 ++ ops2) from rfl, seq_append, seq_append,
    ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.mpr ⟨ops0_sub, List.forall_append.mpr ⟨ops1_sub, ops2_sub⟩⟩

theorem ops_fresh : ∀ op ∈ (ops : List (HloOp τ sig (Elt F))), op.fresh = ∅ :=
  List.forall_iff_forall_mem.mp (List.forall_append.mpr ⟨ops0_fresh, List.forall_append.mpr ⟨ops1_fresh, ops2_fresh⟩⟩)

/-- The fold of two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Cert.RefRun

end
-- ==== Proof.RefTerm.lean ====
/-
  The reference program's result as one pure term of its eight arguments, at the exact (extended-real) instance.
  Each definition below is the composition of the pure functions of a run of consecutive statements of the
  program, in the program's order and with the program's argument order; an outlined function is inlined.

    bn        statements %0 … %18: the column mean, the variance (mean of the centred squares over the count
              10000 − 0, selected against a NaN constant on the test count > 0), the normalised features
              (x − mean) / sqrt(var + ε) · γ + β;
    tails / heads   rows 0 and 1 of the edge array (slice, reshape);
    cat       a length-160000 index vector followed by 0 … 9999 (the self loops), length 170000;
    wrap      negative indices wrapped by +10000 (compare, add, select) and made a column [170000, 1];
    deg, dis  the scatter-add of ones at the heads into zeros, and select(deg > 0, rsqrt deg, 0);
    norm      gather(dis, tails) · gather(dis, heads);
    conv      the rows of a table gathered at the tails, times norm along the columns, scatter-added at the
              heads into zeros, plus the bias;
    leaky     select(h > 0, h, 0.1 · h);
    pool      the column sum made a row [1, 256] and divided by 10000.
-/
import proofs.«181894_g58806692217087_cont_9to1_m_85_9_alg».proof.ReferenceIdeal
import Idealize.ShloMosaic.PureOps.Ideal

noncomputable section

namespace Cert.RefTerm

open Idealize.ShloMosaic
open Cert.ReferenceIdeal Cert.ReferenceIdeal.Facts₀ Cert.ReferenceIdeal.Facts

variable [Cert.ReferenceIdeal.Facts]

/-- The float scalar constant of a word. -/
abbrev cst (b : BitVec 32) : FVec Ideal S_ .f32 := constant (F := Ideal) S_ .f32 b

/-- %0 … %2: the column mean, `(Σ_n x[n, k]) / 10000`. -/
def mean (a0 : FVec Ideal S10000x256 .f32) : FVec Ideal S256 .f32 :=
  Host.divf
    (Host.reduceAdd a0 (cst 0x00000000#32) reducesTo_S10000x256_S256_d0 h_S_)
    (broadcastInDim S256 ![] bcast_S_S256 (cst 0x461C4000#32))

/-- The centred squares inside the variance: its own column mean kept as a row, broadcast, subtracted, squared. -/
def varSq (a0 : FVec Ideal S10000x256 .f32) : FVec Ideal S10000x256 .f32 :=
  mulf
    (subf a0
      (broadcastInDim S10000x256 ![0, 1] bcast_S1x256_S10000x256_0_1
        (Host.divf
          (broadcastInDim S1x256 ![1] bcast_S256_S1x256_1
            (Host.reduceAdd a0 (cst 0x00000000#32) reducesTo_S10000x256_S256_d0 h_S_))
          (broadcastInDim S1x256 ![] bcast_S_S1x256 (cst 0x461C4000#32)))))
    (subf a0
      (broadcastInDim S10000x256 ![0, 1] bcast_S1x256_S10000x256_0_1
        (Host.divf
          (broadcastInDim S1x256 ![1] bcast_S256_S1x256_1
            (Host.reduceAdd a0 (cst 0x00000000#32) reducesTo_S10000x256_S256_d0 h_S_))
          (broadcastInDim S1x256 ![] bcast_S_S1x256 (cst 0x461C4000#32)))))

/-- The variance's divisor: `10000.0 − float(c)` for the integer scalar `c`. -/
def varCount (c : IVec S_ 32) : FVec Ideal S_ .f32 :=
  subf (cst 0x461C4000#32) (sitofp (F := Ideal) .f32 c)

/-- %3: the variance, the sum of the centred squares over the divisor, selected against the NaN constant on the
    test divisor > 0. -/
def var (a0 : FVec Ideal S10000x256 .f32) (c : IVec S_ 32) : FVec Ideal S256 .f32 :=
  select
    (broadcastInDim S256 ![] bcast_S_S256 (cmpf .ogt (varCount c) (cst 0x00000000#32)))
    (Host.divf
      (Host.reduceAdd (varSq a0) (cst 0x00000000#32) reducesTo_S10000x256_S256_d0 h_S_)
      (broadcastInDim S256 ![] bcast_S_S256 (varCount c)))
    (broadcastInDim S256 ![] bcast_S_S256 (id (cst 0x7FC00000#32)))

/-- A length-256 vector along the rows of `[10000, 256]` (through `[1, 256]`). -/
def rows (v : FVec Ideal S256 .f32) : FVec Ideal S10000x256 .f32 :=
  broadcastInDim S10000x256 ![0, 1] bcast_S1x256_S10000x256_0_1 (broadcastInDim S1x256 ![1] bcast_S256_S1x256_1 v)

/-- %4 … %18: the normalised features `(x − mean) / sqrt(var + ε) · γ + β`. -/
def bn (a0 : FVec Ideal S10000x256 .f32) (a2 a3 : FVec Ideal S256 .f32) : FVec Ideal S10000x256 .f32 :=
  addf
    (mulf
      (Host.divf
        (subf a0 (rows (mean a0)))
        (rows (Host.sqrt (addf (var a0 (constantI S_ 32 0#32))
          (broadcastInDim S256 ![] bcast_S_S256 (cst 0x3727C5AC#32))))))
      (rows a2))
    (rows a3)

/-- %19, %20: row 0 of the edge array, the tails. -/
def tails (a1 : IVec S2x160000 32) : IVec S160000 32 :=
  shapeCast S160000 (extractStridedSlice S1x160000 ![0, 0] a1 slices_S2x160000_S1x160000_0_0)
    shapeCasts_S1x160000_S160000

/-- %21, %22: row 1 of the edge array, the heads. -/
def heads (a1 : IVec S2x160000 32) : IVec S160000 32 :=
  shapeCast S160000 (extractStridedSlice S1x160000 ![1, 0] a1 slices_S2x160000_S1x160000_1_0)
    shapeCasts_S1x160000_S160000

/-- %24 … %26: an index vector followed by the self loops `0 … 9999`. -/
def cat (v : IVec S160000 32) : IVec S170000 32 :=
  concatenate (α := BitVec 32) S170000 0 [⟨S160000, v⟩, ⟨S10000, iotaInDim S10000 32 0⟩]
    concatenates_S160000_S10000_S170000_d0

/-- The wrap of negative indices (`i < 0 ? i + 10000 : i`) and the cast to a column `[170000, 1]`. -/
def wrap (c : IVec S170000 32) : IVec S170000x1 32 :=
  broadcastInDim S170000x1 ![0] bcast_S170000_S170000x1_0
    (select
      (cmpi .slt c (broadcastInDim S170000 ![] bcast_S_S170000 (constantI S_ 32 0#32)))
      (addi c (broadcastInDim S170000 ![] bcast_S_S170000 (constantI S_ 32 10000#32)))
      c)

/-- The `[170000, 1]` wrapped index column of a `[160000]` index vector. -/
def idx170 (v : IVec S160000 32) : IVec S170000x1 32 := wrap (cat v)

/-- %27 … %35: the degree, ones scatter-added at the heads into zeros. -/
def deg (hd : IVec S160000 32) : FVec Ideal S10000 .f32 :=
  Host.scatterAdd (F := Ideal) scatter_S10000_S170000x1_S170000_n_0_0_1
    (broadcastInDim S10000 ![] bcast_S_S10000 (cst 0x00000000#32))
    (idx170 hd)
    (broadcastInDim S170000 ![] bcast_S_S170000 (cst 0x3F800000#32))

/-- %36 … %39: `select(deg > 0, rsqrt deg, 0)`. -/
def dis (hd : IVec S160000 32) : FVec Ideal S10000 .f32 :=
  select
    (cmpf .ogt (deg hd) (broadcastInDim S10000 ![] bcast_S_S10000 (cst 0x00000000#32)))
    (Host.rsqrt (deg hd))
    (broadcastInDim S10000 ![] bcast_S_S10000 (id (cst 0x00000000#32)))

/-- %40 … %54: the weight of each extended edge, `dis[tail] · dis[head]`. -/
def norm (tl hd : IVec S160000 32) : FVec Ideal S170000 .f32 :=
  mulf
    (Host.gather gather_S10000_S170000x1_S170000_n_0_n_n_0_1_1 (dis hd) (idx170 tl))
    (Host.gather gather_S10000_S170000x1_S170000_n_0_n_n_0_1_1 (dis hd) (idx170 hd))

/-- %55 … %64: the rows of the table gathered at the tails, each times its edge's weight. -/
def msgs (t : FVec Ideal S10000x256 .f32) (tl hd : IVec S160000 32) : FVec Ideal S170000x256 .f32 :=
  mulf
    (Host.gather gather_S10000x256_S170000x1_S170000x256_1_0_n_n_0_1_1256 t (idx170 tl))
    (broadcastInDim S170000x256 ![0, 1] bcast_S170000x1_S170000x256_0_1
      (broadcastInDim S170000x1 ![0] bcast_S170000_S170000x1_0 (norm tl hd)))

/-- %55 … %75: one graph convolution of a table: the messages scatter-added at the heads into zeros, plus the bias. -/
def conv (t : FVec Ideal S10000x256 .f32) (b : FVec Ideal S256 .f32) (tl hd : IVec S160000 32) :
    FVec Ideal S10000x256 .f32 :=
  addf
    (Host.scatterAdd (F := Ideal) scatter_S10000x256_S170000x1_S170000x256_1_0_0_1
      (broadcastInDim S10000x256 ![] bcast_S_S10000x256 (cst 0x00000000#32))
      (idx170 hd)
      (msgs t tl hd))
    (rows b)

/-- %76 … %80: the leaky rectifier `select(h > 0, h, 0.1 · h)`. -/
def leaky (h : FVec Ideal S10000x256 .f32) : FVec Ideal S10000x256 .f32 :=
  select
    (cmpf .ogt h (broadcastInDim S10000x256 ![] bcast_S_S10000x256 (cst 0x00000000#32)))
    h
    (mulf (broadcastInDim S10000x256 ![] bcast_S_S10000x256 (cst 0x3DCCCCCD#32)) h)

/-- %23, %81: the product with a `[256, 256]` weight. -/
def dot (h : FVec Ideal S10000x256 .f32) (w : FVec Ideal S256x256 .f32) : FVec Ideal S10000x256 .f32 :=
  Host.dotGeneral (F := Ideal) dot_S10000x256_S256x256_S10000x256_1_0_0_1_n_n none h w

/-- %134 … %137: the column sum as a row, over 10000. -/
def pool (o : FVec Ideal S10000x256 .f32) : FVec Ideal S1x256 .f32 :=
  Host.divf
    (broadcastInDim S1x256 ![1] bcast_S256_S1x256_1
      (Host.reduceAdd o (cst 0x00000000#32) reducesTo_S10000x256_S256_d0 h_S_))
    (broadcastInDim S1x256 ![] bcast_S_S1x256 (cst 0x461C4000#32))

/-- THE REFERENCE'S RESULT `%137` as a function of its eight arguments. -/
def term (a0 : FVec Ideal S10000x256 .f32) (a1 : IVec S2x160000 32) (a2 a3 : FVec Ideal S256 .f32)
    (a4 : FVec Ideal S256x256 .f32) (a5 : FVec Ideal S256 .f32) (a6 : FVec Ideal S256x256 .f32)
    (a7 : FVec Ideal S256 .f32) : FVec Ideal S1x256 .f32 :=
  pool
    (conv
      (dot (leaky (conv (dot (bn a0 a2 a3) a4) a5 (tails a1) (heads a1))) a6)
      a7 (tails a1) (heads a1))

end Cert.RefTerm

end
-- ==== Proof.RefRunW0.lean ====
import proofs.«181894_g58806692217087_cont_9to1_m_85_9_alg».proof.Proof.RefRunOps
import proofs.«181894_g58806692217087_cont_9to1_m_85_9_alg».proof.Proof.RefTerm

/-
  What window 0 of the reference's operations leaves in the buffers later windows read, as the stage terms of the
  reference's result: the tails and heads, their extension by the self loops, the first matrix product over the
  normalised features, the normaliser dis and its gather at the tails, one integer constant; the arguments unchanged.
-/

noncomputable section

namespace Cert.RefRun

open Cert.ReferenceIdeal Cert.ReferenceIdeal.Gen Idealize.ShloMosaic Idealize.ShloMosaic.TcCoe Idealize.SL.Sem Idealize.ShloMosaic.StableHlo
open Cert.RefTerm

attribute [local irreducible] Host.reduceAdd Host.gather Host.scatterAdd concatenate

variable (V : Valuation τ sig (Elt Ideal))

theorem w0_v20 : after (ops0 (F := Ideal)) V (Proc.devRef (τ := τ) .tc main_v20) = tails (V (Proc.devRef (τ := τ) .tc main_arg1)) := by
  after_results_simp <;> rfl

theorem w0_v22 : after (ops0 (F := Ideal)) V (Proc.devRef (τ := τ) .tc main_v22) = heads (V (Proc.devRef (τ := τ) .tc main_arg1)) := by
  after_results_simp <;> rfl

theorem w0_v25 : after (ops0 (F := Ideal)) V (Proc.devRef (τ := τ) .tc main_v25) = cat (tails (V (Proc.devRef (τ := τ) .tc main_arg1))) := by
  after_results_simp <;> rfl

theorem w0_v26 : after (ops0 (F := Ideal)) V (Proc.devRef (τ := τ) .tc main_v26) = cat (heads (V (Proc.devRef (τ := τ) .tc main_arg1))) := by
  after_results_simp <;> rfl

theorem w0_c10 : after (ops0 (F := Ideal)) V (Proc.devRef (τ := τ) .tc main_c_10) = constantI S_ 32 0#32 := by
  after_results_simp <;> rfl

theorem w0_v23 : after (ops0 (F := Ideal)) V (Proc.devRef (τ := τ) .tc main_v23)
    = dot (bn (V (Proc.devRef (τ := τ) .tc main_arg0)) (V (Proc.devRef (τ := τ) .tc main_arg2)) (V (Proc.devRef (τ := τ) .tc main_arg3))) (V (Proc.devRef (τ := τ) .tc main_arg4)) := by
  after_results_simp <;> rfl

theorem w0_v39 : after (ops0 (F := Ideal)) V (Proc.devRef (τ := τ) .tc main_v39) = dis (heads (V (Proc.devRef (τ := τ) .tc main_arg1))) := by
  after_results_simp <;> rfl

theorem w0_v46 : after (ops0 (F := Ideal)) V (Proc.devRef (τ := τ) .tc main_v46)
    = Host.gather gather_S10000_S170000x1_S170000_n_0_n_n_0_1_1 (dis (heads (V (Proc.devRef (τ := τ) .tc main_arg1)))) (idx170 (tails (V (Proc.devRef (τ := τ) .tc main_arg1)))) := by
  after_results_simp <;> rfl

theorem w0_arg0 : after (ops0 (F := Ideal)) V (Proc.devRef (τ := τ) .tc main_arg0) = V (Proc.devRef (τ := τ) .tc main_arg0) := by
  after_results_simp

theorem w0_arg1 : after (ops0 (F := Ideal)) V (Proc.devRef (τ := τ) .tc main_arg1) = V (Proc.devRef (τ := τ) .tc main_arg1) := by
  after_results_simp

theorem w0_arg2 : after (ops0 (F := Ideal)) V (Proc.devRef (τ := τ) .tc main_arg2) = V (Proc.devRef (τ := τ) .tc main_arg2) := by
  after_results_simp

theorem w0_arg3 : after (ops0 (F := Ideal)) V (Proc.devRef (τ := τ) .tc main_arg3) = V (Proc.devRef (τ := τ) .tc main_arg3) := by
  after_results_simp

theorem w0_arg4 : after (ops0 (F := Ideal)) V (Proc.devRef (τ := τ) .tc main_arg4) = V (Proc.devRef (τ := τ) .tc main_arg4) := by
  after_results_simp

theorem w0_arg5 : after (ops0 (F := Ideal)) V (Proc.devRef (τ := τ) .tc main_arg5) = V (Proc.devRef (τ := τ) .tc main_arg5) := by
  after_results_simp

theorem w0_arg6 : after (ops0 (F := Ideal)) V (Proc.devRef (τ := τ) .tc main_arg6) = V (Proc.devRef (τ := τ) .tc main_arg6) := by
  after_results_simp

theorem w0_arg7 : after (ops0 (F := Ideal)) V (Proc.devRef (τ := τ) .tc main_arg7) = V (Proc.devRef (τ := τ) .tc main_arg7) := by
  after_results_simp

end Cert.RefRun

end
-- ==== Proof.RefRunW1.lean ====
import proofs.«181894_g58806692217087_cont_9to1_m_85_9_alg».proof.Proof.RefRunOps
import proofs.«181894_g58806692217087_cont_9to1_m_85_9_alg».proof.Proof.RefTerm

/-
  What window 1 of the reference's operations leaves in the buffers window 2 reads, given what window 0 left, as the
  stage terms of the reference's result: the second matrix product over the rectified first convolution, the extended
  tails and heads again, the degree again, one float constant; the arguments unchanged.
-/

noncomputable section

namespace Cert.RefRun

open Cert.ReferenceIdeal Cert.ReferenceIdeal.Gen Idealize.ShloMosaic Idealize.ShloMosaic.TcCoe Idealize.SL.Sem Idealize.ShloMosaic.StableHlo
open Cert.RefTerm

attribute [local irreducible] Host.reduceAdd Host.gather Host.scatterAdd concatenate

variable (W : Valuation τ sig (Elt Ideal))

theorem w1_v83 (tl : IVec S160000 32) (h20 : W (Proc.devRef (τ := τ) .tc main_v20) = tl) :
    after (ops1 (F := Ideal)) W (Proc.devRef (τ := τ) .tc main_v83) = cat tl := by
  subst h20
  after_results_simp <;> rfl

theorem w1_v84 (hd : IVec S160000 32) (h22 : W (Proc.devRef (τ := τ) .tc main_v22) = hd) :
    after (ops1 (F := Ideal)) W (Proc.devRef (τ := τ) .tc main_v84) = cat hd := by
  subst h22
  after_results_simp <;> rfl

theorem w1_v93 (hd : IVec S160000 32) (h22 : W (Proc.devRef (τ := τ) .tc main_v22) = hd) :
    after (ops1 (F := Ideal)) W (Proc.devRef (τ := τ) .tc main_v93) = deg hd := by
  subst h22
  after_results_simp <;> rfl

theorem w1_c23 : after (ops1 (F := Ideal)) W (Proc.devRef (τ := τ) .tc main_cst_23) = cst 0x00000000#32 := by
  after_results_simp <;> rfl

theorem w1_v81 (t : FVec Ideal S10000x256 .f32) (a1 : IVec S2x160000 32) (a5 : FVec Ideal S256 .f32) (a6 : FVec Ideal S256x256 .f32)
    (h23 : W (Proc.devRef (τ := τ) .tc main_v23) = t) (h25 : W (Proc.devRef (τ := τ) .tc main_v25) = cat (tails a1)) (h26 : W (Proc.devRef (τ := τ) .tc main_v26) = cat (heads a1))
    (h39 : W (Proc.devRef (τ := τ) .tc main_v39) = dis (heads a1))
    (h46 : W (Proc.devRef (τ := τ) .tc main_v46) = Host.gather gather_S10000_S170000x1_S170000_n_0_n_n_0_1_1 (dis (heads a1)) (idx170 (tails a1)))
    (hc : W (Proc.devRef (τ := τ) .tc main_c_10) = constantI S_ 32 0#32) (h5 : W (Proc.devRef (τ := τ) .tc main_arg5) = a5) (h6 : W (Proc.devRef (τ := τ) .tc main_arg6) = a6) :
    after (ops1 (F := Ideal)) W (Proc.devRef (τ := τ) .tc main_v81) = dot (leaky (conv t a5 (tails a1) (heads a1))) a6 := by
  after_results_simp
  simp only [h23, h25, h26, h39, h46, hc, h5, h6] <;> rfl

theorem w1_arg0 : after (ops1 (F := Ideal)) W (Proc.devRef (τ := τ) .tc main_arg0) = W (Proc.devRef (τ := τ) .tc main_arg0) := by
  after_results_simp

theorem w1_arg1 : after (ops1 (F := Ideal)) W (Proc.devRef (τ := τ) .tc main_arg1) = W (Proc.devRef (τ := τ) .tc main_arg1) := by
  after_results_simp

theorem w1_arg2 : after (ops1 (F := Ideal)) W (Proc.devRef (τ := τ) .tc main_arg2) = W (Proc.devRef (τ := τ) .tc main_arg2) := by
  after_results_simp

theorem w1_arg3 : after (ops1 (F := Ideal)) W (Proc.devRef (τ := τ) .tc main_arg3) = W (Proc.devRef (τ := τ) .tc main_arg3) := by
  after_results_simp

theorem w1_arg4 : after (ops1 (F := Ideal)) W (Proc.devRef (τ := τ) .tc main_arg4) = W (Proc.devRef (τ := τ) .tc main_arg4) := by
  after_results_simp

theorem w1_arg5 : after (ops1 (F := Ideal)) W (Proc.devRef (τ := τ) .tc main_arg5) = W (Proc.devRef (τ := τ) .tc main_arg5) := by
  after_results_simp

theorem w1_arg6 : after (ops1 (F := Ideal)) W (Proc.devRef (τ := τ) .tc main_arg6) = W (Proc.devRef (τ := τ) .tc main_arg6) := by
  after_results_simp

theorem w1_arg7 : after (ops1 (F := Ideal)) W (Proc.devRef (τ := τ) .tc main_arg7) = W (Proc.devRef (τ := τ) .tc main_arg7) := by
  after_results_simp

end Cert.RefRun

end
-- ==== Proof.RefRunW2.lean ====
import proofs.«181894_g58806692217087_cont_9to1_m_85_9_alg».proof.Proof.RefRunOps
import proofs.«181894_g58806692217087_cont_9to1_m_85_9_alg».proof.Proof.RefTerm

/-
  What window 2 of the reference's operations leaves in the result buffer, given what window 1 left: the pooled second
  convolution; the arguments unchanged.
-/

noncomputable section

namespace Cert.RefRun

open Cert.ReferenceIdeal Cert.ReferenceIdeal.Gen Idealize.ShloMosaic Idealize.ShloMosaic.TcCoe Idealize.SL.Sem Idealize.ShloMosaic.StableHlo
open Cert.RefTerm

attribute [local irreducible] Host.reduceAdd Host.gather Host.scatterAdd concatenate

variable (W : Valuation τ sig (Elt Ideal))

theorem w2_v137 (t : FVec Ideal S10000x256 .f32) (a1 : IVec S2x160000 32) (a7 : FVec Ideal S256 .f32)
    (h81 : W (Proc.devRef (τ := τ) .tc main_v81) = t) (h83 : W (Proc.devRef (τ := τ) .tc main_v83) = cat (tails a1)) (h84 : W (Proc.devRef (τ := τ) .tc main_v84) = cat (heads a1))
    (h93 : W (Proc.devRef (τ := τ) .tc main_v93) = deg (heads a1)) (hc : W (Proc.devRef (τ := τ) .tc main_cst_23) = cst 0x00000000#32) (h7 : W (Proc.devRef (τ := τ) .tc main_arg7) = a7) :
    after (ops2 (F := Ideal)) W (Proc.devRef (τ := τ) .tc main_v137) = pool (conv t a7 (tails a1) (heads a1)) := by
  after_results_simp
  simp only [h81, h83, h84, h93, hc, h7] <;> rfl

theorem w2_arg0 : after (ops2 (F := Ideal)) W (Proc.devRef (τ := τ) .tc main_arg0) = W (Proc.devRef (τ := τ) .tc main_arg0) := by
  after_results_simp

theorem w2_arg1 : after (ops2 (F := Ideal)) W (Proc.devRef (τ := τ) .tc main_arg1) = W (Proc.devRef (τ := τ) .tc main_arg1) := by
  after_results_simp

theorem w2_arg2 : after (ops2 (F := Ideal)) W (Proc.devRef (τ := τ) .tc main_arg2) = W (Proc.devRef (τ := τ) .tc main_arg2) := by
  after_results_simp

theorem w2_arg3 : after (ops2 (F := Ideal)) W (Proc.devRef (τ := τ) .tc main_arg3) = W (Proc.devRef (τ := τ) .tc main_arg3) := by
  after_results_simp

theorem w2_arg4 : after (ops2 (F := Ideal)) W (Proc.devRef (τ := τ) .tc main_arg4) = W (Proc.devRef (τ := τ) .tc main_arg4) := by
  after_results_simp

theorem w2_arg5 : after (ops2 (F := Ideal)) W (Proc.devRef (τ := τ) .tc main_arg5) = W (Proc.devRef (τ := τ) .tc main_arg5) := by
  after_results_simp

theorem w2_arg6 : after (ops2 (F := Ideal)) W (Proc.devRef (τ := τ) .tc main_arg6) = W (Proc.devRef (τ := τ) .tc main_arg6) := by
  after_results_simp

theorem w2_arg7 : after (ops2 (F := Ideal)) W (Proc.devRef (τ := τ) .tc main_arg7) = W (Proc.devRef (τ := τ) .tc main_arg7) := by
  after_results_simp

end Cert.RefRun

end
-- ==== Proof.RefRun.lean ====
import proofs.«181894_g58806692217087_cont_9to1_m_85_9_alg».proof.Proof.RefRunW0
import proofs.«181894_g58806692217087_cont_9to1_m_85_9_alg».proof.Proof.RefRunW1
import proofs.«181894_g58806692217087_cont_9to1_m_85_9_alg».proof.Proof.RefRunW2
import proofs.«181894_g58806692217087_cont_9to1_m_85_9_alg».proof.Proof.Gen.Pre_finite_inputs
import proofs.«181894_g58806692217087_cont_9to1_m_85_9_alg».proof.Defs

/-
  The reference program's run: from any memory with zero counters every weakly fair execution of its @main
  terminates with the result buffer at the reference's result term of the arguments' launch contents and the
  arguments unchanged. The fold of the operations over the launch contents is read window by window: what each window
  leaves in the buffers the next reads, as the stages of the result term.
-/

noncomputable section

namespace Cert.RefRun

open Cert.ReferenceIdeal Cert.ReferenceIdeal.Gen Idealize.ShloMosaic Idealize.ShloMosaic.TcCoe Idealize.SL.Sem Idealize.ShloMosaic.StableHlo
open Cert.RefTerm

/-- The fold of all the operations at the result buffer is the reference's result term of the arguments' contents. -/
theorem val_eq (V : Valuation τ sig (Elt Ideal)) :
    after (ops (F := Ideal)) V (Proc.devRef (τ := τ) .tc main_v137)
      = Cert.RefTerm.term (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
  show after (ops0 ++ (ops1 ++ ops2)) V _ = _
  rw [after_app, after_app]
  exact w2_v137 (after ops1 (after ops0 V)) _ (V (Proc.devRef (τ := τ) .tc main_arg1)) (V (Proc.devRef (τ := τ) .tc main_arg7))
    (w1_v81 (after ops0 V) _ (V (Proc.devRef (τ := τ) .tc main_arg1)) (V (Proc.devRef (τ := τ) .tc main_arg5)) (V (Proc.devRef (τ := τ) .tc main_arg6)) (w0_v23 V) (w0_v25 V) (w0_v26 V) (w0_v39 V) (w0_v46 V) (w0_c10 V) (w0_arg5 V) (w0_arg6 V))
    (w1_v83 (after ops0 V) _ (w0_v20 V)) (w1_v84 (after ops0 V) _ (w0_v22 V)) (w1_v93 (after ops0 V) _ (w0_v22 V))
    (w1_c23 (after ops0 V)) ((w1_arg7 (after ops0 V)).trans (w0_arg7 V))

theorem arg0_eq (V : Valuation τ sig (Elt Ideal)) : after (ops (F := Ideal)) V (Proc.devRef (τ := τ) .tc main_arg0) = V (Proc.devRef (τ := τ) .tc main_arg0) := by
  show after (ops0 ++ (ops1 ++ ops2)) V _ = _
  rw [after_app, after_app, w2_arg0, w1_arg0, w0_arg0]

theorem arg1_eq (V : Valuation τ sig (Elt Ideal)) : after (ops (F := Ideal)) V (Proc.devRef (τ := τ) .tc main_arg1) = V (Proc.devRef (τ := τ) .tc main_arg1) := by
  show after (ops0 ++ (ops1 ++ ops2)) V _ = _
  rw [after_app, after_app, w2_arg1, w1_arg1, w0_arg1]

theorem arg2_eq (V : Valuation τ sig (Elt Ideal)) : after (ops (F := Ideal)) V (Proc.devRef (τ := τ) .tc main_arg2) = V (Proc.devRef (τ := τ) .tc main_arg2) := by
  show after (ops0 ++ (ops1 ++ ops2)) V _ = _
  rw [after_app, after_app, w2_arg2, w1_arg2, w0_arg2]

theorem arg3_eq (V : Valuation τ sig (Elt Ideal)) : after (ops (F := Ideal)) V (Proc.devRef (τ := τ) .tc main_arg3) = V (Proc.devRef (τ := τ) .tc main_arg3) := by
  show after (ops0 ++ (ops1 ++ ops2)) V _ = _
  rw [after_app, after_app, w2_arg3, w1_arg3, w0_arg3]

theorem arg4_eq (V : Valuation τ sig (Elt Ideal)) : after (ops (F := Ideal)) V (Proc.devRef (τ := τ) .tc main_arg4) = V (Proc.devRef (τ := τ) .tc main_arg4) := by
  show after (ops0 ++ (ops1 ++ ops2)) V _ = _
  rw [after_app, after_app, w2_arg4, w1_arg4, w0_arg4]

theorem arg5_eq (V : Valuation τ sig (Elt Ideal)) : after (ops (F := Ideal)) V (Proc.devRef (τ := τ) .tc main_arg5) = V (Proc.devRef (τ := τ) .tc main_arg5) := by
  show after (ops0 ++ (ops1 ++ ops2)) V _ = _
  rw [after_app, after_app, w2_arg5, w1_arg5, w0_arg5]

theorem arg6_eq (V : Valuation τ sig (Elt Ideal)) : after (ops (F := Ideal)) V (Proc.devRef (τ := τ) .tc main_arg6) = V (Proc.devRef (τ := τ) .tc main_arg6) := by
  show after (ops0 ++ (ops1 ++ ops2)) V _ = _
  rw [after_app, after_app, w2_arg6, w1_arg6, w0_arg6]

theorem arg7_eq (V : Valuation τ sig (Elt Ideal)) : after (ops (F := Ideal)) V (Proc.devRef (τ := τ) .tc main_arg7) = V (Proc.devRef (τ := τ) .tc main_arg7) := by
  show after (ops0 ++ (ops1 ++ ops2)) V _ = _
  rw [after_app, after_app, w2_arg7, w1_arg7, w0_arg7]

/-- On every device, from any memory with zero counters: every weakly fair execution of the reference's @main
    terminates with the result at the reference's result term of the arguments' launch contents and the arguments
    unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v137) = Cert.RefTerm.term (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono (fun _ h c => ⟨(h c main_v137).trans (val_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq (Cert.ReferenceIdeal.defs (F := Ideal)) (Cert.ReferenceIdeal.main (F := Ideal)) (fun _ => ops) main_eq (fun _ => ops_sub) m ρ (fun _ => ops_fresh))

/-- The reference's frame: it runs and its arguments end unchanged. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (run m ρ)

end Cert.RefRun

end
-- ==== Proof.RefValueBasics.lean ====
/-
  The layout and reduction operations the reference uses, read at an index given by coordinates: a scalar broadcast,
  a vector laid along the rows of a matrix, a vector made a column, a column laid along the columns of a matrix,
  the column sum of a matrix, and the product of a matrix with a square weight.  All extents are literal.
-/
import proofs.«181894_g58806692217087_cont_9to1_m_85_9_alg».proof.Proof.RefTerm
import proofs.«181894_g58806692217087_cont_9to1_m_85_9_alg».proof.Proof.LibColumnSum
import Idealize.ShloMosaic.Lib.IdealHost
import Idealize.ShloMosaic.Lib.Pipeline.Value
import Idealize.ShloMosaic.Lib.StackMember

noncomputable section

open scoped BigOperators

namespace Cert.RefValue

open Idealize.ShloMosaic Idealize.ShloMosaic.ValueIdx
open Cert.ReferenceIdeal Cert.ReferenceIdeal.Facts₀ Cert.ReferenceIdeal.Facts

variable [Cert.ReferenceIdeal.Facts]

/-- The scalar constant of a word reads the extended real the word denotes. -/
theorem cst_apply (b : BitVec 32) (i : S_.Idx) : Cert.RefTerm.cst b i = Ideal.ofBits .f32 b := rfl

/-- A scalar broadcast to any shape reads the scalar. -/
theorem bscalar_apply {T : Shape} {α : Type} (h : S_.BroadcastsInDim T (![] : Fin 0 → Fin T.rank)) (x : S_.Idx → α)
    (j : T.Idx) : broadcastInDim T ![] h x j = x ix0 :=
  broadcastInDim_scalar_apply h x j

/-- A length-256 vector made a row `[1, 256]`, read at `(0, k)`. -/
theorem row_apply {α : Type} (v : S256.Idx → α) (k : Fin 256) :
    broadcastInDim S1x256 ![1] bcast_S256_S1x256_1 v (ix2 (0 : Fin 1) k) = v (ix1 k) :=
  broadcastInDim_apply _ _ v _ (ix1 k) (fun a => match a with | ⟨0, _⟩ => rfl)

/-- A row `[1, 256]` laid along the 10000 rows, read at `(n, k)`. -/
theorem down_apply {α : Type} (y : S1x256.Idx → α) (n : Fin 10000) (k : Fin 256) :
    broadcastInDim S10000x256 ![0, 1] bcast_S1x256_S10000x256_0_1 y (ix2 n k) = y (ix2 (0 : Fin 1) k) :=
  broadcastInDim_apply _ _ y _ (ix2 (0 : Fin 1) k) (fun a => match a with | ⟨0, _⟩ => rfl | ⟨1, _⟩ => rfl)

/-- A length-256 vector along the rows of `[10000, 256]`, read at `(n, k)`. -/
theorem rows_apply (v : FVec Ideal S256 .f32) (n : Fin 10000) (k : Fin 256) :
    Cert.RefTerm.rows v (ix2 n k) = v (ix1 k) := by
  unfold Cert.RefTerm.rows
  rw [down_apply, row_apply]

/-- A length-170000 vector made a column `[170000, 1]`, read at `(e, 0)`. -/
theorem col_apply {α : Type} (v : S170000.Idx → α) (e : Fin 170000) :
    broadcastInDim S170000x1 ![0] bcast_S170000_S170000x1_0 v (ix2 e (0 : Fin 1)) = v (ix1 e) :=
  broadcastInDim_apply _ _ v _ (ix1 e) (fun a => match a with | ⟨0, _⟩ => rfl)

/-- A column `[170000, 1]` laid along the 256 columns, read at `(e, c)`. -/
theorem across_apply {α : Type} (y : S170000x1.Idx → α) (e : Fin 170000) (c : Fin 256) :
    broadcastInDim S170000x256 ![0, 1] bcast_S170000x1_S170000x256_0_1 y (ix2 e c) = y (ix2 e (0 : Fin 1)) :=
  broadcastInDim_apply _ _ y _ (ix2 e (0 : Fin 1)) (fun a => match a with | ⟨0, _⟩ => rfl | ⟨1, _⟩ => rfl)

/-- The column sum of a `[10000, 256]` matrix from a scalar initial value, read at column `k`. -/
theorem colsum_apply (x : FVec Ideal S10000x256 .f32) (init : FVec Ideal S_ .f32) (k : Fin 256) :
    Host.reduceAdd x init reducesTo_S10000x256_S256_d0 h_S_ (ix1 k)
      = init (Shape.Idx.first h_S_) + ∑ n : Fin 10000, x (ix2 n k) := by
  have h : S10000x256.Reduces [0] S256 := by decide
  refine (Ideal.hostReduceAdd_single reducesTo_S10000x256_S256_d0 h x _ (ix1 k)).trans ?_
  exact congrArg (_ + ·) (Finset.sum_congr rfl fun n _ => congrArg x (Cert.LibColumnSum.lift_col h k n))

/-- The same from the zero word: the plain sum of the column. -/
theorem colsum0_apply (x : FVec Ideal S10000x256 .f32) (k : Fin 256) :
    Host.reduceAdd x (Cert.RefTerm.cst 0x00000000#32) reducesTo_S10000x256_S256_d0 h_S_ (ix1 k)
      = ∑ n : Fin 10000, x (ix2 n k) := by
  rw [colsum_apply, cst_apply, Ideal.ofBits_zero_f32, zero_add]

/-- The product with a `[256, 256]` weight, read at `(n, j)`: the sum over the contracted coordinate of the products. -/
theorem dot_apply (h : FVec Ideal S10000x256 .f32) (w : FVec Ideal S256x256 .f32) (n : Fin 10000) (j : Fin 256) :
    Cert.RefTerm.dot h w (ix2 n j) = ∑ k : Fin 256, h (ix2 n k) * w (ix2 k j) :=
  Idealize.ShloMosaic.StackMember.dotGeneral_plain_apply (m := 10000) (n := 256) (k := 256) none h w n j

end Cert.RefValue

end
-- ==== Proof.RefValueBn.lean ====
/-
  The batch normalisation of the reference read at an index: the column mean, the centred squares, the variance
  (whose divisor 10000 − 0 is 10000 and whose guard 10000 − 0 > 0 holds, so the NaN branch is not taken) and the
  normalised features are the specification's `mean`, `xm · xm`, `var` and `hR` of the plain-indexed arguments.
-/
import proofs.«181894_g58806692217087_cont_9to1_m_85_9_alg».proof.Proof.RefValueBasics
import proofs.«181894_g58806692217087_cont_9to1_m_85_9_alg».proof.Proof.Spec

noncomputable section

open scoped BigOperators

namespace Cert.RefValue

open Idealize.ShloMosaic Idealize.ShloMosaic.ValueIdx
open Cert.ReferenceIdeal Cert.ReferenceIdeal.Facts₀ Cert.ReferenceIdeal.Facts

variable [Cert.ReferenceIdeal.Facts]

/-- The word `0x461C4000` reads as `10000`. -/
theorem c10000_coe : Cert.GcnSpec.c10000 = ((10000 : ℝ) : EReal) := by
  unfold Cert.GcnSpec.c10000
  simp [Ideal.ofBits, Ideal.ieee, -EReal.coe_mul]; norm_num

/-- It is positive. -/
theorem c10000_pos : (0 : EReal) < Cert.GcnSpec.c10000 := by
  rw [c10000_coe]; exact_mod_cast (by norm_num : (0 : ℝ) < 10000)

/-- The host's square root at an index is the exact square root of the element. -/
theorem hostSqrt_apply {s : Shape} (x : FVec Ideal s .f32) (i : s.Idx) : Host.sqrt x i = Ideal.sqrt (x i) := rfl

/-- The host's reciprocal square root at an index is the exact one of the element. -/
theorem hostRsqrt_apply {s : Shape} (x : FVec Ideal s .f32) (i : s.Idx) : Host.rsqrt x i = Ideal.rsqrt (x i) := rfl

section
variable (a0 : FVec Ideal S10000x256 .f32) (a2 a3 : FVec Ideal S256 .f32)

/-- The column mean. -/
theorem mean_apply (k : Fin 256) :
    Cert.RefTerm.mean a0 (ix1 k) = Cert.GcnSpec.mean (fun n k => a0 (ix2 n k)) k := by
  unfold Cert.RefTerm.mean
  rw [hostDivf_apply, colsum0_apply, bscalar_apply, cst_apply]
  rfl

/-- The centred square inside the variance. -/
theorem varSq_apply (n : Fin 10000) (k : Fin 256) :
    Cert.RefTerm.varSq a0 (ix2 n k)
      = Cert.GcnSpec.xm (fun n k => a0 (ix2 n k)) n k * Cert.GcnSpec.xm (fun n k => a0 (ix2 n k)) n k := by
  unfold Cert.RefTerm.varSq
  rw [mulf_apply, subf_apply, down_apply, hostDivf_apply, row_apply, colsum0_apply, bscalar_apply, cst_apply]
  rfl

/-- The variance's divisor `10000 − float(0)` is `10000`. -/
theorem varCount_apply (i : S_.Idx) : Cert.RefTerm.varCount (constantI S_ 32 0#32) i = Cert.GcnSpec.c10000 := by
  unfold Cert.RefTerm.varCount
  rw [subf_apply, cst_apply]
  show Ideal.ofBits .f32 0x461C4000#32 - (((0#32 : BitVec 32).toInt : ℝ) : EReal) = Cert.GcnSpec.c10000
  have h0 : ((0#32 : BitVec 32).toInt) = 0 := by decide
  rw [h0, Int.cast_zero, EReal.coe_zero, sub_zero]
  rfl

/-- The variance: the guard holds, so it is the mean of the centred squares. -/
theorem var_apply (k : Fin 256) :
    Cert.RefTerm.var a0 (constantI S_ 32 0#32) (ix1 k) = Cert.GcnSpec.var (fun n k => a0 (ix2 n k)) k := by
  unfold Cert.RefTerm.var
  rw [select_apply, bscalar_apply, cmpf_apply, varCount_apply, cst_apply, Ideal.ofBits_zero_f32]
  have hc : FloatOps.cmpf (F := Ideal) (φ := .f32) .ogt Cert.GcnSpec.c10000 0 = 1#1 := by
    show BitVec.ofBool (decide ((0 : EReal) < Cert.GcnSpec.c10000)) = 1#1
    rw [decide_eq_true c10000_pos]; rfl
  rw [hc, select_one, hostDivf_apply, colsum0_apply, bscalar_apply, varCount_apply]
  unfold Cert.GcnSpec.var
  exact congrArg (fun s => Ideal.div s Cert.GcnSpec.c10000) (Finset.sum_congr rfl fun n _ => varSq_apply a0 n k)

/-- The normalised features. -/
theorem bn_apply (n : Fin 10000) (k : Fin 256) :
    Cert.RefTerm.bn a0 a2 a3 (ix2 n k)
      = Cert.GcnSpec.hR (fun n k => a0 (ix2 n k)) (fun k => a2 (ix1 k)) (fun k => a3 (ix1 k)) n k := by
  unfold Cert.RefTerm.bn
  rw [addf_apply, mulf_apply, hostDivf_apply, subf_apply]
  simp only [rows_apply]
  rw [mean_apply, hostSqrt_apply, addf_apply, var_apply, bscalar_apply, cst_apply]
  rfl

end

end Cert.RefValue

end
-- ==== Proof.RefValueIdx.lean ====
/-
  The index vectors of the reference read at an index.  The tails and heads are rows 0 and 1 of the edge array; an
  index vector followed by the self loops reads the vector below 160000 and the node number from there on; the wrap of
  negative indices is the identity on a word that is not negative.  So, when every word of the vector lies in
  [0, 10000), the word at extended edge e' of the wrapped column lies in [0, 10000) and names the node `ext f e'`,
  where `f e` is the node the vector's word e names.
-/
import proofs.«181894_g58806692217087_cont_9to1_m_85_9_alg».proof.Proof.RefValueBasics
import proofs.«181894_g58806692217087_cont_9to1_m_85_9_alg».proof.Proof.RefNode
import proofs.«181894_g58806692217087_cont_9to1_m_85_9_alg».proof.Proof.Spec

noncomputable section

namespace Cert.RefValue

open Idealize.ShloMosaic Idealize.ShloMosaic.ValueIdx
open Cert.ReferenceIdeal Cert.ReferenceIdeal.Facts₀ Cert.ReferenceIdeal.Facts

variable [Cert.ReferenceIdeal.Facts]

/-- The tails are row 0 of the edge array. -/
theorem tails_apply (a1 : IVec S2x160000 32) (e : Fin 160000) :
    Cert.RefTerm.tails a1 (ix1 e) = a1 (ix2 (0 : Fin 2) e) := by
  unfold Cert.RefTerm.tails
  rw [shapeCast_apply _ _ (ix1 e) (ix2 (0 : Fin 1) e)
    (by rw [Shape.rowMajor_val_one, Shape.rowMajor_val_two]; show 0 * 160000 + e.val = e.val; omega)]
  exact extractStridedSlice_apply _ a1 _ _ (ix2 (0 : Fin 2) e)
    (fun a => match a with | ⟨0, _⟩ => rfl | ⟨1, _⟩ => (Nat.zero_add _).symm)

/-- The heads are row 1 of the edge array. -/
theorem heads_apply (a1 : IVec S2x160000 32) (e : Fin 160000) :
    Cert.RefTerm.heads a1 (ix1 e) = a1 (ix2 (1 : Fin 2) e) := by
  unfold Cert.RefTerm.heads
  rw [shapeCast_apply _ _ (ix1 e) (ix2 (0 : Fin 1) e)
    (by rw [Shape.rowMajor_val_one, Shape.rowMajor_val_two]; show 0 * 160000 + e.val = e.val; omega)]
  exact extractStridedSlice_apply _ a1 _ _ (ix2 (1 : Fin 2) e)
    (fun a => match a with | ⟨0, _⟩ => rfl | ⟨1, _⟩ => (Nat.zero_add _).symm)

/-- Below 160000 the extended vector reads the given vector. -/
theorem cat_apply_lt (v : IVec S160000 32) (e' : Fin 170000) (h : e'.val < 160000) :
    Cert.RefTerm.cat v (ix1 e') = v (ix1 ⟨e'.val, h⟩) := by
  unfold Cert.RefTerm.cat
  exact concatenate_pair_apply_left (0 : Fin S170000.rank) v (iotaInDim S10000 32 0)
    concatenates_S160000_S10000_S170000_d0 (ix1 e') rfl (ix1 ⟨e'.val, h⟩)
    (fun b => match b with | ⟨0, _⟩ => rfl)

/-- From 160000 on it reads the node number `e' − 160000`. -/
theorem cat_apply_ge (v : IVec S160000 32) (e' : Fin 170000) (h : ¬ e'.val < 160000) :
    Cert.RefTerm.cat v (ix1 e') = BitVec.ofNat 32 (e'.val - 160000) := by
  unfold Cert.RefTerm.cat
  have hlt : e'.val - 160000 < 10000 := by have := e'.isLt; omega
  exact concatenate_pair_apply_right (0 : Fin S170000.rank) v (iotaInDim S10000 32 0)
    concatenates_S160000_S10000_S170000_d0 (ix1 e') rfl rfl (ix1 ⟨e'.val - 160000, hlt⟩)
    (fun b hb => absurd (Fin.ext (by have hb1 : b.val < 1 := b.isLt; show b.val = 0; omega)) hb)
    (by show e'.val - 160000 + 160000 = e'.val; omega)

/-- The wrapped column at `(e', 0)`: the word, plus 10000 when it is negative. -/
theorem wrap_apply (c : IVec S170000 32) (e' : Fin 170000) :
    Cert.RefTerm.wrap c (ix2 e' (0 : Fin 1))
      = Scalar.select (IntOp.cmpi .slt (c (ix1 e')) 0#32) (IntOp.addi (c (ix1 e')) 10000#32) (c (ix1 e')) := by
  unfold Cert.RefTerm.wrap
  rw [col_apply, select_apply]
  show Scalar.select (IntOp.cmpi .slt (c (ix1 e')) (broadcastInDim S170000 ![] bcast_S_S170000 (constantI S_ 32 0#32) (ix1 e')))
      (IntOp.addi (c (ix1 e')) (broadcastInDim S170000 ![] bcast_S_S170000 (constantI S_ 32 10000#32) (ix1 e'))) (c (ix1 e')) = _
  rw [bscalar_apply, bscalar_apply]
  rfl

/-- On a word that is not negative the wrap is the identity. -/
theorem wrap_word_of_nonneg (w : BitVec 32) (h : 0 ≤ w.toInt) :
    Scalar.select (IntOp.cmpi .slt w 0#32) (IntOp.addi w 10000#32) w = w := by
  have hs : w.slt 0#32 = false := by
    rw [BitVec.slt_eq_decide]
    have : (0#32 : BitVec 32).toInt = 0 := by decide
    rw [this]; exact decide_eq_false (by omega)
  show Scalar.select (BitVec.ofBool (w.slt 0#32)) _ _ = w
  rw [hs]
  exact select_zero _ _

/-- The word of the wrapped column at extended edge `e'`. -/
def word (v : IVec S160000 32) (e' : Fin 170000) : BitVec 32 := Cert.RefTerm.idx170 v (ix2 e' (0 : Fin 1))

/-- A node number as a 32-bit word reads back as itself. -/
theorem toInt_ofNat_node (i : Nat) (h : i < 10000) : (BitVec.ofNat 32 i).toInt = (i : ℤ) := by
  have hn : (BitVec.ofNat 32 i).toNat = i := by
    rw [BitVec.toNat_ofNat]; exact Nat.mod_eq_of_lt (by omega)
  rw [BitVec.toInt_eq_toNat_of_lt (by rw [hn]; omega), hn]

/-- THE EXTENDED INDEX: with every word of `v` in `[0, 10000)`, the word at `e'` is in range and names the node
    `ext f e'` of the specification, `f e` the node the word `e` of `v` names. -/
theorem word_spec (v : IVec S160000 32) (hv : ∀ e : Fin 160000, 0 ≤ (v (ix1 e)).toInt ∧ (v (ix1 e)).toInt < 10000)
    (e' : Fin 170000) :
    (0 ≤ (word v e').toInt ∧ (word v e').toInt < 10000)
      ∧ node (word v e') = Cert.GcnSpec.ext (fun e => node (v (ix1 e))) e' := by
  unfold word Cert.RefTerm.idx170
  rw [wrap_apply]
  by_cases h : e'.val < 160000
  · rw [cat_apply_lt v e' h, wrap_word_of_nonneg _ (hv _).1]
    refine ⟨hv _, ?_⟩
    unfold Cert.GcnSpec.ext
    rw [dif_pos h]
  · have hlt : e'.val - 160000 < 10000 := by have := e'.isLt; omega
    have ht := toInt_ofNat_node _ hlt
    rw [cat_apply_ge v e' h, wrap_word_of_nonneg _ (by rw [ht]; omega)]
    refine ⟨⟨by rw [ht]; omega, by rw [ht]; omega⟩, ?_⟩
    unfold Cert.GcnSpec.ext
    rw [dif_neg h]
    apply Fin.ext
    have := node_val_of_range (w := BitVec.ofNat 32 (e'.val - 160000)) ⟨by rw [ht]; omega, by rw [ht]; omega⟩
    rw [ht] at this
    exact_mod_cast this

end Cert.RefValue

end
-- ==== Proof.RefValueDis.lean ====
/-
  The degree, the normaliser and the edge weights of the reference read at an index.  With every index word in
  [0, 10000): the scatter-add of ones at the heads into zeros is the number of extended edges into a node (the
  specification's `degR`), the select against zero is `disR`, and the product of the two gathers is `normR`.
-/
import proofs.«181894_g58806692217087_cont_9to1_m_85_9_alg».proof.Proof.RefValueIdx
import proofs.«181894_g58806692217087_cont_9to1_m_85_9_alg».proof.Proof.LibGatherScatter

noncomputable section

open scoped BigOperators

namespace Cert.RefValue

open Idealize.ShloMosaic Idealize.ShloMosaic.ValueIdx
open Cert.ReferenceIdeal Cert.ReferenceIdeal.Facts₀ Cert.ReferenceIdeal.Facts

variable [Cert.ReferenceIdeal.Facts]

/-- A vector of index words all in `[0, 10000)`. -/
def InRange (v : IVec S160000 32) : Prop := ∀ e : Fin 160000, 0 ≤ (v (ix1 e)).toInt ∧ (v (ix1 e)).toInt < 10000

/-- The host's reciprocal square root at an index is the exact one of the element. -/
theorem rsqrt_apply {s : Shape} (x : FVec Ideal s .f32) (i : s.Idx) : Host.rsqrt x i = Ideal.rsqrt (x i) := rfl

/-- A select on "x > 0" is the `if`. -/
theorem select_ogt_zero (x a b : EReal) :
    Scalar.select (FloatOps.cmpf (F := Ideal) (φ := .f32) .ogt x 0) a b = if 0 < x then a else b := by
  have hc : FloatOps.cmpf (F := Ideal) (φ := .f32) .ogt x 0 = BitVec.ofBool (decide ((0 : EReal) < x)) := rfl
  rw [hc]
  by_cases h : (0 : EReal) < x
  · rw [if_pos h, decide_eq_true h]; exact select_one _ _
  · rw [if_neg h, decide_eq_false h]; exact select_zero _ _

section
variable (tl hd : IVec S160000 32) (s d : Fin 160000 → Fin 10000)

/-- The degree: the number of extended edges into node `n`, as a sum of ones. -/
theorem deg_apply (hhd : InRange hd) (hd' : ∀ e, node (hd (ix1 e)) = d e) (n : Fin 10000) :
    Cert.RefTerm.deg hd (ix1 n) = Cert.GcnSpec.degR d n := by
  obtain rfl : (fun e => node (hd (ix1 e))) = d := funext hd'
  unfold Cert.RefTerm.deg
  refine (GatherScatterIdx.scatterAdd_row_apply scatter_S10000_S170000x1_S170000_n_0_0_1_wf _ _ _ (ix1 n)).trans ?_
  rw [bscalar_apply, cst_apply, Ideal.ofBits_zero_f32, zero_add]
  unfold Cert.GcnSpec.degR
  refine Finset.sum_congr rfl fun e' _ => ?_
  obtain ⟨hr, hn⟩ := word_spec hd hhd e'
  refine if_congr ((toInt_eq_iff_node_eq hr n).trans (by rw [hn])) ?_ rfl
  rw [bscalar_apply, cst_apply]
  rfl

/-- The normaliser: `deg^(-1/2)` where the degree is positive, else zero. -/
theorem dis_apply (hhd : InRange hd) (hd' : ∀ e, node (hd (ix1 e)) = d e) (n : Fin 10000) :
    Cert.RefTerm.dis hd (ix1 n) = Cert.GcnSpec.disR d n := by
  unfold Cert.RefTerm.dis
  rw [select_apply, cmpf_apply, bscalar_apply, bscalar_apply]
  simp only [id_eq]
  rw [cst_apply, Ideal.ofBits_zero_f32, rsqrt_apply, deg_apply hd d hhd hd' n, select_ogt_zero]
  rfl

/-- The weight of an extended edge: the normaliser at its tail times the normaliser at its head. -/
theorem norm_apply (htl : InRange tl) (hhd : InRange hd) (hs' : ∀ e, node (tl (ix1 e)) = s e)
    (hd' : ∀ e, node (hd (ix1 e)) = d e) (e' : Fin 170000) :
    Cert.RefTerm.norm tl hd (ix1 e') = Cert.GcnSpec.normR s d e' := by
  have gt : Host.gather gather_S10000_S170000x1_S170000_n_0_n_n_0_1_1 (Cert.RefTerm.dis hd) (Cert.RefTerm.idx170 tl) (ix1 e')
      = Cert.RefTerm.dis hd (ix1 (node (word tl e'))) :=
    GatherScatterIdx.gather_row_apply (by norm_num) gather_S10000_S170000x1_S170000_n_0_n_n_0_1_1_wf
      (Cert.RefTerm.dis hd) (Cert.RefTerm.idx170 tl) (ix1 e')
  have gh : Host.gather gather_S10000_S170000x1_S170000_n_0_n_n_0_1_1 (Cert.RefTerm.dis hd) (Cert.RefTerm.idx170 hd) (ix1 e')
      = Cert.RefTerm.dis hd (ix1 (node (word hd e'))) :=
    GatherScatterIdx.gather_row_apply (by norm_num) gather_S10000_S170000x1_S170000_n_0_n_n_0_1_1_wf
      (Cert.RefTerm.dis hd) (Cert.RefTerm.idx170 hd) (ix1 e')
  unfold Cert.RefTerm.norm
  rw [mulf_apply, gt, gh, dis_apply hd d hhd hd', dis_apply hd d hhd hd', (word_spec tl htl e').2, (word_spec hd hhd e').2]
  obtain rfl : (fun e => node (tl (ix1 e))) = s := funext hs'
  obtain rfl : (fun e => node (hd (ix1 e))) = d := funext hd'
  rfl

end

end Cert.RefValue

end
-- ==== Proof.RefValueConv.lean ====
/-
  One graph convolution of the reference read at an index, for any table: the rows of the table gathered at the
  tails, each times its edge's weight, scatter-added at the heads into zeros, plus the bias — the specification's
  `convR` of the plain-indexed table and bias.
-/
import proofs.«181894_g58806692217087_cont_9to1_m_85_9_alg».proof.Proof.RefValueDis
import proofs.«181894_g58806692217087_cont_9to1_m_85_9_alg».proof.Proof.LibGatherTable
import proofs.«181894_g58806692217087_cont_9to1_m_85_9_alg».proof.Proof.LibScatterRows

noncomputable section

open scoped BigOperators

namespace Cert.RefValue

open Idealize.ShloMosaic Idealize.ShloMosaic.ValueIdx
open Cert.ReferenceIdeal Cert.ReferenceIdeal.Facts₀ Cert.ReferenceIdeal.Facts

variable [Cert.ReferenceIdeal.Facts]

section
variable (t : FVec Ideal S10000x256 .f32) (b : FVec Ideal S256 .f32) (tl hd : IVec S160000 32)

/-- A message: the table's row at the tail's node, times the edge's weight. -/
theorem msgs_apply (e' : Fin 170000) (c : Fin 256) :
    Cert.RefTerm.msgs t tl hd (ix2 e' c) = t (ix2 (node (word tl e')) c) * Cert.RefTerm.norm tl hd (ix1 e') := by
  unfold Cert.RefTerm.msgs
  rw [mulf_apply, across_apply, col_apply]
  exact congrArg (· * Cert.RefTerm.norm tl hd (ix1 e'))
    (GatherTable.gather_rows_apply (by norm_num) gather_S10000x256_S170000x1_S170000x256_1_0_n_n_0_1_1256_wf
      t (Cert.RefTerm.idx170 tl) e' c)

/-- THE CONVOLUTION READ AT `(n, j)`. -/
theorem conv_apply (s d : Fin 160000 → Fin 10000) (T : Fin 10000 → Fin 256 → EReal) (B : Fin 256 → EReal)
    (htl : InRange tl) (hhd : InRange hd) (hs' : ∀ e, node (tl (ix1 e)) = s e) (hd' : ∀ e, node (hd (ix1 e)) = d e)
    (hT : ∀ n j, t (ix2 n j) = T n j) (hB : ∀ j, b (ix1 j) = B j) (n : Fin 10000) (j : Fin 256) :
    Cert.RefTerm.conv t b tl hd (ix2 n j) = Cert.GcnSpec.convR s d T B n j := by
  unfold Cert.RefTerm.conv Cert.GcnSpec.convR
  rw [addf_apply, rows_apply, hB j]
  refine congrArg (· + B j) ?_
  refine (ScatterRows.scatterAdd_rows_apply scatter_S10000x256_S170000x1_S170000x256_1_0_0_1_wf _ _ _ n j).trans ?_
  rw [bscalar_apply, cst_apply, Ideal.ofBits_zero_f32, zero_add, Finset.sum_filter, Finset.sum_filter]
  refine Finset.sum_congr rfl fun e' _ => ?_
  obtain ⟨hr, hn⟩ := word_spec hd hhd e'
  have hdf : (fun e => node (hd (ix1 e))) = d := funext hd'
  have hsf : (fun e => node (tl (ix1 e))) = s := funext hs'
  refine if_congr ((toInt_eq_iff_node_eq hr n).trans (by rw [hn, hdf])) ?_ rfl
  rw [msgs_apply, norm_apply tl hd s d htl hhd hs' hd' e', (word_spec tl htl e').2, hsf, hT]

end

end Cert.RefValue

end
-- ==== Proof.RefValuePoint.lean ====
/-
  Two stages of the reference read at an index: the leaky rectifier is the specification's at each entry, and the
  pooled row at column `j` is the column sum over the word of 10000.
-/
import proofs.«181894_g58806692217087_cont_9to1_m_85_9_alg».proof.Proof.RefValueBasics
import proofs.«181894_g58806692217087_cont_9to1_m_85_9_alg».proof.Proof.Spec

noncomputable section

open scoped BigOperators

namespace Cert.RefValue

open Idealize.ShloMosaic Idealize.ShloMosaic.ValueIdx
open Cert.ReferenceIdeal Cert.ReferenceIdeal.Facts₀ Cert.ReferenceIdeal.Facts

variable [Cert.ReferenceIdeal.Facts]

/-- The leaky rectifier at an entry: the entry where it is positive, else the slope word times it. -/
theorem leaky_apply (h : FVec Ideal S10000x256 .f32) (n : Fin 10000) (k : Fin 256) :
    Cert.RefTerm.leaky h (ix2 n k) = Cert.GcnSpec.leaky (h (ix2 n k)) := by
  unfold Cert.RefTerm.leaky Cert.GcnSpec.leaky
  rw [select_apply, cmpf_apply, mulf_apply, bscalar_apply, bscalar_apply, cst_apply, cst_apply, Ideal.ofBits_zero_f32]
  show Scalar.select (BitVec.ofBool (decide ((0 : EReal) < h (ix2 n k)))) (h (ix2 n k))
      (Ideal.ofBits .f32 0x3DCCCCCD#32 * h (ix2 n k)) = _
  by_cases hp : (0 : EReal) < h (ix2 n k)
  · rw [if_pos hp, decide_eq_true hp]; exact select_one _ _
  · rw [if_neg hp, decide_eq_false hp]; exact select_zero _ _

/-- The pooled row at column `j`: the column sum divided by the word of 10000. -/
theorem pool_apply (o : FVec Ideal S10000x256 .f32) (j : Fin 256) :
    Cert.RefTerm.pool o (ix2 (0 : Fin 1) j) = Ideal.div (∑ n : Fin 10000, o (ix2 n j)) Cert.GcnSpec.c10000 := by
  unfold Cert.RefTerm.pool
  rw [hostDivf_apply, row_apply, colsum0_apply, bscalar_apply, cst_apply]
  rfl

end Cert.RefValue

end
-- ==== Proof.RefValue.lean ====
/-
  THE REFERENCE'S RESULT READ AT AN INDEX.  With every word of the edge array in [0, 10000), entry (0, j) of the
  reference's result is the specification's `GR` of the plain-indexed arguments, the tails and heads being the nodes
  the words of rows 0 and 1 of the edge array name.  The stages compose: the normalised features (`hR`), the product
  with the first weight (`mm`), the first convolution (`convR`), the leaky rectifier, the product with the second
  weight, the second convolution, and the mean over the nodes.
-/
import proofs.«181894_g58806692217087_cont_9to1_m_85_9_alg».proof.Proof.RefValueBn
import proofs.«181894_g58806692217087_cont_9to1_m_85_9_alg».proof.Proof.RefValueConv
import proofs.«181894_g58806692217087_cont_9to1_m_85_9_alg».proof.Proof.RefValuePoint

noncomputable section

open scoped BigOperators

namespace Cert.RefValue

open Idealize.ShloMosaic Idealize.ShloMosaic.ValueIdx
open Cert.ReferenceIdeal Cert.ReferenceIdeal.Facts₀ Cert.ReferenceIdeal.Facts

variable [Cert.ReferenceIdeal.Facts]

theorem term_apply (a0 : FVec Ideal S10000x256 .f32) (a1 : IVec S2x160000 32) (a2 a3 : FVec Ideal S256 .f32)
    (a4 : FVec Ideal S256x256 .f32) (a5 : FVec Ideal S256 .f32) (a6 : FVec Ideal S256x256 .f32)
    (a7 : FVec Ideal S256 .f32) (hrange : ∀ i, 0 ≤ (a1 i).toInt ∧ (a1 i).toInt < 10000) (j : Fin 256) :
    Cert.RefTerm.term a0 a1 a2 a3 a4 a5 a6 a7 (ix2 (0 : Fin 1) j)
      = Cert.GcnSpec.GR (fun n k => a0 (ix2 n k)) (fun k => a2 (ix1 k)) (fun k => a3 (ix1 k))
          (fun k j => a4 (ix2 k j)) (fun k => a5 (ix1 k)) (fun k j => a6 (ix2 k j)) (fun k => a7 (ix1 k))
          (fun e => Cert.RefValue.node (a1 (ix2 (0 : Fin 2) e))) (fun e => Cert.RefValue.node (a1 (ix2 (1 : Fin 2) e))) j := by
  have htl : InRange (Cert.RefTerm.tails a1) := fun e => by rw [tails_apply]; exact hrange _
  have hhd : InRange (Cert.RefTerm.heads a1) := fun e => by rw [heads_apply]; exact hrange _
  have hs' : ∀ e, node (Cert.RefTerm.tails a1 (ix1 e)) = node (a1 (ix2 (0 : Fin 2) e)) := fun e => by rw [tails_apply]
  have hd' : ∀ e, node (Cert.RefTerm.heads a1 (ix1 e)) = node (a1 (ix2 (1 : Fin 2) e)) := fun e => by rw [heads_apply]
  -- the first product
  have hY : ∀ n j, Cert.RefTerm.dot (Cert.RefTerm.bn a0 a2 a3) a4 (ix2 n j)
      = Cert.GcnSpec.mm (Cert.GcnSpec.hR (fun n k => a0 (ix2 n k)) (fun k => a2 (ix1 k)) (fun k => a3 (ix1 k)))
          (fun k j => a4 (ix2 k j)) n j :=
    fun n j => (dot_apply _ _ n j).trans (Finset.sum_congr rfl fun k _ => by rw [bn_apply])
  -- the first convolution
  have hO1 : ∀ n k, Cert.RefTerm.conv (Cert.RefTerm.dot (Cert.RefTerm.bn a0 a2 a3) a4) a5 (Cert.RefTerm.tails a1)
        (Cert.RefTerm.heads a1) (ix2 n k)
      = Cert.GcnSpec.convR (fun e => node (a1 (ix2 (0 : Fin 2) e))) (fun e => node (a1 (ix2 (1 : Fin 2) e)))
          (Cert.GcnSpec.mm (Cert.GcnSpec.hR (fun n k => a0 (ix2 n k)) (fun k => a2 (ix1 k)) (fun k => a3 (ix1 k)))
            (fun k j => a4 (ix2 k j))) (fun k => a5 (ix1 k)) n k :=
    fun n k => conv_apply _ _ _ _ _ _ _ _ htl hhd hs' hd' hY (fun _ => rfl) n k
  -- the rectifier and the second product
  have hG : ∀ n j, Cert.RefTerm.dot (Cert.RefTerm.leaky (Cert.RefTerm.conv (Cert.RefTerm.dot (Cert.RefTerm.bn a0 a2 a3) a4) a5
        (Cert.RefTerm.tails a1) (Cert.RefTerm.heads a1))) a6 (ix2 n j)
      = Cert.GcnSpec.mm (fun n k => Cert.GcnSpec.leaky
          (Cert.GcnSpec.convR (fun e => node (a1 (ix2 (0 : Fin 2) e))) (fun e => node (a1 (ix2 (1 : Fin 2) e)))
            (Cert.GcnSpec.mm (Cert.GcnSpec.hR (fun n k => a0 (ix2 n k)) (fun k => a2 (ix1 k)) (fun k => a3 (ix1 k)))
              (fun k j => a4 (ix2 k j))) (fun k => a5 (ix1 k)) n k)) (fun k j => a6 (ix2 k j)) n j :=
    fun n j => (dot_apply _ _ n j).trans (Finset.sum_congr rfl fun k _ => by rw [leaky_apply, hO1])
  -- the second convolution and the mean over the nodes
  unfold Cert.RefTerm.term Cert.GcnSpec.GR
  rw [pool_apply]
  exact congrArg (fun s => Ideal.div s Cert.GcnSpec.c10000)
    (Finset.sum_congr rfl fun n _ => conv_apply _ _ _ _ _ _ _ _ htl hhd hs' hd' hG (fun _ => rfl) n j)

end Cert.RefValue

end
-- ==== Proof.lean ====
/-
  A two-layer graph convolution with mean pooling, against its plain reference.

  Both programs normalise the node features X (10000 nodes, 256 features) column by column — centred, divided by
  √(var + ε), scaled by γ and shifted by β —, apply one graph convolution with the symmetric normalisation
  D^(-1/2) (A + I) D^(-1/2) (deg n = 1 + the number of edges into n, the 160000 edges given by their tails s and heads d)
  to X̂ · W1 with bias b1, a leaky rectifier, a second such convolution to h1 · W2 with bias b2, and return the mean over
  the nodes, a row of 256 numbers.

  The reference runs both convolutions over the list "the given edges, then one self loop per node": for a table t,
      conv t n = Σ_{e' : head e' = n} dis (tail e') · dis n · t (tail e') + b,    dis n = deg n ^ (-1/2).
  The kernel computes X̂ · W1 in a first call, then on the host cnt (a scatter-add of ones at the heads),
  dis = rsqrt (cnt + 1), zt = dis · y, acc n = Σ_{e : d e = n} zt (s e) and ss n = Σ_{e : s e = n} dis (d e), and in a second
  call  out1 = dis · (acc + zt) + b1  (the first convolution, the self loop being the term dis · zt),  h1 = leaky out1,
      w n = dis n · (dis n + ss n)    — the column sums of the normalised adjacency —,
      result = ((Σ_n h1 n · w n) · (1/10000)) · W2 + b2:
  the mean over the nodes is pulled through the second convolution, because
      (1/N) Σ_n Σ_{e' : head = n} dis (tail) dis n g (tail) = (1/N) Σ_n w n · g n      (every edge has exactly one head),
  and g = h1 · W2 is linear in h1. The kernel's product with the constant 1/10000 meets the reference's division by
  10000; the kernel's x̂ · (γ · rsqrt (var + ε)) meets the reference's x̂ / √(var + ε) · γ because var + ε > 0.

  These identities are laws of the real numbers, not of the extended reals (distributivity fails at infinities), so
  the proof uses that every float input is finite; and they count each edge once at its head and once at its tail, so
  it uses that every entry of the edge array is a node index in [0, 10000) — outside that range a gather clamps its index
  while a scatter drops the update, and the two programs count different edges.

  The modules: Spec (both results as functions GK, GR of plain-indexed arguments), Algebra (GK = GR for real
  arguments), KernelRun / KernelRegion / KernelTerm / KernelResult (the kernel program's run with its result buffer
  named as one term of the arguments), KernelBody0 / KernelBody1 / KernelStages / KernelValue (that term read at an index
  is GK), RefTerm / RefRun (the reference's run ends at its term), RefValue (that term read at an index is GR), PreFacts
  (the precondition says the inputs are real and the indices in range).
-/
import proofs.«181894_g58806692217087_cont_9to1_m_85_9_alg».proof.Defs
import proofs.«181894_g58806692217087_cont_9to1_m_85_9_alg».proof.Proof.Gen.Kernel
import proofs.«181894_g58806692217087_cont_9to1_m_85_9_alg».proof.Proof.Gen.Kernel.Frame
import proofs.«181894_g58806692217087_cont_9to1_m_85_9_alg».proof.Proof.Gen.KernelIdeal
import proofs.«181894_g58806692217087_cont_9to1_m_85_9_alg».proof.Proof.Gen.KernelIdeal.Frame
import proofs.«181894_g58806692217087_cont_9to1_m_85_9_alg».proof.Proof.Gen.ReferenceIdeal
import proofs.«181894_g58806692217087_cont_9to1_m_85_9_alg».proof.Proof.Gen.Pre_finite_inputs
import proofs.«181894_g58806692217087_cont_9to1_m_85_9_alg».proof.Proof.KernelResult
import proofs.«181894_g58806692217087_cont_9to1_m_85_9_alg».proof.Proof.KernelValue
import proofs.«181894_g58806692217087_cont_9to1_m_85_9_alg».proof.Proof.Algebra
import proofs.«181894_g58806692217087_cont_9to1_m_85_9_alg».proof.Proof.PreFacts
import proofs.«181894_g58806692217087_cont_9to1_m_85_9_alg».proof.Proof.RefRun
import proofs.«181894_g58806692217087_cont_9to1_m_85_9_alg».proof.Proof.RefValue
import Idealize.ShloMosaic.Lib.ValueIdx

set_option maxRecDepth 16384

noncomputable section

namespace Cert.Proof

open Idealize.ShloMosaic Idealize.ShloMosaic.TcCoe Idealize.SL.Sem Idealize.ShloMosaic.ValueIdx

/-- The word-level kernel program terminates without a fault and leaves its arguments unchanged. -/
theorem frame_p : Cert.frame_Kernel (hKernel := Cert.Kernel.Gen.facts) (hPre_finite_inputs := Cert.Pre_finite_inputs.Gen.facts) :=
  fun m ρ _ => Cert.Kernel.Gen.frame m ρ

/-- So does the idealized kernel program. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The one difference between the word-level kernel program and its idealization: the constant the kernel multiplies
    the pooled sum by (the float nearest 1/10000) is read as the rational 1/10000. -/
theorem preserves : Cert.preserves_Kernel_KernelIdeal :=
  IdealRules.named_const.statement Cert.KernelIdeal.κ "inv_10000" .f32 0x38D1B717#32 ((1 / 10000 : ℝ) : EReal) rfl

/-- Over the extended reals both programs end with the same row: the kernel's result buffer is its term of the
    arguments, which read at column j is GK; the reference's is its term, which read at column j is GR; and GK = GR
    for real arguments and in-range edge indices. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.GcnTerm.kerTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.GcnResult.run m ρ, ?_⟩
  refine (θ_run Cert.ReferenceIdeal.defs _ _).mono (fun r h c => ⟨(h c).1.trans ?_, (h c).2⟩) (Cert.RefRun.run m' ρ')
  obtain ⟨e0, e1, e2, e3, e4, e5, e6, e7⟩ := hagree c
  rw [e0, e1, e2, e3, e4, e5, e6, e7]
  obtain ⟨h0, h2, h3, h4, h5, h6, h7, hr⟩ := Cert.PreFacts.of_pre _ _ _ _ _ _ _ _ (hpre c)
  funext i
  obtain ⟨z, j, rfl⟩ : ∃ (z : Fin 1) (j : Fin 256), i = ix2 z j := ⟨i 0, i 1, eq_ix2 i⟩
  obtain rfl : z = 0 := Subsingleton.elim _ _
  rw [Cert.RefValue.term_apply _ _ _ _ _ _ _ _ hr j]
  refine Eq.trans ?_ (Cert.KernelValue.kerTerm_apply _ _ _ _ _ _ _ _ hr j).symm
  exact (Cert.GcnAlgebra.GK_eq_GR _ _ _ _ _ _ _ _ _ (fun n k => h0 _) (fun k => h2 _) (fun k => h3 _) (fun k j => h4 _) (fun k => h5 _) (fun k j => h6 _) (fun k => h7 _) j).symm

theorem claim : Cert.Claim :=
  ⟨Cert.Kernel.Gen.facts, Cert.KernelIdeal.Gen.facts, Cert.ReferenceIdeal.Gen.facts, Cert.Pre_finite_inputs.Gen.facts,
    frame_p, frame_pi, Cert.RefRun.frame_ri, preserves, algebraic⟩

end Cert.Proof

end
